-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024x1024 .f32) (main_arg5 : FVec F S2048x1024 .f32) (main_arg6 : FVec F S1024x2048 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) (main_arg5 : FVec F S2048x1024 .f32) (main_arg6 : FVec F S1024x2048 .f32) (main_arg7 : FVec F S1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩
abbrev S1x512x1024 : Shape := ⟨3, ![1, 512, 1024]⟩
abbrev S512x1024 : Shape := ⟨2, ![512, 1024]⟩
abbrev S1x1024 : Shape := ⟨2, ![1, 1024]⟩
abbrev S1x128x1024 : Shape := ⟨3, ![1, 128, 1024]⟩
abbrev S1x2048x1024 : Shape := ⟨3, ![1, 2048, 1024]⟩
abbrev S128x1024 : Shape := ⟨2, ![128, 1024]⟩
abbrev S128x512 : Shape := ⟨2, ![128, 512]⟩
abbrev S128x2048 : Shape := ⟨2, ![128, 2048]⟩

abbrev nBuf : Space → Nat
  | .hbm => 25
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S1024x2048, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x2048, .f32⟩
  | .hbm, ⟨18, _⟩ => ⟨S1024x2048, .bf16⟩
  | .hbm, ⟨19, _⟩ => ⟨S2048x1024, .f32⟩
  | .hbm, ⟨20, _⟩ => ⟨S2048x1024, .bf16⟩
  | .hbm, ⟨21, _⟩ => ⟨S4x2048x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x128x1024, .bf16⟩
  | .local _ .vmem, ⟨13, _⟩ => ⟨S1x128x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x128x1024, .f32⟩
  | .local _ .vmem, ⟨19, _⟩ => ⟨S1x128x1024, .f32⟩
  | .local _ .vmem, ⟨20, _⟩ => ⟨S1024x1024, .bf16⟩
  | .local _ .vmem, ⟨21, _⟩ => ⟨S1024, .f32⟩
  | .local _ .vmem, ⟨22, _⟩ => ⟨S1024x2048, .bf16⟩
  | .local _ .vmem, ⟨23, _⟩ => ⟨S2048x1024, .bf16⟩
  | .local _ .vmem, ⟨24, _⟩ => ⟨S1x128x1024, .f32⟩
  | .local _ .vmem, ⟨25, _⟩ => ⟨S1x128x1024, .f32⟩
  | .local _ .vmem, ⟨26, _⟩ => ⟨S128x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![4, 16, 4], ![false, false, false]⟩

def k1_mult1 (i : grid1.Coords) : BitVec 32 :=
  let arg2 : BitVec 32 := BitVec.ofNat 32 (i 2).val
  let c512_i32 : BitVec 32 := 512#32
  let v3 : BitVec 32 := Scalar.muli arg2 c512_i32
  v3
def k1_off1 (i : grid1.Coords) : Fin 3 → Nat :=
  let c0 : Index := 0#32
  let arg2 : BitVec 32 := BitVec.ofNat 32 (i 2).val
  let c512_i32 : BitVec 32 := 512#32
  let v3 : BitVec 32 := Scalar.muli arg2 c512_i32
  let v4 : BitVec 32 := v3
  let v5 : Index := Scalar.indexCast v4
  let c0_1 : Index := 0#32
  ![0, v5.toNat, 0]
def k1_cond2 (i : grid1.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_16 : BitVec 32 := 0#32
  let v33 : BitVec 1 := Scalar.cmpi .ne v32 c0_i32_16
  v33

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1024x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S2048x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 2 → Memref sig .tc .vmem S1x128x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

class Facts₀ : Prop where
  transposes_S1024x1024_S1024x1024_1_0 : S1024x1024.Transposes [1, 0] S1024x1024
  bitsLt_bf16_f32 : FTy.bits .bf16 < FTy.bits .f32
  transposes_S2048x1024_S1024x2048_1_0 : S2048x1024.Transposes [1, 0] S1024x2048
  transposes_S1024x2048_S2048x1024_1_0 : S1024x2048.Transposes [1, 0] S2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  broadcasts_S1x1024_S128x1024 : S1x1024.Broadcasts S128x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S128x1024_S1x128x1024 : S128x1024.ShapeCasts S1x128x1024
  dot_S512x1024_S1024x1024_S512x1024_1_0_0_1_n_n_wf : DotDims.WF S512x1024 S1024x1024 S512x1024 [1] [0] [0] [1] [] []
  dot_S128x1024_S512x1024_S128x512_1_1_0_0_n_n_wf : DotDims.WF S128x1024 S512x1024 S128x512 [1] [1] [0] [0] [] []
  dot_S128x512_S512x1024_S128x1024_1_0_0_1_n_n_wf : DotDims.WF S128x512 S512x1024 S128x1024 [1] [0] [0] [1] [] []
  dot_S128x1024_S1024x1024_S128x1024_1_0_0_1_n_n_wf : DotDims.WF S128x1024 S1024x1024 S128x1024 [1] [0] [0] [1] [] []
  dot_S128x1024_S1024x2048_S128x2048_1_0_0_1_n_n_wf : DotDims.WF S128x1024 S1024x2048 S128x2048 [1] [0] [0] [1] [] []
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512x1024.size a ≤ S1x2048x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S4x2048x1024.size a
  hwx1_0 : ∀ i : grid1.Coords, EltTy.bits .bf16 = 32 ∨ (Rect.block (s := S4x2048x1024) S1x128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1024.size a ≤ S4x2048x1024.size a
  hwx1_3 : ∀ i : grid1.Coords, EltTy.bits .f32 = 32 ∨ (Rect.block (s := S4x2048x1024) S1x128x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x2048.size a ≤ S1024x2048.size a
  hwx1_6 : ∀ i : grid1.Coords, EltTy.bits .bf16 = 32 ∨ (Rect.block (s := S1024x2048) S1024x2048.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x1024.size a ≤ S2048x1024.size a
  hwx1_7 : ∀ i : grid1.Coords, EltTy.bits .bf16 = 32 ∨ (Rect.block (s := S2048x1024) S2048x1024.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128x1024.size a ≤ S4x2048x1024.size a
  hwx1_8 : ∀ i : grid1.Coords, EltTy.bits .f32 = 32 ∨ (Rect.block (s := S4x2048x1024) S1x128x1024.size (cc1_transform_8 i) (hinb1_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S128x1024_S512x1024_S128x512_1_1_0_0_n_n : DotDims S128x1024 S512x1024 S128x512 where
  lhsContracting := [1]
  rhsContracting := [1]
  lhsNonContracting := [0]
  rhsNonContracting := [0]
  lhsBatch := []
  rhsBatch := []
  wf := dot_S128x1024_S512x1024_S128x512_1_1_0_0_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_2) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v12_0) S1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_2) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S2048x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13) S1x128x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S1024x2048, .f32⟩
  | .hbm, ⟨7, _⟩ => ⟨S1024, .f32⟩
  | .hbm, ⟨8, _⟩ => ⟨S1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S4x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S4x2048x1024, .f32⟩
  | .hbm, ⟨62, _⟩ => ⟨S4x2048x1024, .f32⟩
  | .hbm, ⟨63, _⟩ => ⟨S4x2048x2048, .f32⟩
  | .hbm, ⟨64, _⟩ => ⟨S_, .f32⟩
  | .hbm, ⟨65, _⟩ => ⟨S4x2048x2048, .f32⟩
  | .hbm, ⟨66, _⟩ => ⟨S4x2048x2048, .f32⟩
  | .hbm, ⟨67, _⟩ => ⟨S4x2048x2048, .f32⟩
  | .hbm, ⟨68, _⟩ => ⟨S_, .f32⟩
  | .hbm, ⟨69, _⟩ => ⟨S4x2048x2048, .f32⟩
  | .hbm, ⟨70, _⟩ => ⟨S4x2048x2048, .f32⟩
  | .hbm, ⟨71, _⟩ => ⟨S_, .f32⟩
  | .hbm, ⟨72, _⟩ => ⟨S4x2048x2048, .f32⟩
  | .hbm, ⟨73, _⟩ => ⟨S4x2048x2048, .f32⟩
  | .hbm, ⟨74, _⟩ => ⟨S4x2048x2048, .f32⟩
  | .hbm, ⟨75, _⟩ => ⟨S4x2048x1024, .f32⟩
  | .hbm, ⟨76, _⟩ => ⟨S_, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S4x2048x1024, .f32⟩
  | .hbm, ⟨81, _⟩ => ⟨S4x2048x1024, .f32⟩
  | .hbm, ⟨82, _⟩ => ⟨S_, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S_, .f32⟩
  | .hbm, ⟨87, _⟩ => ⟨S4x2048x1024, .f32⟩
  | .hbm, ⟨88, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_v52 : Ref sig .tc := ⟨.hbm, 78, rfl⟩
abbrev main_cst_16 : Ref sig .tc := ⟨.hbm, 79, rfl⟩
abbrev main_v53 : Ref sig .tc := ⟨.hbm, 80, rfl⟩
abbrev main_v54 : Ref sig .tc := ⟨.hbm, 81, rfl⟩
abbrev main_cst_17 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_18 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x1024 : S_.BroadcastsInDim S4x2048x1024 (![] : Fin 0 → Fin S4x2048x1024.rank)
  bcast_S_S4x2048x2048 : S_.BroadcastsInDim S4x2048x2048 (![] : Fin 0 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S2048x1024_S4x2048x2048_2_1_01_0_n_n_wf : DotDims.WF S4x2048x1024 S2048x1024 S4x2048x2048 [2] [1] [0, 1] [0] [] []
  dot_S4x2048x2048_S1024x2048_S4x2048x1024_2_1_01_0_n_n_wf : DotDims.WF S4x2048x2048 S1024x2048 S4x2048x1024 [2] [1] [0, 1] [0] [] []

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S2048x1024_S4x2048x2048_2_1_01_0_n_n : DotDims S4x2048x1024 S2048x1024 S4x2048x2048 where
  lhsContracting := [2]
  rhsContracting := [1]
  lhsNonContracting := [0, 1]
  rhsNonContracting := [0]
  lhsBatch := []
  rhsBatch := []
  wf := dot_S4x2048x1024_S2048x1024_S4x2048x2048_2_1_01_0_n_n_wf
def dot_S4x2048x2048_S1024x2048_S4x2048x1024_2_1_01_0_n_n : DotDims S4x2048x2048 S1024x2048 S4x2048x1024 where
  lhsContracting := [2]
  rhsContracting := [1]
  lhsNonContracting := [0, 1]
  rhsNonContracting := [0]
  lhsBatch := []
  rhsBatch := []
  wf := dot_S4x2048x2048_S1024x2048_S4x2048x1024_2_1_01_0_n_n_wf

class Facts : Prop extends Facts₀ where

variable [Facts]
-- ==== Proof.K.Base.lean ====
/-
  What the modules about the word-level kernel share: the type of the buffer contents a region is entered from.
-/
import proofs.«163628_j7679401525971_2_alg».proof.Proof.Gen.Kernel.Launch
import proofs.«163628_j7679401525971_2_alg».proof.Proof.Gen.Kernel.Skeleton
import proofs.«163628_j7679401525971_2_alg».proof.Proof.Gen.Kernel.Points

noncomputable section

namespace Cert.Kernel.Hand

open Idealize.ShloMosaic Idealize.ShloMosaic.TcCoe Idealize.SL.Sem
open Cert.Kernel

/-- Every core's buffer contents, reference by reference, as a region finds them. -/
abbrev VT (F : FTy → Type) [FloatOps F] : Type :=
  (c : Dev nD) → (b : Ref sig .tc) → Buf (Elt F) ((c : Thread nD τ).loc b)

end Cert.Kernel.Hand

end
-- ==== Proof.K.R0Body.lean ====
/-
  Region 0 of the word-level kernel (the projection kernel), at any float model: what each of its three output
  windows' staging buffers holds after the body at a grid point, as a function of the five input windows' blocks
  there; the body's triple; the pipeline's proof data at a parameter `V` (every core's buffer contents when the
  region is entered); and the body obligation at every point.
-/
import proofs.«163628_j7679401525971_2_alg».proof.Proof.K.Base
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : VT F)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA : Rect S1x512x1024 := Rect.unit (s := S1x512x1024) ![0, 0, 0] S1x512x1024.size inb_S1x512x1024_S1x512x1024_0_0_0
abbrev rL : Rect S1024 := Rect.unit (s := S1024) ![0] S1024.size inb_S1024_S1024_0
abbrev rW : Rect S1024x1024 := Rect.unit (s := S1024x1024) ![0, 0] S1024x1024.size inb_S1024x1024_S1024x1024_0_0

/-! ## What the body leaves in each output window's buffer -/

/-- Window 5's staging buffer after the body: one whole-block store of the first projection of the scaled rows. -/
def out0_5 (x0 : Vec F S1x512x1024 .f32) (x1 : Vec F S1024 .f32) (x2 : Vec F S1024x1024 .bf16) : Vec F S1x512x1024 .bf16 :=
  View.canon [⟨rA, k0_pay3 (View.ld x0 rA) (View.ld x1 rL) (View.ld x2 rW)⟩]

/-- Window 6's: the second projection. -/
def out0_6 (x0 : Vec F S1x512x1024 .f32) (x1 : Vec F S1024 .f32) (x3 : Vec F S1024x1024 .bf16) : Vec F S1x512x1024 .bf16 :=
  View.canon [⟨rA, k0_pay4 (View.ld x0 rA) (View.ld x1 rL) (View.ld x3 rW)⟩]

/-- Window 7's: the third projection. -/
def out0_7 (x0 : Vec F S1x512x1024 .f32) (x1 : Vec F S1024 .f32) (x4 : Vec F S1024x1024 .bf16) : Vec F S1x512x1024 .bf16 :=
  View.canon [⟨rA, k0_pay1 (k0_pay5 (View.ld x0 rA) (View.ld x1 rL) (View.ld x4 rW))⟩]

/-- One whole-block store covers the buffer. -/
theorem cover0_out (p0 : Vec F S1x512x1024 .bf16) (y : S1x512x1024.Idx) :
    ∃ pc ∈ ([⟨rA, p0⟩] : List (View.Piece (Elt F) S1x512x1024 .bf16)), y ∈ pc.1.set :=
  View.cover_of_tiled [⟨rA, p0⟩] S1x512x1024.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords)
    (arg0 : Memref sig .tc .vmem S1x512x1024 .f32) (harg0 : arg0.IsWhole)
    (arg1 : Memref sig .tc .vmem S1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1x512x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (x0 : Vec F S1x512x1024 .f32) (x1 : Vec F S1024 .f32) (x2 x3 x4 : Vec F S1024x1024 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2) ∗ owns (c : Thread nD τ) arg6 fullShare (out0_6 x0 x1 x3)
            ∗ owns (c : Thread nD τ) arg7 fullShare (out0_7 x0 x1 x4)) -∗ K ⟨⟩))
      ⊢ wp frame (wpE (defs₀ (F := F)) Variants.none c none) E
          (cc0__qkv_kernel i arg0 harg0 arg1 harg1 arg2 harg2 arg3 harg3 arg4 harg4 arg5 harg5 arg6 harg6 arg7 harg7) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 1 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 1 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the body's triple applies; the invariant and
    the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  The second region (attention over key tiles, output projection and the two-layer map) at a point of its grid
  (batch entry b, query tile qi of 128 rows, key tile ki of 512 rows): what the runs of its body share.

  The body accumulates, in a buffer of its own kept from point to point, the attention rows of the query tile over
  the four key tiles: at ki = 0 it first clears the buffer, at every ki it adds the tile's contribution, and at
  ki = 3 it reads the sum, finishes the block and stores the result's block. So a point is in one of three cases:
  first tile, middle tile, last tile. Here: each window's block at a point, the two conditions in closed form over
  the grid, where the result's window is idle, and the memrefs the body is called with.
-/
import proofs.«163628_j7679401525971_2_alg».proof.Proof.K.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : VT F)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the block
    index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the block
    index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the block
    index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the block
    index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the block
    index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: unfetched, the block
    index has not moved since the fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: unfetched, the block
    index has not moved since the fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: unfetched, the block
    index has not moved since the fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first key tile": the condition under which the body clears its accumulator. -/
abbrev cond1_0 (i : grid1.Coords) : Prop := (Scalar.cmpi .ne (Scalar.extui (Scalar.cmpi .eq (BitVec.ofNat 32 (i 2).val) 0#32)) 0#32) = 1#1
/-- It holds at the points whose number is a multiple of 4 (the key tile is the grid's last axis, of extent 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the condition under which the body finishes the block and stores the result. -/
abbrev cond1_1 (i : grid1.Coords) : Prop := k1_cond2 i = 1#1
/-- It holds at the points whose number is 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the result's window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
/-- Before the last key tile nothing is stored into the result's block: its window is idle there and not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- At the last key tile the window is live. -/
theorem liveAt1_8 : ∀ t : Fin cfg1.N, cond1_1 (grid1.coords t) → cfg1.idle 8 (grid1.coords t) = false := by decide +kernel

/-! ## The memrefs the body is called with -/

/-- One staging buffer of the result's window, through which its contents are stated. -/
abbrev VO1_8 : View sig .tc .vmem S1x128x1024 .f32 := (Memref.whole cc1_stg8_0 : Memref sig .tc .vmem S1x128x1024 .f32).view
abbrev ms1_0 (t : Fin cfg1.N) : Memref sig .tc .vmem S1x128x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x2048 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1024 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128x1024 .f32 := win1_8.stage (cfg1.slots t 8)
abbrev hs1_8 (t : Fin cfg1.N) : (ms1_8 t).IsWhole := hstage1_8 ((cfg1.slots t 8).cast nbuf1_8)
/-- The accumulator: a whole buffer of the kernel's own, passed beside the windows. -/
abbrev scM1 : Memref sig .tc .vmem S128x1024 .f32 := Memref.whole cc1_scratch0
abbrev VS1 : View sig .tc .vmem S128x1024 .f32 := scM1.view

/-- The region's plain invariant with the accumulator as a memref owned at some contents, the other buffers of the
    first region's staging beside it: what the body obligation hands a run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.K.R1RunB.lean ====
/-
  The second region's body run whole in the case of a middle key tile (neither the first nor the last): on whole staging buffers, the inputs at their
  blocks and the result's buffer at anything, the body runs to a state holding the inputs and the result's buffer as
  they were and the accumulator with its stores written; the list of those stores is what the run finds.
-/
import proofs.«163628_j7679401525971_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The stores the body leaves in the accumulator (last first) in the case of a middle key tile (neither the first nor the last), with the proof that the
    body runs to them. -/
noncomputable def kernelRun1_B (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : ¬cond1_1 i)
    (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) :
    { LS0 : List (View.Piece (Elt F) S128x1024 .f32) //
      ∀ (d8 : Vec F S1x128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ (∃ f, arg12.view.loc (c : Thread nD τ) ↦[arg12.view.set]{fullShare} arg12.view.writes (Elt F) f LS0)) -∗ K ⟨⟩))
          ⊢ wp frame (wpE (defs₀ (F := F)) Variants.none c none) E (cc1__attn_mlp_kernel i arg3 harg3 arg4 harg4 arg5 harg5 arg6 harg6 arg7 harg7 arg8 harg8 arg9 harg9 arg10 harg10 arg11 harg11 arg12 harg12) K } := by
  refine ⟨?_, fun d8 E K => ?run⟩
  case run =>
    simp only [cc1__attn_mlp_kernel_eq_skeleton]; unfold cc1__attn_mlp_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists f8; isplitr; · ipureintro; exact hf8
      iexact H8
    iexists _; iexact HS0

end Cert.Kernel.Hand

end
-- ==== Proof.K.R1RunA.lean ====
/-
  The second region's body run whole in the case of the first key tile: on whole staging buffers, the inputs at their
  blocks and the result's buffer at anything, the body runs to a state holding the inputs and the result's buffer as
  they were and the accumulator with its stores written; the list of those stores is what the run finds.
-/
import proofs.«163628_j7679401525971_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The stores the body leaves in the accumulator (last first) in the case of the first key tile, with the proof that the
    body runs to them. -/
noncomputable def kernelRun1_A (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : cond1_0 i) (hc1 : ¬cond1_1 i)
    (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) :
    { LS0 : List (View.Piece (Elt F) S128x1024 .f32) //
      ∀ (d8 : Vec F S1x128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ (∃ f, arg12.view.loc (c : Thread nD τ) ↦[arg12.view.set]{fullShare} arg12.view.writes (Elt F) f LS0)) -∗ K ⟨⟩))
          ⊢ wp frame (wpE (defs₀ (F := F)) Variants.none c none) E (cc1__attn_mlp_kernel i arg3 harg3 arg4 harg4 arg5 harg5 arg6 harg6 arg7 harg7 arg8 harg8 arg9 harg9 arg10 harg10 arg11 harg11 arg12 harg12) K } := by
  refine ⟨?_, fun d8 E K => ?run⟩
  case run =>
    simp only [cc1__attn_mlp_kernel_eq_skeleton]; unfold cc1__attn_mlp_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists f8; isplitr; · ipureintro; exact hf8
      iexact H8
    iexists _; iexact HS0

end Cert.Kernel.Hand

end
-- ==== Proof.K.R1RunC.lean ====
/-
  The second region's body run whole in the case of the last key tile: on whole staging buffers, the inputs at their
  blocks, the body runs to a state holding the inputs as they were and the buffers it stored into with its stores
  written; the list of those stores is what the run finds.
-/
import proofs.«163628_j7679401525971_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The stores the body leaves (last first) in the case of the last key tile, with the proof that the body runs to them. -/
noncomputable def kernelRun1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i)
    (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) :
    Σ' (L8 : List (View.Piece (Elt F) S1x128x1024 .f32)), { LS0 : List (View.Piece (Elt F) S128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__attn_mlp_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__attn_mlp_kernel_eq_skeleton]; unfold cc1__attn_mlp_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.Kernel.Hand

end
-- ==== Proof.K.R1Body.lean ====
/-
  The second region, point by point: what the accumulator and the result's staging buffer hold after each point,
  the region's invariant (the accumulator at what the point before left in it), the proof data, and the body
  obligation at every point.
-/
import proofs.«163628_j7679401525971_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : VT F)

/-! ## What each case leaves -/

/-- The accumulator after a first key tile: the run's stores read back. -/
def sout1_A (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) : Vec F S128x1024 .f32 :=
  VS1.read (Elt F) (VS1.writes (Elt F) VS1.junk (kernelRun1_A c i arg3 harg3 arg4 harg4 arg5 harg5 arg6 harg6 arg7 harg7 arg8 harg8 arg9 harg9 arg10 harg10 arg11 harg11 arg12 harg12 hc0 hc1 x0 x1 x2 x3 x4 x5 x6 x7).1)
/-- Those stores cover the accumulator. -/
theorem scover1_A (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (y : S128x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5 x6 x7).1 S128x1024.size (by sl_kernel_rfl) y

/-- The accumulator after a middle key tile, from what the tile before left (`xs0`). -/
def sout1_B (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) : Vec F S128x1024 .f32 :=
  VS1.read (Elt F) (VS1.writes (Elt F) VS1.junk (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).1)
theorem scover1_B (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) (y : S128x1024.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).1 S128x1024.size (by sl_kernel_rfl) y

/-- The accumulator after the last key tile. -/
def sout1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) : Vec F S128x1024 .f32 :=
  VS1.read (Elt F) (VS1.writes (Elt F) VS1.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1)
theorem scover1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) (y : S128x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1 S128x1024.size (by sl_kernel_rfl) y
/-- The result's staging buffer after the last key tile. -/
def out1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) : Vec F S1x128x1024 .f32 :=
  VO1_8.read (Elt F) (VO1_8.writes (Elt F) VO1_8.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1)
theorem cover1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) (y : S1x128x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1 S1x128x1024.size (by sl_kernel_rfl) y

/-- Before the last key tile the result's buffer holds nothing the pipeline reads: a placeholder. -/
def outIdle1 : Vec F S1x128x1024 .f32 := VO1_8.read (Elt F) VO1_8.junk

/-! ## Point by point -/

/-- What the result's staging buffer and the accumulator hold after the body at position `n`: the case the closed
    forms select at `n`, run on the point's blocks, the accumulator read at what position `n - 1` left. -/
def outsAt1 (c : Dev nD) : (n : ℕ) → n < cfg1.N → Vec F S1x128x1024 .f32 × Vec F S128x1024 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 4 = 0 then
      if h1 : (n + 1) % 4 = 3 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- What rides beside the accumulator through every point: the first region's staging buffers, each at anything,
    and the generator register at some state. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ r, prngReg c r))

theorem PhiA1_split (c : Dev nD) : (Pipeline.ΦA spec1 c : sProp 𝕄) ⊢ iprop((∃ d, owns (c : Thread nD τ) scM1 fullShare d) ∗ rest1 (F := F) c) := by
  rw [PhiA1_eq]; unfold rest1
  iintro ⟨⟨Hr0, Hr1, Hr2, Hr3, Hr4, Hr5, Hr6, Hr7, Hr8, Hr9, Hr10, Hr11, HS⟩, Hg⟩
  isplitl [HS]; · iexact HS
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  iexact Hg

theorem PhiA1_join (c : Dev nD) : iprop((∃ d, owns (c : Thread nD τ) scM1 fullShare d) ∗ rest1 (F := F) c) ⊢ (Pipeline.ΦA spec1 c : sProp 𝕄) := by
  rw [PhiA1_eq]; unfold rest1
  iintro ⟨HS, Hr0, Hr1, Hr2, Hr3, Hr4, Hr5, Hr6, Hr7, Hr8, Hr9, Hr10, Hr11, Hg⟩
  isplitr [Hg]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    iexact HS
  iexact Hg

/-- The region's invariant before position `n`: before the first point the plain one (the accumulator at anything);
    afterwards the accumulator at what the point before left in it. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ rest1 (F := F) c) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 (F := F) c) := by
  cases n with
  | zero => exact absurd rfl hz
  | succ n => rfl

/-! ## The proof data -/

/-- The second region's proof data on core `c`: the arrays as the region finds them; after the body at a point each
    input's buffer at its block and the result's at what `outsAt1` says; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the inputs' buffers hold their blocks; the closed forms say which case the point is in;
    the invariant hands the body the accumulator at what the point before left (at anything at the very first point)
    and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 4 = 0
  · by_cases h1 : t.val % 4 = 3
    · exfalso; omega
    · rw [Dat.leavesExact_idle (dat1 V c) 8 t (idleAt1_8 t (fun h => h1 ((hcond1_1 t).mp h))) (noFlush1_8 t (fun h => h1 ((hcond1_1 t).mp h)))]
      rw [outsAt1_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        ihave HΦ' := (PhiA1_split (F := F) c) $$ HΦ
        icases HΦ' with ⟨HS0, Hrest⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS1_castSucc V c t, PhiS1_pos V c _ _ hz]
        iintro ⟨⟨HS0, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 4 = 3
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C sout1_C; (try dsimp only)
      have hz : t.val ≠ 0 := by omega
      rw [PhiS1_castSucc V c t, PhiS1_pos V c _ _ hz]
      iintro ⟨⟨HS0, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hrest]
      · isplitl [HS0]
        · unfold owns; iexists _; isplitr
          swap; · iexact HS0
          ipureintro; exact View.read_writes_of_cover _ _ _ _ _ (scover1_C c _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C c _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨HS0, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hrest]
      · isplitl [HS0]
        · unfold owns; iexists _; isplitr
          swap; · iexact HS0
          ipureintro; exact View.read_writes_of_cover _ _ _ _ _ (scover1_B c _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: what the accumulator holds is forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ hne]
  have h : ∀ x : Vec F S128x1024 .f32, (iprop(owns (c : Thread nD τ) scM1 fullShare x ∗ rest1 (F := F) c) : sProp 𝕄)
      ⊢ iprop((∃ d, owns (c : Thread nD τ) scM1 fullShare d) ∗ rest1 (F := F) c) := by
    intro x
    iintro ⟨HS0, Hrest⟩
    isplitl [HS0]; · iexists _; iexact HS0
    iexact Hrest
  exact (h _).trans (PhiA1_join (F := F) c)

end Cert.Kernel.Hand

end
-- ==== Proof.K.Run.lean ====
/-
  THE RUN of @main: twelve host operations (each weight transposed, then rounded to bf16), then the two kernel
  regions, nothing between or after them. The buffer contents at each of the four boundaries are a fold from the
  launch memory; each region is a segment entered from every unscoped buffer at one boundary's contents and left at
  the next; the launch over the three segments ends with every unscoped buffer at the last contents, from which
  the nine arguments are read back as launched and the result array as what region 1's write-backs leave.
-/
import proofs.«163628_j7679401525971_2_alg».proof.Proof.K.R0Body
import proofs.«163628_j7679401525971_2_alg».proof.Proof.K.R1Body
import proofs.«163628_j7679401525971_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the core's references (what region 0's proof data take). -/
abbrev V1 : VT F := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered: no write-back touches it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same read at the core's references (region 0's exit contents, region 1's entry). -/
abbrev V2 : VT F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- The same read at the core's references (region 1's exit contents). -/
abbrev V3 : VT F := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer no host operation writes holds after them what it held at launch. -/
theorem W1_of (c : Dev nD) (r : Ref sig .tc) (h : r ∉ hostOps0_W) : W1 m ρ c r = W0 m ρ c r :=
  StableHlo.after_of_writes_sub hostOps0 _ hostOps0_writes h

/-! ### The arguments end as launched: no host operation writes one, and a region reads one through an input
    window or passes it by -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_in m ρ c 3 rfl
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_in m ρ c 1 rfl
    _ = W0 m ρ c (Proc.devRef .tc main_arg7) := W1_of m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_in m ρ c 5 rfl
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- The result array ends at what region 1's write-backs leave in it. -/
theorem W3_main_v13 (c : Dev nD) : W3 m ρ c (Proc.devRef .tc main_v13) = (dat1 (V2 m ρ) c).arrAt 8 cfg1.N :=
  W3_arr m ρ c 8

/-! ### What the regions find: region 0's inputs at the launch contents and the host operations' results, region 1's
    at those and at what region 0's write-backs leave -/

theorem V1_main_arg0 (c : Dev nD) : V1 m ρ c main_arg0 = m ((c : Thread nD τ).loc main_arg0) :=
  (W1_of m ρ c main_arg0 (by decide)).trans rfl
theorem V1_main_arg1 (c : Dev nD) : V1 m ρ c main_arg1 = m ((c : Thread nD τ).loc main_arg1) :=
  (W1_of m ρ c main_arg1 (by decide)).trans rfl
theorem V1_main_arg2 (c : Dev nD) : V1 m ρ c main_arg2 = m ((c : Thread nD τ).loc main_arg2) :=
  (W1_of m ρ c main_arg2 (by decide)).trans rfl
theorem V1_main_arg3 (c : Dev nD) : V1 m ρ c main_arg3 = m ((c : Thread nD τ).loc main_arg3) :=
  (W1_of m ρ c main_arg3 (by decide)).trans rfl
theorem V1_main_arg4 (c : Dev nD) : V1 m ρ c main_arg4 = m ((c : Thread nD τ).loc main_arg4) :=
  (W1_of m ρ c main_arg4 (by decide)).trans rfl
theorem V1_main_arg5 (c : Dev nD) : V1 m ρ c main_arg5 = m ((c : Thread nD τ).loc main_arg5) :=
  (W1_of m ρ c main_arg5 (by decide)).trans rfl
theorem V1_main_arg6 (c : Dev nD) : V1 m ρ c main_arg6 = m ((c : Thread nD τ).loc main_arg6) :=
  (W1_of m ρ c main_arg6 (by decide)).trans rfl
theorem V1_main_arg7 (c : Dev nD) : V1 m ρ c main_arg7 = m ((c : Thread nD τ).loc main_arg7) :=
  (W1_of m ρ c main_arg7 (by decide)).trans rfl
theorem V1_main_arg8 (c : Dev nD) : V1 m ρ c main_arg8 = m ((c : Thread nD τ).loc main_arg8) :=
  (W1_of m ρ c main_arg8 (by decide)).trans rfl

/-- Each weight's window array holds the weight transposed and rounded to bf16: what the two host operations that
    write it leave. -/
theorem V1_main_v1 (c : Dev nD) :
    (V1 m ρ c main_v1 : (⟨S1024x1024, .bf16⟩ : BufTy).Contents (Elt F))
      = truncf .bf16 (transpose S1024x1024 [1, 0] (m ((c : Thread nD τ).loc main_arg1) : (⟨S1024x1024, .f32⟩ : BufTy).Contents (Elt F)) transposes_S1024x1024_S1024x1024_1_0) bitsLt_bf16_f32 := by
  show StableHlo.after hostOps0 (fun b => m (c, b)) (Proc.devRef .tc main_v1) = _
  after_results
theorem V1_main_v3 (c : Dev nD) :
    (V1 m ρ c main_v3 : (⟨S1024x1024, .bf16⟩ : BufTy).Contents (Elt F))
      = truncf .bf16 (transpose S1024x1024 [1, 0] (m ((c : Thread nD τ).loc main_arg2) : (⟨S1024x1024, .f32⟩ : BufTy).Contents (Elt F)) transposes_S1024x1024_S1024x1024_1_0) bitsLt_bf16_f32 := by
  show StableHlo.after hostOps0 (fun b => m (c, b)) (Proc.devRef .tc main_v3) = _
  after_results
theorem V1_main_v5 (c : Dev nD) :
    (V1 m ρ c main_v5 : (⟨S1024x1024, .bf16⟩ : BufTy).Contents (Elt F))
      = truncf .bf16 (transpose S1024x1024 [1, 0] (m ((c : Thread nD τ).loc main_arg3) : (⟨S1024x1024, .f32⟩ : BufTy).Contents (Elt F)) transposes_S1024x1024_S1024x1024_1_0) bitsLt_bf16_f32 := by
  show StableHlo.after hostOps0 (fun b => m (c, b)) (Proc.devRef .tc main_v5) = _
  after_results
theorem V1_main_v7 (c : Dev nD) :
    (V1 m ρ c main_v7 : (⟨S1024x1024, .bf16⟩ : BufTy).Contents (Elt F))
      = truncf .bf16 (transpose S1024x1024 [1, 0] (m ((c : Thread nD τ).loc main_arg4) : (⟨S1024x1024, .f32⟩ : BufTy).Contents (Elt F)) transposes_S1024x1024_S1024x1024_1_0) bitsLt_bf16_f32 := by
  show StableHlo.after hostOps0 (fun b => m (c, b)) (Proc.devRef .tc main_v7) = _
  after_results
theorem V1_main_v9 (c : Dev nD) :
    (V1 m ρ c main_v9 : (⟨S1024x2048, .bf16⟩ : BufTy).Contents (Elt F))
      = truncf .bf16 (transpose S1024x2048 [1, 0] (m ((c : Thread nD τ).loc main_arg5) : (⟨S2048x1024, .f32⟩ : BufTy).Contents (Elt F)) transposes_S2048x1024_S1024x2048_1_0) bitsLt_bf16_f32 := by
  show StableHlo.after hostOps0 (fun b => m (c, b)) (Proc.devRef .tc main_v9) = _
  after_results
theorem V1_main_v11 (c : Dev nD) :
    (V1 m ρ c main_v11 : (⟨S2048x1024, .bf16⟩ : BufTy).Contents (Elt F))
      = truncf .bf16 (transpose S2048x1024 [1, 0] (m ((c : Thread nD τ).loc main_arg6) : (⟨S1024x2048, .f32⟩ : BufTy).Contents (Elt F)) transposes_S1024x2048_S2048x1024_1_0) bitsLt_bf16_f32 := by
  show StableHlo.after hostOps0 (fun b => m (c, b)) (Proc.devRef .tc main_v11) = _
  after_results

theorem V2_main_v12_0 (c : Dev nD) : V2 m ρ c main_v12_0 = (dat0 (V1 m ρ) c).arrAt 5 cfg0.N := W2_arr m ρ c 5
theorem V2_main_v12_1 (c : Dev nD) : V2 m ρ c main_v12_1 = (dat0 (V1 m ρ) c).arrAt 6 cfg0.N := W2_arr m ρ c 6
theorem V2_main_v12_2 (c : Dev nD) : V2 m ρ c main_v12_2 = (dat0 (V1 m ρ) c).arrAt 7 cfg0.N := W2_arr m ρ c 7
theorem V2_main_arg0 (c : Dev nD) : V2 m ρ c main_arg0 = V1 m ρ c main_arg0 := W2_in m ρ c 0 rfl
theorem V2_main_v7 (c : Dev nD) : V2 m ρ c main_v7 = V1 m ρ c main_v7 := W2_of_ne m ρ c main_v7 (by decide)
theorem V2_main_arg8 (c : Dev nD) : V2 m ρ c main_arg8 = V1 m ρ c main_arg8 := W2_of_ne m ρ c main_arg8 (by decide)
theorem V2_main_v9 (c : Dev nD) : V2 m ρ c main_v9 = V1 m ρ c main_v9 := W2_of_ne m ρ c main_v9 (by decide)
theorem V2_main_v11 (c : Dev nD) : V2 m ρ c main_v11 = V1 m ρ c main_v11 := W2_of_ne m ρ c main_v11 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- The host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the invariant
    and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its invariant is its
    own (a scratch buffer carried from point to point): at the first point it is made from the scoped buffers no
    window stages and the generator register, and at the last point it gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main
    terminates, nothing faulting, and every final state has each unscoped buffer of each core at the last contents
    of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every weakly fair execution of @main terminates, nothing faulting, and every final state has the nine
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩) (run_all m ρ)

end Cert.Kernel.Hand

end
-- ==== Proof.KI.Base.lean ====
/-
  What the modules about the idealized kernel share: the type of the buffer contents a region is entered from.
-/
import proofs.«163628_j7679401525971_2_alg».proof.Proof.Gen.KernelIdeal.Launch
import proofs.«163628_j7679401525971_2_alg».proof.Proof.Gen.KernelIdeal.Skeleton
import proofs.«163628_j7679401525971_2_alg».proof.Proof.Gen.KernelIdeal.Points

noncomputable section

namespace Cert.KernelIdeal.Hand

open Idealize.ShloMosaic Idealize.ShloMosaic.TcCoe Idealize.SL.Sem
open Cert.KernelIdeal

/-- Every core's buffer contents, reference by reference, as a region finds them. -/
abbrev VT (F : FTy → Type) [FloatOps F] : Type :=
  (c : Dev nD) → (b : Ref sig .tc) → Buf (Elt F) ((c : Thread nD τ).loc b)

end Cert.KernelIdeal.Hand

end
-- ==== Proof.KI.R0Body.lean ====
/-
  Region 0 of the idealized kernel (the projection kernel), at any float model: what each of its three output
  windows' staging buffers holds after the body at a grid point, as a function of the five input windows' blocks
  there; the body's triple; the pipeline's proof data at a parameter `V` (every core's buffer contents when the
  region is entered); and the body obligation at every point.
-/
import proofs.«163628_j7679401525971_2_alg».proof.Proof.KI.Base
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : VT F)

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA : Rect S1x512x1024 := Rect.unit (s := S1x512x1024) ![0, 0, 0] S1x512x1024.size inb_S1x512x1024_S1x512x1024_0_0_0
abbrev rL : Rect S1024 := Rect.unit (s := S1024) ![0] S1024.size inb_S1024_S1024_0
abbrev rW : Rect S1024x1024 := Rect.unit (s := S1024x1024) ![0, 0] S1024x1024.size inb_S1024x1024_S1024x1024_0_0

/-! ## What the body leaves in each output window's buffer -/

/-- Window 5's staging buffer after the body: one whole-block store of the first projection of the scaled rows. -/
def out0_5 (x0 : Vec F S1x512x1024 .f32) (x1 : Vec F S1024 .f32) (x2 : Vec F S1024x1024 .bf16) : Vec F S1x512x1024 .bf16 :=
  View.canon [⟨rA, k0_pay3 (View.ld x0 rA) (View.ld x1 rL) (View.ld x2 rW)⟩]

/-- Window 6's: the second projection. -/
def out0_6 (x0 : Vec F S1x512x1024 .f32) (x1 : Vec F S1024 .f32) (x3 : Vec F S1024x1024 .bf16) : Vec F S1x512x1024 .bf16 :=
  View.canon [⟨rA, k0_pay4 (View.ld x0 rA) (View.ld x1 rL) (View.ld x3 rW)⟩]

/-- Window 7's: the third projection. -/
def out0_7 (x0 : Vec F S1x512x1024 .f32) (x1 : Vec F S1024 .f32) (x4 : Vec F S1024x1024 .bf16) : Vec F S1x512x1024 .bf16 :=
  View.canon [⟨rA, k0_pay1 (k0_pay5 (View.ld x0 rA) (View.ld x1 rL) (View.ld x4 rW))⟩]

/-- One whole-block store covers the buffer. -/
theorem cover0_out (p0 : Vec F S1x512x1024 .bf16) (y : S1x512x1024.Idx) :
    ∃ pc ∈ ([⟨rA, p0⟩] : List (View.Piece (Elt F) S1x512x1024 .bf16)), y ∈ pc.1.set :=
  View.cover_of_tiled [⟨rA, p0⟩] S1x512x1024.size (by rfl) y

/-! ## The body's triple -/

set_option maxHeartbeats 4000000 in
/-- The kernel body on whole staging memrefs, the inputs' at read contents `xW` and the outputs' at anything, runs to
    the continuation holding the inputs' as they were and each output's at `out0_W` of the inputs'. -/
theorem sound_kernel0 (c : Dev nD) (E : Set ℕ) (i : grid0.Coords)
    (arg0 : Memref sig .tc .vmem S1x512x1024 .f32) (harg0 : arg0.IsWhole)
    (arg1 : Memref sig .tc .vmem S1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1x512x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (x0 : Vec F S1x512x1024 .f32) (x1 : Vec F S1024 .f32) (x2 x3 x4 : Vec F S1024x1024 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2) ∗ owns (c : Thread nD τ) arg6 fullShare (out0_6 x0 x1 x3)
            ∗ owns (c : Thread nD τ) arg7 fullShare (out0_7 x0 x1 x4)) -∗ K ⟨⟩))
      ⊢ wp frame (wpE (defs₀ (F := F)) Variants.none c none) E
          (cc0__qkv_kernel i arg0 harg0 arg1 harg1 arg2 harg2 arg3 harg3 arg4 harg4 arg5 harg5 arg6 harg6 arg7 harg7) K := by
  simp only [cc0__qkv_kernel_eq_skeleton]; unfold cc0__qkv_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 1 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 1 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so the body's triple applies; the invariant and
    the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  The second region (attention over key tiles, output projection and the two-layer map) at a point of its grid
  (batch entry b, query tile qi of 128 rows, key tile ki of 512 rows): what the runs of its body share.

  The body accumulates, in a buffer of its own kept from point to point, the attention rows of the query tile over
  the four key tiles: at ki = 0 it first clears the buffer, at every ki it adds the tile's contribution, and at
  ki = 3 it reads the sum, finishes the block and stores the result's block. So a point is in one of three cases:
  first tile, middle tile, last tile. Here: each window's block at a point, the two conditions in closed form over
  the grid, where the result's window is idle, and the memrefs the body is called with.
-/
import proofs.«163628_j7679401525971_2_alg».proof.Proof.KI.Base
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : VT F)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the block
    index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: unfetched, the block
    index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: unfetched, the block
    index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: unfetched, the block
    index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: unfetched, the block
    index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: unfetched, the block
    index has not moved since the fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: unfetched, the block
    index has not moved since the fetch. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: unfetched, the block
    index has not moved since the fetch. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first key tile": the condition under which the body clears its accumulator. -/
abbrev cond1_0 (i : grid1.Coords) : Prop := (Scalar.cmpi .ne (Scalar.extui (Scalar.cmpi .eq (BitVec.ofNat 32 (i 2).val) 0#32)) 0#32) = 1#1
/-- It holds at the points whose number is a multiple of 4 (the key tile is the grid's last axis, of extent 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "This is the last key tile": the condition under which the body finishes the block and stores the result. -/
abbrev cond1_1 (i : grid1.Coords) : Prop := k1_cond2 i = 1#1
/-- It holds at the points whose number is 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the result's window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
theorem liveAt1_7 : ∀ t : Fin cfg1.N, cfg1.idle 7 (grid1.coords t) = false := fun _ => rfl
/-- Before the last key tile nothing is stored into the result's block: its window is idle there and not written back. -/
theorem idleAt1_8 : ∀ t : Fin cfg1.N, ¬cond1_1 (grid1.coords t) → cfg1.idle 8 (grid1.coords t) = true := by decide +kernel
theorem noFlush1_8 : ∀ t : Fin cfg1.N, ¬cond1_1 (grid1.coords t) → (cfg1.win 8).flush t = false := by decide +kernel
/-- At the last key tile the window is live. -/
theorem liveAt1_8 : ∀ t : Fin cfg1.N, cond1_1 (grid1.coords t) → cfg1.idle 8 (grid1.coords t) = false := by decide +kernel

/-! ## The memrefs the body is called with -/

/-- One staging buffer of the result's window, through which its contents are stated. -/
abbrev VO1_8 : View sig .tc .vmem S1x128x1024 .f32 := (Memref.whole cc1_stg8_0 : Memref sig .tc .vmem S1x128x1024 .f32).view
abbrev ms1_0 (t : Fin cfg1.N) : Memref sig .tc .vmem S1x128x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x2048 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x1024 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x128x1024 .f32 := win1_8.stage (cfg1.slots t 8)
abbrev hs1_8 (t : Fin cfg1.N) : (ms1_8 t).IsWhole := hstage1_8 ((cfg1.slots t 8).cast nbuf1_8)
/-- The accumulator: a whole buffer of the kernel's own, passed beside the windows. -/
abbrev scM1 : Memref sig .tc .vmem S128x1024 .f32 := Memref.whole cc1_scratch0
abbrev VS1 : View sig .tc .vmem S128x1024 .f32 := scM1.view

/-- The region's plain invariant with the accumulator as a memref owned at some contents, the other buffers of the
    first region's staging beside it: what the body obligation hands a run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.KI.R1RunB.lean ====
/-
  The second region's body run whole in the case of a middle key tile (neither the first nor the last): on whole staging buffers, the inputs at their
  blocks and the result's buffer at anything, the body runs to a state holding the inputs and the result's buffer as
  they were and the accumulator with its stores written; the list of those stores is what the run finds.
-/
import proofs.«163628_j7679401525971_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The stores the body leaves in the accumulator (last first) in the case of a middle key tile (neither the first nor the last), with the proof that the
    body runs to them. -/
noncomputable def kernelRun1_B (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : ¬cond1_1 i)
    (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) :
    { LS0 : List (View.Piece (Elt F) S128x1024 .f32) //
      ∀ (d8 : Vec F S1x128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ (∃ f, arg12.view.loc (c : Thread nD τ) ↦[arg12.view.set]{fullShare} arg12.view.writes (Elt F) f LS0)) -∗ K ⟨⟩))
          ⊢ wp frame (wpE (defs₀ (F := F)) Variants.none c none) E (cc1__attn_mlp_kernel i arg3 harg3 arg4 harg4 arg5 harg5 arg6 harg6 arg7 harg7 arg8 harg8 arg9 harg9 arg10 harg10 arg11 harg11 arg12 harg12) K } := by
  refine ⟨?_, fun d8 E K => ?run⟩
  case run =>
    simp only [cc1__attn_mlp_kernel_eq_skeleton]; unfold cc1__attn_mlp_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists f8; isplitr; · ipureintro; exact hf8
      iexact H8
    iexists _; iexact HS0

end Cert.KernelIdeal.Hand

end
-- ==== Proof.KI.R1RunA.lean ====
/-
  The second region's body run whole in the case of the first key tile: on whole staging buffers, the inputs at their
  blocks and the result's buffer at anything, the body runs to a state holding the inputs and the result's buffer as
  they were and the accumulator with its stores written; the list of those stores is what the run finds.
-/
import proofs.«163628_j7679401525971_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The stores the body leaves in the accumulator (last first) in the case of the first key tile, with the proof that the
    body runs to them. -/
noncomputable def kernelRun1_A (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : cond1_0 i) (hc1 : ¬cond1_1 i)
    (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) :
    { LS0 : List (View.Piece (Elt F) S128x1024 .f32) //
      ∀ (d8 : Vec F S1x128x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare d8 ∗ (∃ f, arg12.view.loc (c : Thread nD τ) ↦[arg12.view.set]{fullShare} arg12.view.writes (Elt F) f LS0)) -∗ K ⟨⟩))
          ⊢ wp frame (wpE (defs₀ (F := F)) Variants.none c none) E (cc1__attn_mlp_kernel i arg3 harg3 arg4 harg4 arg5 harg5 arg6 harg6 arg7 harg7 arg8 harg8 arg9 harg9 arg10 harg10 arg11 harg11 arg12 harg12) K } := by
  refine ⟨?_, fun d8 E K => ?run⟩
  case run =>
    simp only [cc1__attn_mlp_kernel_eq_skeleton]; unfold cc1__attn_mlp_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists f8; isplitr; · ipureintro; exact hf8
      iexact H8
    iexists _; iexact HS0

end Cert.KernelIdeal.Hand

end
-- ==== Proof.KI.R1RunC.lean ====
/-
  The second region's body run whole in the case of the last key tile: on whole staging buffers, the inputs at their
  blocks, the body runs to a state holding the inputs as they were and the buffers it stored into with its stores
  written; the list of those stores is what the run finds.
-/
import proofs.«163628_j7679401525971_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The stores the body leaves (last first) in the case of the last key tile, with the proof that the body runs to them. -/
noncomputable def kernelRun1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i)
    (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) :
    Σ' (L8 : List (View.Piece (Elt F) S1x128x1024 .f32)), { LS0 : List (View.Piece (Elt F) S128x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0)) -∗ K ⟨⟩))
          ⊢ wp frame (wpE (defs₀ (F := F)) Variants.none c none) E (cc1__attn_mlp_kernel i arg3 harg3 arg4 harg4 arg5 harg5 arg6 harg6 arg7 harg7 arg8 harg8 arg9 harg9 arg10 harg10 arg11 harg11 arg12 harg12) K } := by
  refine ⟨?_, ?_, fun E K => ?run⟩
  case run =>
    simp only [cc1__attn_mlp_kernel_eq_skeleton]; unfold cc1__attn_mlp_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7; obtain rfl := harg12.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexists _; iexact HS0

end Cert.KernelIdeal.Hand

end
-- ==== Proof.KI.R1Body.lean ====
/-
  The second region, point by point: what the accumulator and the result's staging buffer hold after each point,
  the region's invariant (the accumulator at what the point before left in it), the proof data, and the body
  obligation at every point.
-/
import proofs.«163628_j7679401525971_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : VT F)

/-! ## What each case leaves -/

/-- The accumulator after a first key tile: the run's stores read back. -/
def sout1_A (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) : Vec F S128x1024 .f32 :=
  VS1.read (Elt F) (VS1.writes (Elt F) VS1.junk (kernelRun1_A c i arg3 harg3 arg4 harg4 arg5 harg5 arg6 harg6 arg7 harg7 arg8 harg8 arg9 harg9 arg10 harg10 arg11 harg11 arg12 harg12 hc0 hc1 x0 x1 x2 x3 x4 x5 x6 x7).1)
/-- Those stores cover the accumulator. -/
theorem scover1_A (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (y : S128x1024.Idx) :
    ∃ pc ∈ (kernelRun1_A c i arg3 harg3 arg4 harg4 arg5 harg5 arg6 harg6 arg7 harg7 arg8 harg8 arg9 harg9 arg10 harg10 arg11 harg11 arg12 harg12 hc0 hc1 x0 x1 x2 x3 x4 x5 x6 x7).1, y ∈ pc.1.set :=
  View.cover_of_tiledL (kernelRun1_A c i arg3 harg3 arg4 harg4 arg5 harg5 arg6 harg6 arg7 harg7 arg8 harg8 arg9 harg9 arg10 harg10 arg11 harg11 arg12 harg12 hc0 hc1 x0 x1 x2 x3 x4 x5 x6 x7).1 S128x1024.size (by sl_kernel_rfl) y

/-- The accumulator after a middle key tile, from what the tile before left (`xs0`). -/
def sout1_B (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) : Vec F S128x1024 .f32 :=
  VS1.read (Elt F) (VS1.writes (Elt F) VS1.junk (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).1)
theorem scover1_B (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) (y : S128x1024.Idx) :
    ∃ pc ∈ (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun1_B c i arg3 harg3 arg4 harg4 arg5 harg5 arg6 harg6 arg7 harg7 arg8 harg8 arg9 harg9 arg10 harg10 arg11 harg11 arg12 harg12 hc0 hc1 x0 x1 x2 x3 x4 x5 x6 x7 xs0).1 S128x1024.size (by sl_kernel_rfl) y

/-- The accumulator after the last key tile. -/
def sout1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) : Vec F S128x1024 .f32 :=
  VS1.read (Elt F) (VS1.writes (Elt F) VS1.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1)
theorem scover1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) (y : S128x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).2.1 S128x1024.size (by sl_kernel_rfl) y
/-- The result's staging buffer after the last key tile. -/
def out1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) : Vec F S1x128x1024 .f32 :=
  VO1_8.read (Elt F) (VO1_8.writes (Elt F) VO1_8.junk (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1)
theorem cover1_C (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) (y : S1x128x1024.Idx) :
    ∃ pc ∈ (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1, y ∈ pc.1.set :=
  View.cover_of_tiledL (kernelRun1_C c i arg3 harg3 arg4 harg4 arg5 harg5 arg6 harg6 arg7 harg7 arg8 harg8 arg9 harg9 arg10 harg10 arg11 harg11 arg12 harg12 hc0 hc1 x0 x1 x2 x3 x4 x5 x6 x7 xs0).1 S1x128x1024.size (by sl_kernel_rfl) y

/-- Before the last key tile the result's buffer holds nothing the pipeline reads: a placeholder. -/
def outIdle1 : Vec F S1x128x1024 .f32 := VO1_8.read (Elt F) VO1_8.junk

/-! ## Point by point -/

/-- What the result's staging buffer and the accumulator hold after the body at position `n`: the case the closed
    forms select at `n`, run on the point's blocks, the accumulator read at what position `n - 1` left. -/
def outsAt1 (c : Dev nD) : (n : ℕ) → n < cfg1.N → Vec F S1x128x1024 .f32 × Vec F S128x1024 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 4 = 0 then
      if h1 : (n + 1) % 4 = 3 then
        False.elim (by omega)
      else
        (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (outIdle1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (outIdle1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- What rides beside the accumulator through every point: the first region's staging buffers, each at anything,
    and the generator register at some state. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ r, prngReg c r))

theorem PhiA1_split (c : Dev nD) : (Pipeline.ΦA spec1 c : sProp 𝕄) ⊢ iprop((∃ d, owns (c : Thread nD τ) scM1 fullShare d) ∗ rest1 (F := F) c) := by
  rw [PhiA1_eq]; unfold rest1
  iintro ⟨⟨Hr0, Hr1, Hr2, Hr3, Hr4, Hr5, Hr6, Hr7, Hr8, Hr9, Hr10, Hr11, HS⟩, Hg⟩
  isplitl [HS]; · iexact HS
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  isplitl [Hr8]; · iexact Hr8
  isplitl [Hr9]; · iexact Hr9
  isplitl [Hr10]; · iexact Hr10
  isplitl [Hr11]; · iexact Hr11
  iexact Hg

theorem PhiA1_join (c : Dev nD) : iprop((∃ d, owns (c : Thread nD τ) scM1 fullShare d) ∗ rest1 (F := F) c) ⊢ (Pipeline.ΦA spec1 c : sProp 𝕄) := by
  rw [PhiA1_eq]; unfold rest1
  iintro ⟨HS, Hr0, Hr1, Hr2, Hr3, Hr4, Hr5, Hr6, Hr7, Hr8, Hr9, Hr10, Hr11, Hg⟩
  isplitr [Hg]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    iexact HS
  iexact Hg

/-- The region's invariant before position `n`: before the first point the plain one (the accumulator at anything);
    afterwards the accumulator at what the point before left in it. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ rest1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ rest1 (F := F) c) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ rest1 (F := F) c) := by
  cases n with
  | zero => exact absurd rfl hz
  | succ n => rfl

/-! ## The proof data -/

/-- The second region's proof data on core `c`: the arrays as the region finds them; after the body at a point each
    input's buffer at its block and the result's at what `outsAt1` says; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the inputs' buffers hold their blocks; the closed forms say which case the point is in;
    the invariant hands the body the accumulator at what the point before left (at anything at the very first point)
    and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 4 = 0
  · by_cases h1 : t.val % 4 = 3
    · exfalso; omega
    · rw [Dat.leavesExact_idle (dat1 V c) 8 t (idleAt1_8 t (fun h => h1 ((hcond1_1 t).mp h))) (noFlush1_8 t (fun h => h1 ((hcond1_1 t).mp h)))]
      rw [outsAt1_A V c t h0 h1]
      unfold sout1_A; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        ihave HΦ' := (PhiA1_split (F := F) c) $$ HΦ
        icases HΦ' with ⟨HS0, Hrest⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexact HS0
        iintro ⟨H0, H1, H2, H3, H4, H5, H6, H7, H8, ⟨%es0, HS0⟩⟩
        isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · rw [PhiS1_castSucc V c t, PhiS1_pos V c _ _ hz]
        iintro ⟨⟨HS0, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS0]; · iexists _; iexact HS0
        iintro ⟨H0, H1, H2, H3, H4, H5, H6, H7, H8, ⟨%es0, HS0⟩⟩
        isplitl [HS0 Hrest]
        · isplitl [HS0]
          · unfold owns; iexists _; isplitr
            swap; · iexact HS0
            ipureintro; exact View.read_writes_of_cover _ _ _ _ _ (scover1_A c _ _ _ _ _ _ _ _ _ _ _ _ _ _ _ _ _ _ _ _ _ _ _ _ _ _ _ _ _ _ _)
          iexact Hrest
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 4 = 3
    · rw [show (dat1 V c).leavesExact 8 t = owns (c : Thread nD τ) (ms1_8 t) fullShare ((dat1 V c).after 8 t) from by
        unfold Dat.leavesExact; rw [liveAt1_8 t ((hcond1_1 t).mpr h1)], after1_8]
      rw [outsAt1_C V c t h0 h1]
      unfold out1_C sout1_C; (try dsimp only)
      have hz : t.val ≠ 0 := by omega
      rw [PhiS1_castSucc V c t, PhiS1_pos V c _ _ hz]
      iintro ⟨⟨HS0, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      iintro ⟨H0, H1, H2, H3, H4, H5, H6, H7, ⟨%e8, H8⟩, ⟨%es0, HS0⟩⟩
      isplitl [HS0 Hrest]
      · isplitl [HS0]
        · unfold owns; iexists _; isplitr
          swap; · iexact HS0
          ipureintro; exact View.read_writes_of_cover _ _ _ _ _ (scover1_C c _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C c _ _ _ _ _ _ _ _ _ _ _ _ _ _ _ _ _ _ _ _ _ _ _ _ _ _ _ _ _ _ _ _)
    · rw [Dat.leavesExact_idle (dat1 V c) 8 t (idleAt1_8 t (fun h => h1 ((hcond1_1 t).mp h))) (noFlush1_8 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨HS0, Hrest⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      iintro ⟨H0, H1, H2, H3, H4, H5, H6, H7, H8, ⟨%es0, HS0⟩⟩
      isplitl [HS0 Hrest]
      · isplitl [HS0]
        · unfold owns; iexists _; isplitr
          swap; · iexact HS0
          ipureintro; exact View.read_writes_of_cover _ _ _ _ _ (scover1_B c _ _ _ _ _ _ _ _ _ _ _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: what the accumulator holds is forgotten. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ hne]
  have h : ∀ x : Vec F S128x1024 .f32, (iprop(owns (c : Thread nD τ) scM1 fullShare x ∗ rest1 (F := F) c) : sProp 𝕄)
      ⊢ iprop((∃ d, owns (c : Thread nD τ) scM1 fullShare d) ∗ rest1 (F := F) c) := by
    intro x
    iintro ⟨HS0, Hrest⟩
    isplitl [HS0]; · iexists _; iexact HS0
    iexact Hrest
  exact (h _).trans (PhiA1_join (F := F) c)

end Cert.KernelIdeal.Hand

end
-- ==== Proof.KI.Run.lean ====
/-
  THE RUN of @main: twelve host operations (each weight transposed, then rounded to bf16), then the two kernel
  regions, nothing between or after them. The buffer contents at each of the four boundaries are a fold from the
  launch memory; each region is a segment entered from every unscoped buffer at one boundary's contents and left at
  the next; the launch over the three segments ends with every unscoped buffer at the last contents, from which
  the nine arguments are read back as launched and the result array as what region 1's write-backs leave.
-/
import proofs.«163628_j7679401525971_2_alg».proof.Proof.KI.R0Body
import proofs.«163628_j7679401525971_2_alg».proof.Proof.KI.R1Body
import proofs.«163628_j7679401525971_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the core's references (what region 0's proof data take). -/
abbrev V1 : VT F := fun c b => W1 m ρ c b
/-- At region 0's exit: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered: no write-back touches it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
/-- The same read at the core's references (region 0's exit contents, region 1's entry). -/
abbrev V2 : VT F := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its write-backs leave, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An input window's array leaves region 1 as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))
/-- The same read at the core's references (region 1's exit contents). -/
abbrev V3 : VT F := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer no host operation writes holds after them what it held at launch. -/
theorem W1_of (c : Dev nD) (r : Ref sig .tc) (h : r ∉ hostOps0_W) : W1 m ρ c r = W0 m ρ c r :=
  StableHlo.after_of_writes_sub hostOps0 _ hostOps0_writes h

/-! ### The arguments end as launched: no host operation writes one, and a region reads one through an input
    window or passes it by -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_in m ρ c 3 rfl
    _ = W1 m ρ c (Proc.devRef .tc main_arg0) := W2_in m ρ c 0 rfl
    _ = W0 m ρ c (Proc.devRef .tc main_arg0) := W1_of m ρ c main_arg0 (by decide)
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_in m ρ c 1 rfl
    _ = W0 m ρ c (Proc.devRef .tc main_arg7) := W1_of m ρ c main_arg7 (by decide)
    _ = m ((c : Thread nD τ).loc main_arg7) := rfl
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_in m ρ c 5 rfl
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- The result array ends at what region 1's write-backs leave in it. -/
theorem W3_main_v13 (c : Dev nD) : W3 m ρ c (Proc.devRef .tc main_v13) = (dat1 (V2 m ρ) c).arrAt 8 cfg1.N :=
  W3_arr m ρ c 8

/-! ### What the regions find: region 0's inputs at the launch contents and the host operations' results, region 1's
    at those and at what region 0's write-backs leave -/

theorem V1_main_arg0 (c : Dev nD) : V1 m ρ c main_arg0 = m ((c : Thread nD τ).loc main_arg0) :=
  (W1_of m ρ c main_arg0 (by decide)).trans rfl
theorem V1_main_arg1 (c : Dev nD) : V1 m ρ c main_arg1 = m ((c : Thread nD τ).loc main_arg1) :=
  (W1_of m ρ c main_arg1 (by decide)).trans rfl
theorem V1_main_arg2 (c : Dev nD) : V1 m ρ c main_arg2 = m ((c : Thread nD τ).loc main_arg2) :=
  (W1_of m ρ c main_arg2 (by decide)).trans rfl
theorem V1_main_arg3 (c : Dev nD) : V1 m ρ c main_arg3 = m ((c : Thread nD τ).loc main_arg3) :=
  (W1_of m ρ c main_arg3 (by decide)).trans rfl
theorem V1_main_arg4 (c : Dev nD) : V1 m ρ c main_arg4 = m ((c : Thread nD τ).loc main_arg4) :=
  (W1_of m ρ c main_arg4 (by decide)).trans rfl
theorem V1_main_arg5 (c : Dev nD) : V1 m ρ c main_arg5 = m ((c : Thread nD τ).loc main_arg5) :=
  (W1_of m ρ c main_arg5 (by decide)).trans rfl
theorem V1_main_arg6 (c : Dev nD) : V1 m ρ c main_arg6 = m ((c : Thread nD τ).loc main_arg6) :=
  (W1_of m ρ c main_arg6 (by decide)).trans rfl
theorem V1_main_arg7 (c : Dev nD) : V1 m ρ c main_arg7 = m ((c : Thread nD τ).loc main_arg7) :=
  (W1_of m ρ c main_arg7 (by decide)).trans rfl
theorem V1_main_arg8 (c : Dev nD) : V1 m ρ c main_arg8 = m ((c : Thread nD τ).loc main_arg8) :=
  (W1_of m ρ c main_arg8 (by decide)).trans rfl

/-- Each weight's window array holds the weight transposed and rounded to bf16: what the two host operations that
    write it leave. -/
theorem V1_main_v1 (c : Dev nD) :
    (V1 m ρ c main_v1 : (⟨S1024x1024, .bf16⟩ : BufTy).Contents (Elt F))
      = truncf .bf16 (transpose S1024x1024 [1, 0] (m ((c : Thread nD τ).loc main_arg1) : (⟨S1024x1024, .f32⟩ : BufTy).Contents (Elt F)) transposes_S1024x1024_S1024x1024_1_0) bitsLt_bf16_f32 := by
  show StableHlo.after hostOps0 (fun b => m (c, b)) (Proc.devRef .tc main_v1) = _
  after_results
theorem V1_main_v3 (c : Dev nD) :
    (V1 m ρ c main_v3 : (⟨S1024x1024, .bf16⟩ : BufTy).Contents (Elt F))
      = truncf .bf16 (transpose S1024x1024 [1, 0] (m ((c : Thread nD τ).loc main_arg2) : (⟨S1024x1024, .f32⟩ : BufTy).Contents (Elt F)) transposes_S1024x1024_S1024x1024_1_0) bitsLt_bf16_f32 := by
  show StableHlo.after hostOps0 (fun b => m (c, b)) (Proc.devRef .tc main_v3) = _
  after_results
theorem V1_main_v5 (c : Dev nD) :
    (V1 m ρ c main_v5 : (⟨S1024x1024, .bf16⟩ : BufTy).Contents (Elt F))
      = truncf .bf16 (transpose S1024x1024 [1, 0] (m ((c : Thread nD τ).loc main_arg3) : (⟨S1024x1024, .f32⟩ : BufTy).Contents (Elt F)) transposes_S1024x1024_S1024x1024_1_0) bitsLt_bf16_f32 := by
  show StableHlo.after hostOps0 (fun b => m (c, b)) (Proc.devRef .tc main_v5) = _
  after_results
theorem V1_main_v7 (c : Dev nD) :
    (V1 m ρ c main_v7 : (⟨S1024x1024, .bf16⟩ : BufTy).Contents (Elt F))
      = truncf .bf16 (transpose S1024x1024 [1, 0] (m ((c : Thread nD τ).loc main_arg4) : (⟨S1024x1024, .f32⟩ : BufTy).Contents (Elt F)) transposes_S1024x1024_S1024x1024_1_0) bitsLt_bf16_f32 := by
  show StableHlo.after hostOps0 (fun b => m (c, b)) (Proc.devRef .tc main_v7) = _
  after_results
theorem V1_main_v9 (c : Dev nD) :
    (V1 m ρ c main_v9 : (⟨S1024x2048, .bf16⟩ : BufTy).Contents (Elt F))
      = truncf .bf16 (transpose S1024x2048 [1, 0] (m ((c : Thread nD τ).loc main_arg5) : (⟨S2048x1024, .f32⟩ : BufTy).Contents (Elt F)) transposes_S2048x1024_S1024x2048_1_0) bitsLt_bf16_f32 := by
  show StableHlo.after hostOps0 (fun b => m (c, b)) (Proc.devRef .tc main_v9) = _
  after_results
theorem V1_main_v11 (c : Dev nD) :
    (V1 m ρ c main_v11 : (⟨S2048x1024, .bf16⟩ : BufTy).Contents (Elt F))
      = truncf .bf16 (transpose S2048x1024 [1, 0] (m ((c : Thread nD τ).loc main_arg6) : (⟨S1024x2048, .f32⟩ : BufTy).Contents (Elt F)) transposes_S1024x2048_S2048x1024_1_0) bitsLt_bf16_f32 := by
  show StableHlo.after hostOps0 (fun b => m (c, b)) (Proc.devRef .tc main_v11) = _
  after_results

theorem V2_main_v12_0 (c : Dev nD) : V2 m ρ c main_v12_0 = (dat0 (V1 m ρ) c).arrAt 5 cfg0.N := W2_arr m ρ c 5
theorem V2_main_v12_1 (c : Dev nD) : V2 m ρ c main_v12_1 = (dat0 (V1 m ρ) c).arrAt 6 cfg0.N := W2_arr m ρ c 6
theorem V2_main_v12_2 (c : Dev nD) : V2 m ρ c main_v12_2 = (dat0 (V1 m ρ) c).arrAt 7 cfg0.N := W2_arr m ρ c 7
theorem V2_main_arg0 (c : Dev nD) : V2 m ρ c main_arg0 = V1 m ρ c main_arg0 := W2_in m ρ c 0 rfl
theorem V2_main_v7 (c : Dev nD) : V2 m ρ c main_v7 = V1 m ρ c main_v7 := W2_of_ne m ρ c main_v7 (by decide)
theorem V2_main_arg8 (c : Dev nD) : V2 m ρ c main_arg8 = V1 m ρ c main_arg8 := W2_of_ne m ρ c main_arg8 (by decide)
theorem V2_main_v9 (c : Dev nD) : V2 m ρ c main_v9 = V1 m ρ c main_v9 := W2_of_ne m ρ c main_v9 (by decide)
theorem V2_main_v11 (c : Dev nD) : V2 m ρ c main_v11 = V1 m ρ c main_v11 := W2_of_ne m ρ c main_v11 (by decide)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- The host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the invariant
    and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its invariant is its
    own (a scratch buffer carried from point to point): at the first point it is made from the scoped buffers no
    window stages and the generator register, and at the last point it gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main
    terminates, nothing faulting, and every final state has each unscoped buffer of each core at the last contents
    of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: every weakly fair execution of @main terminates, nothing faulting, and every final state has the nine
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c),
      (h c _ (mem_uc main_arg6 (by decide))).trans (W3_main_arg6 m ρ c),
      (h c _ (mem_uc main_arg7 (by decide))).trans (W3_main_arg7 m ρ c),
      (h c _ (mem_uc main_arg8 (by decide))).trans (W3_main_arg8 m ρ c)⟩) (run_all m ρ)

end Cert.KernelIdeal.Hand

end
-- ==== Proof.Spec.lean ====
/-
  The block as one function of its inputs, on the extended reals, coordinate by coordinate.

  A row of the input is scaled (x · l · 0.1) and projected three times (a sum over the 1024 channels against a weight
  row, times a constant): queries, keys, values. A score is the contraction of a query row with a key row times 0.01,
  passed through the quadratic u·u·0.1 + u·0.1; the attention row is the scores contracted with the values over all
  2048 positions, times 0.01, projected once more and blended with the input: x2 = (x·0.5 + o·0.5)·0.1. The second
  half scales x2 again, projects to 2048 features, applies the same quadratic, projects back and blends:
  out = (x2·0.5 + m·0.5)·0.1. Every constant is kept as the f32 word both programs spell.

  Weights enter through accessors `w d c` (output coordinate first), so that a program holding a weight matrix
  transposed and one holding it as given instantiate the same definitions.
-/
import Idealize.ShloMosaic.PureOps.Ideal
import Idealize.ShloMosaic.Lib.ValueIdx

noncomputable section

namespace Cert.Spec

open Idealize.ShloMosaic

/-- A value per batch entry, position and channel. -/
abbrev F3 : Type := Fin 4 → Fin 2048 → Fin 1024 → EReal

/-- The constants, as the words of the two programs. -/
abbrev k01 : EReal := Ideal.ofBits .f32 0x3DCCCCCD#32
abbrev k001 : EReal := Ideal.ofBits .f32 0x3C23D70A#32
abbrev k005 : EReal := Ideal.ofBits .f32 0x3D4CCCCD#32
abbrev k05 : EReal := Ideal.ofBits .f32 0x3F000000#32

/-- A row scaled channel by channel and by 0.1. -/
def scaled (x : F3) (l : Fin 1024 → EReal) : F3 := fun b t c => x b t c * l c * k01

/-- A projection of the 1024 channels onto 1024 outputs, times `k`. -/
def lin (h : F3) (w : Fin 1024 → Fin 1024 → EReal) (k : EReal) : F3 :=
  fun b t d => (∑ c : Fin 1024, h b t c * w d c) * k

/-- The quadratic activation. -/
def poly (u : EReal) : EReal := u * u * k01 + u * k01

/-- The score of position `t` against position `s`. -/
def score (q kk : F3) (b : Fin 4) (t s : Fin 2048) : EReal := (∑ d : Fin 1024, q b t d * kk b s d) * k001

/-- The attention row: activated scores against the values over all positions, times 0.01. -/
def att (q kk v : F3) : F3 := fun b t d => (∑ s : Fin 2048, poly (score q kk b t s) * v b s d) * k001

/-- The blend of two rows, times 0.1. -/
def blend (x o : F3) : F3 := fun b t c => (x b t c * k05 + o b t c * k05) * k01

/-- The hidden features of the second half: 2048 per position. -/
def hidden (h : F3) (w1 : Fin 2048 → Fin 1024 → EReal) (b : Fin 4) (t : Fin 2048) (f : Fin 2048) : EReal :=
  poly ((∑ c : Fin 1024, h b t c * w1 f c) * k005)

/-- The projection back to 1024 channels, times 0.05. -/
def back (u : Fin 4 → Fin 2048 → Fin 2048 → EReal) (w2 : Fin 1024 → Fin 2048 → EReal) : F3 :=
  fun b t c => (∑ f : Fin 2048, u b t f * w2 c f) * k005

/-- Everything after the three projections: from queries, keys, values and the input to the result. -/
def tail (q kk v x : F3) (wo : Fin 1024 → Fin 1024 → EReal) (l2 : Fin 1024 → EReal)
    (w1 : Fin 2048 → Fin 1024 → EReal) (w2 : Fin 1024 → Fin 2048 → EReal) : F3 :=
  let x2 := blend x (lin (att q kk v) wo k01)
  blend x2 (back (hidden (scaled x2 l2) w1) w2)

/-- The whole block. -/
def block (x : F3) (wq wk wv wo : Fin 1024 → Fin 1024 → EReal) (w1 : Fin 2048 → Fin 1024 → EReal)
    (w2 : Fin 1024 → Fin 2048 → EReal) (l1 l2 : Fin 1024 → EReal) : F3 :=
  let h := scaled x l1
  tail (lin h wq k001) (lin h wk k001) (lin h wv k01) x wo l2 w1 w2

end Cert.Spec

end
-- ==== Proof.KI.RunValue.lean ====
/-
  The six weights' window arrays read at an index, at the extended reals, and the kernel's result composed from the
  two regions' values.
-/
import proofs.«163628_j7679401525971_2_alg».proof.Proof.KI.Run
import proofs.«163628_j7679401525971_2_alg».proof.Proof.Spec
import Idealize.ShloMosaic.Lib.ValueLayout
import Idealize.ShloMosaic.Lib.ValueIdx

set_option maxRecDepth 16384

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-- `main_v1` at `(i, j)` is the launch weight `main_arg1` at `(j, i)`: transposed, and rounding to bf16 is the identity on
    extended reals. -/
theorem V1_main_v1_ix (c : Dev nD) (i : Fin 1024) (j : Fin 1024) :
    V1 m ρ c main_v1 (ValueIdx.ix2 i j) = m ((c : Thread nD τ).loc main_arg1) (ValueIdx.ix2 j i) := by
  rw [V1_main_v1 m ρ c, ValueIdx.truncf_apply, ValueIdx.transpose_ix2_apply]
/-- `main_v3` at `(i, j)` is the launch weight `main_arg2` at `(j, i)`: transposed, and rounding to bf16 is the identity on
    extended reals. -/
theorem V1_main_v3_ix (c : Dev nD) (i : Fin 1024) (j : Fin 1024) :
    V1 m ρ c main_v3 (ValueIdx.ix2 i j) = m ((c : Thread nD τ).loc main_arg2) (ValueIdx.ix2 j i) := by
  rw [V1_main_v3 m ρ c, ValueIdx.truncf_apply, ValueIdx.transpose_ix2_apply]
/-- `main_v5` at `(i, j)` is the launch weight `main_arg3` at `(j, i)`: transposed, and rounding to bf16 is the identity on
    extended reals. -/
theorem V1_main_v5_ix (c : Dev nD) (i : Fin 1024) (j : Fin 1024) :
    V1 m ρ c main_v5 (ValueIdx.ix2 i j) = m ((c : Thread nD τ).loc main_arg3) (ValueIdx.ix2 j i) := by
  rw [V1_main_v5 m ρ c, ValueIdx.truncf_apply, ValueIdx.transpose_ix2_apply]
/-- `main_v7` at `(i, j)` is the launch weight `main_arg4` at `(j, i)`: transposed, and rounding to bf16 is the identity on
    extended reals. -/
theorem V1_main_v7_ix (c : Dev nD) (i : Fin 1024) (j : Fin 1024) :
    V1 m ρ c main_v7 (ValueIdx.ix2 i j) = m ((c : Thread nD τ).loc main_arg4) (ValueIdx.ix2 j i) := by
  rw [V1_main_v7 m ρ c, ValueIdx.truncf_apply, ValueIdx.transpose_ix2_apply]
/-- `main_v9` at `(i, j)` is the launch weight `main_arg5` at `(j, i)`: transposed, and rounding to bf16 is the identity on
    extended reals. -/
theorem V1_main_v9_ix (c : Dev nD) (i : Fin 1024) (j : Fin 2048) :
    V1 m ρ c main_v9 (ValueIdx.ix2 i j) = m ((c : Thread nD τ).loc main_arg5) (ValueIdx.ix2 j i) := by
  rw [V1_main_v9 m ρ c, ValueIdx.truncf_apply, ValueIdx.transpose_ix2_apply]
/-- `main_v11` at `(i, j)` is the launch weight `main_arg6` at `(j, i)`: transposed, and rounding to bf16 is the identity on
    extended reals. -/
theorem V1_main_v11_ix (c : Dev nD) (i : Fin 2048) (j : Fin 1024) :
    V1 m ρ c main_v11 (ValueIdx.ix2 i j) = m ((c : Thread nD τ).loc main_arg6) (ValueIdx.ix2 j i) := by
  rw [V1_main_v11 m ρ c, ValueIdx.truncf_apply, ValueIdx.transpose_ix2_apply]

/-- Region 1 finds the three weights it reads as the host operations left them, -/
theorem V2_main_v7_ix (c : Dev nD) (i : Fin 1024) (j : Fin 1024) :
    V2 m ρ c main_v7 (ValueIdx.ix2 i j) = m ((c : Thread nD τ).loc main_arg4) (ValueIdx.ix2 j i) := by
  rw [V2_main_v7 m ρ c]; exact V1_main_v7_ix m ρ c i j
theorem V2_main_v9_ix (c : Dev nD) (i : Fin 1024) (j : Fin 2048) :
    V2 m ρ c main_v9 (ValueIdx.ix2 i j) = m ((c : Thread nD τ).loc main_arg5) (ValueIdx.ix2 j i) := by
  rw [V2_main_v9 m ρ c]; exact V1_main_v9_ix m ρ c i j
theorem V2_main_v11_ix (c : Dev nD) (i : Fin 2048) (j : Fin 1024) :
    V2 m ρ c main_v11 (ValueIdx.ix2 i j) = m ((c : Thread nD τ).loc main_arg6) (ValueIdx.ix2 j i) := by
  rw [V2_main_v11 m ρ c]; exact V1_main_v11_ix m ρ c i j
/-- and the two arguments it reads as launched. -/
theorem V2_main_arg0_eq (c : Dev nD) : V2 m ρ c main_arg0 = m ((c : Thread nD τ).loc main_arg0) :=
  (V2_main_arg0 m ρ c).trans (V1_main_arg0 m ρ c)
theorem V2_main_arg8_eq (c : Dev nD) : V2 m ρ c main_arg8 = m ((c : Thread nD τ).loc main_arg8) :=
  (V2_main_arg8 m ρ c).trans (V1_main_arg8 m ρ c)

/-- THE KERNEL'S RESULT at an index: GIVEN what region 0's three output arrays hold once its write-backs are folded
    (the three projections of the scaled input, over the contents region 0 is entered from) and what region 1's output
    array holds (everything after the projections, over the contents region 1 is entered from), the result array at the
    end of the run is the block of the nine launch arrays. The weights' windows hold the launch weights transposed, so
    an accessor reading a window at `(c, d)` reads the weight at `(d, c)`; the block's definition is the second half
    applied to the three projections. -/
theorem kernel_result (c : Dev nD)
    (h5 : ∀ (b : Fin 4) (t : Fin 2048) (d : Fin 1024), (dat0 (V1 m ρ) c).arrAt 5 cfg0.N (ValueIdx.ix3 b t d)
      = Cert.Spec.lin (Cert.Spec.scaled (fun b t c' => V1 m ρ c main_arg0 (ValueIdx.ix3 b t c')) (fun c' => V1 m ρ c main_arg7 (ValueIdx.ix1 c')))
          (fun d c' => V1 m ρ c main_v1 (ValueIdx.ix2 c' d)) Cert.Spec.k001 b t d)
    (h6 : ∀ (b : Fin 4) (t : Fin 2048) (d : Fin 1024), (dat0 (V1 m ρ) c).arrAt 6 cfg0.N (ValueIdx.ix3 b t d)
      = Cert.Spec.lin (Cert.Spec.scaled (fun b t c' => V1 m ρ c main_arg0 (ValueIdx.ix3 b t c')) (fun c' => V1 m ρ c main_arg7 (ValueIdx.ix1 c')))
          (fun d c' => V1 m ρ c main_v3 (ValueIdx.ix2 c' d)) Cert.Spec.k001 b t d)
    (h7 : ∀ (b : Fin 4) (t : Fin 2048) (d : Fin 1024), (dat0 (V1 m ρ) c).arrAt 7 cfg0.N (ValueIdx.ix3 b t d)
      = Cert.Spec.lin (Cert.Spec.scaled (fun b t c' => V1 m ρ c main_arg0 (ValueIdx.ix3 b t c')) (fun c' => V1 m ρ c main_arg7 (ValueIdx.ix1 c')))
          (fun d c' => V1 m ρ c main_v5 (ValueIdx.ix2 c' d)) Cert.Spec.k01 b t d)
    (h8 : ∀ (b : Fin 4) (t : Fin 2048) (c' : Fin 1024), (dat1 (V2 m ρ) c).arrAt 8 cfg1.N (ValueIdx.ix3 b t c')
      = Cert.Spec.tail (fun b t d => V2 m ρ c main_v12_0 (ValueIdx.ix3 b t d)) (fun b t d => V2 m ρ c main_v12_1 (ValueIdx.ix3 b t d))
          (fun b t d => V2 m ρ c main_v12_2 (ValueIdx.ix3 b t d)) (fun b t c'' => V2 m ρ c main_arg0 (ValueIdx.ix3 b t c''))
          (fun d c'' => V2 m ρ c main_v7 (ValueIdx.ix2 c'' d)) (fun c'' => V2 m ρ c main_arg8 (ValueIdx.ix1 c''))
          (fun f c'' => V2 m ρ c main_v9 (ValueIdx.ix2 c'' f)) (fun c'' f => V2 m ρ c main_v11 (ValueIdx.ix2 f c'')) b t c')
    (b : Fin 4) (t : Fin 2048) (c' : Fin 1024) :
    W3 m ρ c (Proc.devRef .tc main_v13) (ValueIdx.ix3 b t c')
      = Cert.Spec.block (fun b t c'' => m ((c : Thread nD τ).loc main_arg0) (ValueIdx.ix3 b t c''))
          (fun d c'' => m ((c : Thread nD τ).loc main_arg1) (ValueIdx.ix2 d c'')) (fun d c'' => m ((c : Thread nD τ).loc main_arg2) (ValueIdx.ix2 d c''))
          (fun d c'' => m ((c : Thread nD τ).loc main_arg3) (ValueIdx.ix2 d c'')) (fun d c'' => m ((c : Thread nD τ).loc main_arg4) (ValueIdx.ix2 d c''))
          (fun f c'' => m ((c : Thread nD τ).loc main_arg5) (ValueIdx.ix2 f c'')) (fun c'' f => m ((c : Thread nD τ).loc main_arg6) (ValueIdx.ix2 c'' f))
          (fun c'' => m ((c : Thread nD τ).loc main_arg7) (ValueIdx.ix1 c'')) (fun c'' => m ((c : Thread nD τ).loc main_arg8) (ValueIdx.ix1 c'')) b t c' := by
  -- the three projections, over the launch arrays
  have eX : (fun (b : Fin 4) (t : Fin 2048) (c' : Fin 1024) => V1 m ρ c main_arg0 (ValueIdx.ix3 b t c'))
      = fun b t c'' => m ((c : Thread nD τ).loc main_arg0) (ValueIdx.ix3 b t c'') := by rw [V1_main_arg0 m ρ c]
  have eL1 : (fun (c' : Fin 1024) => V1 m ρ c main_arg7 (ValueIdx.ix1 c')) = fun c'' => m ((c : Thread nD τ).loc main_arg7) (ValueIdx.ix1 c'') := by
    rw [V1_main_arg7 m ρ c]
  have eQ : (fun (b : Fin 4) (t : Fin 2048) (d : Fin 1024) => V2 m ρ c main_v12_0 (ValueIdx.ix3 b t d))
      = Cert.Spec.lin (Cert.Spec.scaled (fun b t c'' => m ((c : Thread nD τ).loc main_arg0) (ValueIdx.ix3 b t c'')) (fun c'' => m ((c : Thread nD τ).loc main_arg7) (ValueIdx.ix1 c'')))
          (fun d c'' => m ((c : Thread nD τ).loc main_arg1) (ValueIdx.ix2 d c'')) Cert.Spec.k001 := by
    funext b t d
    rw [V2_main_v12_0 m ρ c, h5 b t d, eX, eL1]
    exact congrArg (fun w => Cert.Spec.lin _ w Cert.Spec.k001 b t d) (funext fun d => funext fun c' => V1_main_v1_ix m ρ c c' d)
  have eK : (fun (b : Fin 4) (t : Fin 2048) (d : Fin 1024) => V2 m ρ c main_v12_1 (ValueIdx.ix3 b t d))
      = Cert.Spec.lin (Cert.Spec.scaled (fun b t c'' => m ((c : Thread nD τ).loc main_arg0) (ValueIdx.ix3 b t c'')) (fun c'' => m ((c : Thread nD τ).loc main_arg7) (ValueIdx.ix1 c'')))
          (fun d c'' => m ((c : Thread nD τ).loc main_arg2) (ValueIdx.ix2 d c'')) Cert.Spec.k001 := by
    funext b t d
    rw [V2_main_v12_1 m ρ c, h6 b t d, eX, eL1]
    exact congrArg (fun w => Cert.Spec.lin _ w Cert.Spec.k001 b t d) (funext fun d => funext fun c' => V1_main_v3_ix m ρ c c' d)
  have eV : (fun (b : Fin 4) (t : Fin 2048) (d : Fin 1024) => V2 m ρ c main_v12_2 (ValueIdx.ix3 b t d))
      = Cert.Spec.lin (Cert.Spec.scaled (fun b t c'' => m ((c : Thread nD τ).loc main_arg0) (ValueIdx.ix3 b t c'')) (fun c'' => m ((c : Thread nD τ).loc main_arg7) (ValueIdx.ix1 c'')))
          (fun d c'' => m ((c : Thread nD τ).loc main_arg3) (ValueIdx.ix2 d c'')) Cert.Spec.k01 := by
    funext b t d
    rw [V2_main_v12_2 m ρ c, h7 b t d, eX, eL1]
    exact congrArg (fun w => Cert.Spec.lin _ w Cert.Spec.k01 b t d) (funext fun d => funext fun c' => V1_main_v5_ix m ρ c c' d)
  -- the second half's other operands, over the launch arrays
  have eX2 : (fun (b : Fin 4) (t : Fin 2048) (c'' : Fin 1024) => V2 m ρ c main_arg0 (ValueIdx.ix3 b t c''))
      = fun b t c'' => m ((c : Thread nD τ).loc main_arg0) (ValueIdx.ix3 b t c'') := by rw [V2_main_arg0_eq m ρ c]
  have eL2 : (fun (c'' : Fin 1024) => V2 m ρ c main_arg8 (ValueIdx.ix1 c'')) = fun c'' => m ((c : Thread nD τ).loc main_arg8) (ValueIdx.ix1 c'') := by
    rw [V2_main_arg8_eq m ρ c]
  have eWo : (fun (d : Fin 1024) (c'' : Fin 1024) => V2 m ρ c main_v7 (ValueIdx.ix2 c'' d)) = fun d c'' => m ((c : Thread nD τ).loc main_arg4) (ValueIdx.ix2 d c'') :=
    funext fun d => funext fun c'' => V2_main_v7_ix m ρ c c'' d
  have eW1 : (fun (f : Fin 2048) (c'' : Fin 1024) => V2 m ρ c main_v9 (ValueIdx.ix2 c'' f)) = fun f c'' => m ((c : Thread nD τ).loc main_arg5) (ValueIdx.ix2 f c'') :=
    funext fun f => funext fun c'' => V2_main_v9_ix m ρ c c'' f
  have eW2 : (fun (c'' : Fin 1024) (f : Fin 2048) => V2 m ρ c main_v11 (ValueIdx.ix2 f c'')) = fun c'' f => m ((c : Thread nD τ).loc main_arg6) (ValueIdx.ix2 c'' f) :=
    funext fun c'' => funext fun f => V2_main_v11_ix m ρ c f c''
  rw [W3_main_v13 m ρ c, h8 b t c', eQ, eK, eV, eX2, eL2, eWo, eW1, eW2]
  rfl

end Cert.KernelIdeal.Hand

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.KI.R0Pay.lean ====
/-
  The projection kernel's payloads read at an entry, on the extended reals: row r of the input block scaled channel by
  channel and by 0.1, contracted over the 1024 channels against column d of the weight block, times the projection's
  constant.
-/
import proofs.«163628_j7679401525971_2_alg».proof.Proof.Gen.KernelIdeal.Skeleton
import proofs.«163628_j7679401525971_2_alg».proof.Proof.Spec
import proofs.«163628_j7679401525971_2_alg».proof.Proof.LibPlainMatmul
import Idealize.ShloMosaic.Lib.Pipeline.Value
import Idealize.ShloMosaic.Lib.ValueIdx

noncomputable section

namespace Cert.KernelIdeal.Hand

open Idealize.ShloMosaic Idealize.ShloMosaic.ValueIdx
open Cert.KernelIdeal Cert.KernelIdeal.Gen

/-- The [1,512,1024] block viewed [512,1024]: row r, channel k is entry (0, r, k). -/
theorem drop_unit_apply (x : S1x512x1024.Idx → EReal) (h : S1x512x1024.ShapeCasts S512x1024) (r : Fin 512) (k : Fin 1024) :
    shapeCast S512x1024 x h (ix2 r k) = x (ix3 (0 : Fin 1) r k) :=
  shapeCast_apply x h _ _ (by
    rw [Shape.rowMajor_val_three, Shape.rowMajor_val_two]
    show ((0 : ℕ) * 512 + r.val) * 1024 + k.val = r.val * 1024 + k.val
    omega)

/-- A [512,1024] result stored as a [1,512,1024] block: entry (0, r, d) is row r, column d. -/
theorem add_unit_apply (x : S512x1024.Idx → EReal) (h : S512x1024.ShapeCasts S1x512x1024) (r : Fin 512) (d : Fin 1024) :
    shapeCast S1x512x1024 x h (ix3 (0 : Fin 1) r d) = x (ix2 r d) :=
  shapeCast_apply x h _ _ (by
    rw [Shape.rowMajor_val_three, Shape.rowMajor_val_two]
    show r.val * 1024 + d.val = ((0 : ℕ) * 512 + r.val) * 1024 + d.val
    omega)

/-- The channel weights [1024] laid as a row and repeated down the 512 rows: entry (r, k) is weight k. -/
theorem row_apply (x : S1024.Idx → EReal) (h1 : S1024.ShapeCasts S1x1024) (h2 : S1x1024.Broadcasts S512x1024) (r : Fin 512) (k : Fin 1024) :
    broadcastTo S512x1024 (shapeCast S1x1024 x h1) h2 (ix2 r k) = x (ix1 k) := by
  refine (broadcastTo_apply _ h2 (ix2 r k) (ix2 (0 : Fin 1) k) ?_).trans ?_
  · intro a
    match a with
    | ⟨0, _⟩ => rfl
    | ⟨1, _⟩ => rfl
  · exact shapeCast_apply x h1 _ _ (by
      rw [Shape.rowMajor_val_one, Shape.rowMajor_val_two]
      show k.val = (0 : ℕ) * 1024 + k.val
      omega)

/-- A [512,1024] by [1024,1024] product into the zero accumulator, at (r, d): the sum over the 1024 channels. -/
theorem mm_apply (a : FVec Ideal S512x1024 .bf16) (w : FVec Ideal S1024x1024 .bf16) (r : Fin 512) (d : Fin 1024) :
    FloatOps.matmul dot_S512x1024_S1024x1024_S512x1024_1_0_0_1_n_n none a w (constant S512x1024 .f32 0x00000000#32) (ix2 r d)
      = ∑ k : Fin 1024, a (ix2 r k) * w (ix2 k d) :=
  Cert.EdgeScore.Lib.matmul_zero_ix2_apply dot_S512x1024_S1024x1024_S512x1024_1_0_0_1_n_n rfl rfl
    (fun i q => by
      unfold DotDims.lhsIdx
      rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
      rfl)
    (fun i q => dot_S512x1024_S1024x1024_S512x1024_1_0_0_1_n_n.lhsIdx_val_of_single rfl i q)
    (fun i q => dot_S512x1024_S1024x1024_S512x1024_1_0_0_1_n_n.rhsIdx_val_of_single rfl i q)
    (fun i q => by
      unfold DotDims.rhsIdx
      rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
      rfl)
    none a w r d

/-- The scaled rows: entry (r, k) is the input at (0, r, k) times channel weight k times 0.1. -/
theorem pay2_apply (x0 : Vec Ideal S1x512x1024 .f32) (x1 : Vec Ideal S1024 .f32) (r : Fin 512) (k : Fin 1024) :
    k0_pay2 x0 x1 (ix2 r k) = x0 (ix3 (0 : Fin 1) r k) * x1 (ix1 k) * Cert.Spec.k01 := by
  unfold k0_pay2
  show shapeCast S512x1024 x0 shapeCasts_S1x512x1024_S512x1024 (ix2 r k)
      * broadcastTo S512x1024 (shapeCast S1x1024 x1 shapeCasts_S1024_S1x1024) broadcasts_S1x1024_S512x1024 (ix2 r k)
      * Ideal.ofBits .f32 0x3DCCCCCD#32 = _
  rw [drop_unit_apply, row_apply]

/-- A projection's entry before its constant: the scaled row r against column d of the weight block. -/
theorem proj_apply (x0 : Vec Ideal S1x512x1024 .f32) (x1 : Vec Ideal S1024 .f32) (w : Vec Ideal S1024x1024 .bf16) (r : Fin 512) (d : Fin 1024) :
    FloatOps.matmul dot_S512x1024_S1024x1024_S512x1024_1_0_0_1_n_n none (k0_pay2 x0 x1) (shapeCast S1024x1024 w shapeCasts_S1024x1024_S1024x1024 : FVec Ideal S1024x1024 .bf16) (constant S512x1024 .f32 0x00000000#32) (ix2 r d)
      = ∑ k : Fin 1024, (x0 (ix3 (0 : Fin 1) r k) * x1 (ix1 k) * Cert.Spec.k01) * w (ix2 k d) := by
  rw [shapeCast_self, mm_apply]
  exact Finset.sum_congr rfl fun k _ => by rw [pay2_apply]

/-- The first projection's block at (0, r, d). -/
theorem pay3_apply (x0 : Vec Ideal S1x512x1024 .f32) (x1 : Vec Ideal S1024 .f32) (w : Vec Ideal S1024x1024 .bf16) (r : Fin 512) (d : Fin 1024) :
    k0_pay3 x0 x1 w (ix3 (0 : Fin 1) r d)
      = (∑ k : Fin 1024, (x0 (ix3 (0 : Fin 1) r k) * x1 (ix1 k) * Cert.Spec.k01) * w (ix2 k d)) * Cert.Spec.k001 := by
  unfold k0_pay3
  refine (add_unit_apply _ _ r d).trans ?_
  exact congrArg (· * Cert.Spec.k001) (proj_apply x0 x1 w r d)

/-- The second projection's block at (0, r, d). -/
theorem pay4_apply (x0 : Vec Ideal S1x512x1024 .f32) (x1 : Vec Ideal S1024 .f32) (w : Vec Ideal S1024x1024 .bf16) (r : Fin 512) (d : Fin 1024) :
    k0_pay4 x0 x1 w (ix3 (0 : Fin 1) r d)
      = (∑ k : Fin 1024, (x0 (ix3 (0 : Fin 1) r k) * x1 (ix1 k) * Cert.Spec.k01) * w (ix2 k d)) * Cert.Spec.k001 := by
  unfold k0_pay4
  refine (add_unit_apply _ _ r d).trans ?_
  exact congrArg (· * Cert.Spec.k001) (proj_apply x0 x1 w r d)

/-- The third projection's block at (0, r, d): its constant is 0.1. -/
theorem pay15_apply (x0 : Vec Ideal S1x512x1024 .f32) (x1 : Vec Ideal S1024 .f32) (w : Vec Ideal S1024x1024 .bf16) (r : Fin 512) (d : Fin 1024) :
    k0_pay1 (k0_pay5 x0 x1 w) (ix3 (0 : Fin 1) r d)
      = (∑ k : Fin 1024, (x0 (ix3 (0 : Fin 1) r k) * x1 (ix1 k) * Cert.Spec.k01) * w (ix2 k d)) * Cert.Spec.k01 := by
  unfold k0_pay1
  refine (add_unit_apply _ _ r d).trans ?_
  unfold k0_pay5
  exact congrArg (· * Cert.Spec.k01) (proj_apply x0 x1 w r d)

end Cert.KernelIdeal.Hand

end
-- ==== Proof.KI.R0Value.lean ====
/-
  Region 0 of the idealized kernel on the extended reals: each of its three output arrays, after the sixteen points,
  is one projection of the scaled input — entry (b, t, d) is the sum over the 1024 channels of
  x(b, t, c) · l(c) · 0.1 against the weight array's entry (c, d), times the projection's constant.

  A point's block is rows 512·(p mod 4) … 512·(p mod 4) + 511 of batch entry p / 4, all 1024 columns; the point
  covering row t of batch entry b is 4·b + t / 512, and the sixteen blocks tile the array.
-/
import proofs.«163628_j7679401525971_2_alg».proof.Proof.KI.R0Body
import proofs.«163628_j7679401525971_2_alg».proof.Proof.KI.R0Pay
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : VT Ideal)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- One projection of the scaled input as an array: entry (b, t, d). -/
def projArr (X : S4x2048x1024.Idx → EReal) (L : S1024.Idx → EReal) (W : S1024x1024.Idx → EReal) (k : EReal) :
    S4x2048x1024.Idx → EReal :=
  fun i => (∑ c' : Fin 1024, (X (ix3 (i 0) (i 1) c') * L (ix1 c') * Cert.Spec.k01) * W (ix2 c' (i 2))) * k

/-- A block's entry is the array's: the block's row of the input is the array's row, the channel weights and the
    weight block are whole. -/
theorem block_entry (X : S4x2048x1024.Idx → EReal) (L : S1024.Idx → EReal) (W : S1024x1024.Idx → EReal) (k : EReal)
    (x0 : S1x512x1024.Idx → EReal) (x1 : S1024.Idx → EReal) (w : S1024x1024.Idx → EReal)
    (r : Fin 512) (d : Fin 1024) (i : S4x2048x1024.Idx)
    (h0 : ∀ k', x0 (ix3 (0 : Fin 1) r k') = X (ix3 (i 0) (i 1) k')) (h1 : ∀ k', x1 (ix1 k') = L (ix1 k'))
    (h2 : ∀ k', w (ix2 k' d) = W (ix2 k' (i 2))) :
    (∑ k' : Fin 1024, (x0 (ix3 (0 : Fin 1) r k') * x1 (ix1 k') * Cert.Spec.k01) * w (ix2 k' d)) * k = projArr X L W k i := by
  unfold projArr
  exact congrArg (· * k) (Finset.sum_congr rfl fun k' _ => by rw [h0, h1, h2])

/-- The block indices over the grid: the input's and the outputs' blocks move together, batch entry p / 4 and row
    block p mod 4; the channel weights and the three weight arrays are one block each. -/
theorem idx_facts : ∀ t : Fin cfg0.N,
    (win0_0.index t (0 : Fin 3) = t.val / 4 ∧ win0_0.index t (1 : Fin 3) = t.val % 4 ∧ win0_0.index t (2 : Fin 3) = 0)
    ∧ win0_1.index t (0 : Fin 1) = 0
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

/-- The input block's row r at point t is row 512·(t mod 4) + r of batch entry t / 4. -/
theorem iblk_x (c : Dev nD) (t : Fin cfg0.N) (r : Fin 512) (k' : Fin 1024) (i : S4x2048x1024.Idx)
    (hi0 : (i 0).val = t.val / 4) (hi1 : (i 1).val = t.val % 4 * 512 + r.val) :
    (iblk0 V c 0 t : S1x512x1024.Idx → EReal) (ix3 (0 : Fin 1) r k') = (V c main_arg0 : S4x2048x1024.Idx → EReal) (ix3 (i 0) (i 1) k') := by
  obtain ⟨⟨e0, e1, e2⟩, -⟩ := idx_facts t
  show (V c main_arg0 : S4x2048x1024.Idx → EReal) (((cfg0.win 0).blk t).view.emb (ix3 (0 : Fin 1) r k')) = _
  refine congrArg _ (funext fun a => Fin.ext ?_)
  match a with
  | ⟨0, _⟩ => show win0_0.index t (0 : Fin 3) * 1 + 1 * (0 : ℕ) = (i 0).val; omega
  | ⟨1, _⟩ => show win0_0.index t (1 : Fin 3) * 512 + 1 * r.val = (i 1).val; omega
  | ⟨2, _⟩ => show win0_0.index t (2 : Fin 3) * 1024 + 1 * k'.val = k'.val; omega

/-- The channel weights' block is the whole array. -/
theorem iblk_l (c : Dev nD) (t : Fin cfg0.N) (k' : Fin 1024) :
    (iblk0 V c 1 t : S1024.Idx → EReal) (ix1 k') = (V c main_arg7 : S1024.Idx → EReal) (ix1 k') := by
  obtain ⟨-, e0, -⟩ := idx_facts t
  show (V c main_arg7 : S1024.Idx → EReal) (((cfg0.win 1).blk t).view.emb (ix1 k')) = _
  refine congrArg _ (funext fun a => Fin.ext ?_)
  match a with
  | ⟨0, _⟩ => show win0_1.index t (0 : Fin 1) * 1024 + 1 * k'.val = k'.val; omega

/-! ## Output window 5 -/

/-- Weight window 2's block is the whole array. -/
theorem iblk_w2 (c : Dev nD) (t : Fin cfg0.N) (k' : Fin 1024) (d : Fin 1024) :
    (iblk0 V c 2 t : S1024x1024.Idx → EReal) (ix2 k' d) = (V c main_v1 : S1024x1024.Idx → EReal) (ix2 k' d) := by
  obtain ⟨-, -, ⟨e0, e1⟩, -⟩ := idx_facts t
  show (V c main_v1 : S1024x1024.Idx → EReal) (((cfg0.win 2).blk t).view.emb (ix2 k' d)) = _
  refine congrArg _ (funext fun a => Fin.ext ?_)
  match a with
  | ⟨0, _⟩ => show win0_2.index t (0 : Fin 2) * 1024 + 1 * k'.val = k'.val; omega
  | ⟨1, _⟩ => show win0_2.index t (1 : Fin 2) * 1024 + 1 * d.val = d.val; omega

/-- What point t writes back through window 5 is block t of the projection. -/
theorem flushed5_eq (c : Dev nD) (t : Fin cfg0.N) :
    (dat0 V c).flushed 5 t = ((cfg0.win 5).blk t).view.read (Elt Ideal)
      (projArr (V c main_arg0) (V c main_arg7) (V c main_v1) Cert.Spec.k001) := by
  show (cfg0.win 5).cut (grid0.coords t) ((dat0 V c).after 5 t) = _
  rw [after0_5]
  unfold out0_5
  rw [View.canon_unit_zero hz3]
  simp only [View.ld_unit_zero (S := S1x512x1024) hz3, View.ld_unit_zero (S := S1024) hz1, View.ld_unit_zero (S := S1024x1024) hz2]
  obtain ⟨-, -, -, -, -, ⟨e0, e1, e2⟩, -⟩ := idx_facts t
  funext j
  obtain ⟨z, r, d, rfl⟩ : ∃ (z : Fin 1) (r : Fin 512) (d : Fin 1024), j = ix3 z r d := ⟨j 0, j 1, j 2, eq_ix3 j⟩
  obtain rfl : z = 0 := Subsingleton.elim _ _
  refine (pay3_apply (iblk0 V c 0 t) (iblk0 V c 1 t) (iblk0 V c 2 t) r d).trans ?_
  show _ = projArr (V c main_arg0) (V c main_arg7) (V c main_v1) Cert.Spec.k001 (((cfg0.win 5).blk t).view.emb (ix3 (0 : Fin 1) r d))
  have hd : ((((cfg0.win 5).blk t).view.emb (ix3 (0 : Fin 1) r d) : S4x2048x1024.Idx) 2).val = d.val := by
    show win0_5.index t (2 : Fin 3) * 1024 + 1 * d.val = d.val; omega
  refine block_entry _ _ _ _ _ _ _ r d _ (fun k' => iblk_x V c t r k' _ ?_ ?_) (fun k' => iblk_l V c t k')
    (fun k' => (iblk_w2 V c t k' d).trans (congrArg _ (congrArg (ix2 k') (Fin.ext hd.symm))))
  · show win0_5.index t (0 : Fin 3) * 1 + 1 * (0 : ℕ) = t.val / 4; omega
  · show win0_5.index t (1 : Fin 3) * 512 + 1 * r.val = t.val % 4 * 512 + r.val; omega

/-- An index of the array is in point t's block iff each coordinate is in the block's range on its axis. -/
theorem mem_blk5 (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v12_0).slice (win0_5.rect t)).set ↔ _
  rw [View.set_slice_whole, Rect.mem_set_unit]
  exact Iff.rfl

/-- The sixteen blocks cover the array: row t of batch entry b is in the block of point 4·b + t / 512. -/
theorem cover5 (i : S4x2048x1024.Idx) :
    ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  obtain ⟨t, ht⟩ : ∃ t : Fin cfg0.N, t.val = (i 0).val * 4 + (i 1).val / 512 :=
    ⟨⟨(i 0).val * 4 + (i 1).val / 512, lt_of_lt_of_eq (by omega) N_0.symm⟩, rfl⟩
  obtain ⟨-, -, -, -, -, ⟨e0, e1, e2⟩, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 1024 ≤ (i 2).val ∧ (i 2).val < win0_5.index t (2 : Fin 3) * 1024 + 1024; omega

/-- The array after the sixteen points is the projection. -/
theorem final5 (c : Dev nD) :
    (dat0 V c).arrAt 5 cfg0.N = projArr (V c main_arg0) (V c main_arg7) (V c main_v1) Cert.Spec.k001 :=
  (dat0 V c).arrAt_eq_of_cover 5 (projArr (V c main_arg0) (V c main_arg7) (V c main_v1) Cert.Spec.k001)
    (fun t _ => flushed5_eq V c t) (cover5)

/-- Entry (b, t, d) of output array 0, in the specification's words. -/
theorem arr0_5 (c : Dev nD) (b : Fin 4) (t : Fin 2048) (d : Fin 1024) :
    (dat0 V c).arrAt 5 cfg0.N (ValueIdx.ix3 b t d)
      = Cert.Spec.lin (Cert.Spec.scaled (fun b t c' => V c main_arg0 (ValueIdx.ix3 b t c')) (fun c' => V c main_arg7 (ValueIdx.ix1 c')))
          (fun d c' => V c main_v1 (ValueIdx.ix2 c' d)) Cert.Spec.k001 b t d := by
  rw [final5]
  rfl

/-! ## Output window 6 -/

/-- Weight window 3's block is the whole array. -/
theorem iblk_w3 (c : Dev nD) (t : Fin cfg0.N) (k' : Fin 1024) (d : Fin 1024) :
    (iblk0 V c 3 t : S1024x1024.Idx → EReal) (ix2 k' d) = (V c main_v3 : S1024x1024.Idx → EReal) (ix2 k' d) := by
  obtain ⟨-, -, -, ⟨e0, e1⟩, -⟩ := idx_facts t
  show (V c main_v3 : S1024x1024.Idx → EReal) (((cfg0.win 3).blk t).view.emb (ix2 k' d)) = _
  refine congrArg _ (funext fun a => Fin.ext ?_)
  match a with
  | ⟨0, _⟩ => show win0_3.index t (0 : Fin 2) * 1024 + 1 * k'.val = k'.val; omega
  | ⟨1, _⟩ => show win0_3.index t (1 : Fin 2) * 1024 + 1 * d.val = d.val; omega

/-- What point t writes back through window 6 is block t of the projection. -/
theorem flushed6_eq (c : Dev nD) (t : Fin cfg0.N) :
    (dat0 V c).flushed 6 t = ((cfg0.win 6).blk t).view.read (Elt Ideal)
      (projArr (V c main_arg0) (V c main_arg7) (V c main_v3) Cert.Spec.k001) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024) hz1, View.ld_unit_zero (S := S1024x1024) hz2]
  obtain ⟨-, -, -, -, -, -, ⟨e0, e1, e2⟩, -⟩ := idx_facts t
  funext j
  obtain ⟨z, r, d, rfl⟩ : ∃ (z : Fin 1) (r : Fin 512) (d : Fin 1024), j = ix3 z r d := ⟨j 0, j 1, j 2, eq_ix3 j⟩
  obtain rfl : z = 0 := Subsingleton.elim _ _
  refine (pay4_apply (iblk0 V c 0 t) (iblk0 V c 1 t) (iblk0 V c 3 t) r d).trans ?_
  show _ = projArr (V c main_arg0) (V c main_arg7) (V c main_v3) Cert.Spec.k001 (((cfg0.win 6).blk t).view.emb (ix3 (0 : Fin 1) r d))
  have hd : ((((cfg0.win 6).blk t).view.emb (ix3 (0 : Fin 1) r d) : S4x2048x1024.Idx) 2).val = d.val := by
    show win0_6.index t (2 : Fin 3) * 1024 + 1 * d.val = d.val; omega
  refine block_entry _ _ _ _ _ _ _ r d _ (fun k' => iblk_x V c t r k' _ ?_ ?_) (fun k' => iblk_l V c t k')
    (fun k' => (iblk_w3 V c t k' d).trans (congrArg _ (congrArg (ix2 k') (Fin.ext hd.symm))))
  · show win0_6.index t (0 : Fin 3) * 1 + 1 * (0 : ℕ) = t.val / 4; omega
  · show win0_6.index t (1 : Fin 3) * 512 + 1 * r.val = t.val % 4 * 512 + r.val; omega

/-- An index of the array is in point t's block iff each coordinate is in the block's range on its axis. -/
theorem mem_blk6 (t : Fin cfg0.N) (i : S4x2048x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v12_1).slice (win0_6.rect t)).set ↔ _
  rw [View.set_slice_whole, Rect.mem_set_unit]
  exact Iff.rfl

/-- The sixteen blocks cover the array: row t of batch entry b is in the block of point 4·b + t / 512. -/
theorem cover6 (i : S4x2048x1024.Idx) :
    ∃ t : Fin cfg0.N, (cfg0.win 6).flush t = true ∧ i ∈ ((cfg0.win 6).blk t).view.set := by
  have h0 : (i 0).val < 4 := (i 0).isLt
  have h1 : (i 1).val < 2048 := (i 1).isLt
  have h2 : (i 2).val < 1024 := (i 2).isLt
  obtain ⟨t, ht⟩ : ∃ t : Fin cfg0.N, t.val = (i 0).val * 4 + (i 1).val / 512 :=
    ⟨⟨(i 0).val * 4 + (i 1).val / 512, lt_of_lt_of_eq (by omega) N_0.symm⟩, rfl⟩
  obtain ⟨-, -, -, -, -, -, ⟨e0, e1, e2⟩, -⟩ := idx_facts t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 1024 ≤ (i 2).val ∧ (i 2).val < win0_6.index t (2 : Fin 3) * 1024 + 1024; omega

/-- The array after the sixteen points is the projection. -/
theorem final6 (c : Dev nD) :
    (dat0 V c).arrAt 6 cfg0.N = projArr (V c main_arg0) (V c main_arg7) (V c main_v3) Cert.Spec.k001 :=
  (dat0 V c).arrAt_eq_of_cover 6 (projArr (V c main_arg0) (V c main_arg7) (V c main_v3) Cert.Spec.k001)
    (fun t _ => flushed6_eq V c t) (cover6)

/-- Entry (b, t, d) of output array 1, in the specification's words. -/
theorem arr0_6 (c : Dev nD) (b : Fin 4) (t : Fin 2048) (d : Fin 1024) :
    (dat0 V c).arrAt 6 cfg0.N (ValueIdx.ix3 b t d)
      = Cert.Spec.lin (Cert.Spec.scaled (fun b t c' => V c main_arg0 (ValueIdx.ix3 b t c')) (fun c' => V c main_arg7 (ValueIdx.ix1 c')))
          (fun d c' => V c main_v3 (ValueIdx.ix2 c' d)) Cert.Spec.k001 b t d := by
  rw [final6]
  rfl

/-! ## Output window 7 -/

/-- Weight window 4's block is the whole array. -/
theorem iblk_w4 (c : Dev nD) (t : Fin cfg0.N) (k' : Fin 1024) (d : Fin 1024) :
    (iblk0 V c 4 t : S1024x1024.Idx → EReal) (ix2 k' d) = (V c main_v5 : S1024x1024.Idx → EReal) (ix2 k' d) := by
  obtain ⟨-, -, -, -, ⟨e0, e1⟩, -⟩ := idx_facts t
  show (V c main_v5 : S1024x1024.Idx → EReal) (((cfg0.win 4).blk t).view.emb (ix2 k' d)) = _
  refine congrArg _ (funext fun a => Fin.ext ?_)
  match a with
  | ⟨0, _⟩ => show win0_4.index t (0 : Fin 2) * 1024 + 1 * k'.val = k'.val; omega
  | ⟨1, _⟩ => show win0_4.index t (1 : Fin 2) * 1024 + 1 * d.val = d.val; omega

/-- What point t writes back through window 7 is block t of the projection. -/
theorem flushed7_eq (c : Dev nD) (t : Fin cfg0.N) :
    (dat0 V c).flushed 7 t = ((cfg0.win 7).blk t).view.read (Elt Ideal)
      (projArr (V c main_arg0) (V c main_arg7) (V c main_v5) Cert.Spec.k01) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024) hz1, View.ld_unit_zero (S := S1024x1024) hz2]
  obtain ⟨-, -, -, -, -, -, -, ⟨e0, e1, e2⟩⟩ := idx_facts t
  funext j
  obtain ⟨z, r, d, rfl⟩ : ∃ (z : Fin 1) (r : Fin 512) (d : Fin 1024), j = ix3 z r d := ⟨j 0, j 1, j 2, eq_ix3 j⟩
  obtain rfl : z = 0 := Subsingleton.elim _ _
  refine (pay15_apply (iblk0 V c 0 t) (iblk0 V c 1 t) (iblk0 V c 4 t) r d).trans ?_
  show _ = projArr (V c main_arg0) (V c main_arg7) (V c main_v5) Cert.Spec.k01 (((cfg0.win 7).blk t).view.emb (ix3 (0 : Fin 1) r d))
  have hd : ((((cfg0.win 7).blk t).view.emb (ix3 (0 : Fin 1) r d) : S4x2048x1024.Idx) 2).val = d.val := by
    show win0_7.index t (2 : Fin 3) * 1024 + 1 * d.val = d.val; omega
  refine block_entry _ _ _ _ _ _ _ r d _ (fun k' => iblk_x V c t r k' _ ?_ ?_) (fun k' => iblk_l V c t k')
    (fun k' => (iblk_w4 V c t k' d).trans (congrArg _ (congrArg (ix2 k') (Fin.ext hd.symm))))
  · show win0_7.index t (0 : Fin 3) * 1 + 1 * (0 : ℕ) = t.val / 4; omega
  · show win0_7.index t (1 : Fin 3) * 512 + 1 * r.val = t.val % 4 * 512 + r.val; omega

/-- An index of the array is in point t's block iff each coordinate is in the block's range on its axis. -/
theorem mem_blk7 (t : Fin cfg0.N) (i : S4x2048x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v12_2).slice (win0_7.rect t)).set ↔ _
  rw [View.set_slice_whole, Rect.mem_set_unit]
  exact Iff.rfl

/-- The sixteen blocks cover the array: row t of batch entry b is in the block of point 4·b + t / 512. -/
theorem cover7 (i : S4x2048x1024.Idx) :
    ∃ t : Fin cfg0.N, (cfg0.win 7).flush t = true ∧ i ∈ ((cfg0.win 7).blk t).view.set := by
  have h0 : (i 0).val < 4 := (i 0).isLt
  have h1 : (i 1).val < 2048 := (i 1).isLt
  have h2 : (i 2).val < 1024 := (i 2).isLt
  obtain ⟨t, ht⟩ : ∃ t : Fin cfg0.N, t.val = (i 0).val * 4 + (i 1).val / 512 :=
    ⟨⟨(i 0).val * 4 + (i 1).val / 512, lt_of_lt_of_eq (by omega) N_0.symm⟩, rfl⟩
  obtain ⟨-, -, -, -, -, -, -, ⟨e0, e1, e2⟩⟩ := idx_facts t
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 512 ≤ (i 1).val ∧ (i 1).val < win0_7.index t (1 : Fin 3) * 512 + 512; omega
  | ⟨2, _⟩ => show win0_7.index t (2 : Fin 3) * 1024 ≤ (i 2).val ∧ (i 2).val < win0_7.index t (2 : Fin 3) * 1024 + 1024; omega

/-- The array after the sixteen points is the projection. -/
theorem final7 (c : Dev nD) :
    (dat0 V c).arrAt 7 cfg0.N = projArr (V c main_arg0) (V c main_arg7) (V c main_v5) Cert.Spec.k01 :=
  (dat0 V c).arrAt_eq_of_cover 7 (projArr (V c main_arg0) (V c main_arg7) (V c main_v5) Cert.Spec.k01)
    (fun t _ => flushed7_eq V c t) (cover7)

/-- Entry (b, t, d) of output array 2, in the specification's words. -/
theorem arr0_7 (c : Dev nD) (b : Fin 4) (t : Fin 2048) (d : Fin 1024) :
    (dat0 V c).arrAt 7 cfg0.N (ValueIdx.ix3 b t d)
      = Cert.Spec.lin (Cert.Spec.scaled (fun b t c' => V c main_arg0 (ValueIdx.ix3 b t c')) (fun c' => V c main_arg7 (ValueIdx.ix1 c')))
          (fun d c' => V c main_v5 (ValueIdx.ix2 c' d)) Cert.Spec.k01 b t d := by
  rw [final7]
  rfl

/-! ## The input windows -/

/-- An input window's array is never written: it ends as the region found it, at any float model. -/
theorem arr0_in {F : FTy → Type} [FloatOps F] (V' : VT F) (c : Dev nD) (w : Fin cfg0.W) (hw : w.val < 5) :
    (dat0 V' c).arrAt w cfg0.N = V' c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨n + 5, _⟩, h => exact absurd h (by simp)
  exact ((dat0 V' c).arrAt_in w hin cfg0.N).trans (A_eq0 V' c w)

end Cert.KernelIdeal.Hand

end
-- ==== Proof.KI.R1Pieces.lean ====
/-
  What each case of the second region's body leaves, as values: the accumulator after a tile is the tile's payload of
  the key and value rows the body slices out (rows 512·ki … of the resident batch entry), the query block and what
  the accumulator held (the zero block at the first tile); the result's block at the last tile is the closing payload
  of the accumulator just updated, the input block and the four weights.
-/
import proofs.«163628_j7679401525971_2_alg».proof.Proof.KI.R1Body
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The rows of the resident keys (and values) a point's body reads: 512 rows from its offset. -/
abbrev tileRect (i : grid1.Coords) : Rect S1x2048x1024 := Rect.unit (s := S1x2048x1024) (k1_off1 i) S1x512x1024.size (k1_off1_inb i)

/-- A middle tile: the payload over what the accumulator held. -/
theorem sout1_B_eq (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) :
    sout1_B c i arg3 harg3 arg4 harg4 arg5 harg5 arg6 harg6 arg7 harg7 arg8 harg8 arg9 harg9 arg10 harg10 arg11 harg11 arg12 harg12 hc0 hc1 x0 x1 x2 x3 x4 x5 x6 x7 xs0 = k1_pay6 (View.ld x1 (tileRect i)) (View.ld x2 (tileRect i)) x0 xs0 := by
  unfold sout1_B
  rw [View.read_writes_eq_canon _ _ _ (scover1_B c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_B
  dsimp only
  rw [View.canon_unit_zero zeroOff2]
  simp only [View.readAt_eq_ld, harg3.read_unread, harg4.read_unread, harg5.read_unread, harg12.read_unread,
    View.ld_unit_zero (S := S1x128x1024) zeroOff3, View.ld_unit_zero (S := S128x1024) zeroOff2]

/-- The first tile: the payload over the zero block. -/
theorem sout1_A_eq (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : cond1_0 i) (hc1 : ¬cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) :
    sout1_A c i arg3 harg3 arg4 harg4 arg5 harg5 arg6 harg6 arg7 harg7 arg8 harg8 arg9 harg9 arg10 harg10 arg11 harg11 arg12 harg12 hc0 hc1 x0 x1 x2 x3 x4 x5 x6 x7 = k1_pay6 (View.ld x1 (tileRect i)) (View.ld x2 (tileRect i)) x0 (k1_pay5 (F := F)) := by
  unfold sout1_A
  rw [View.read_writes_eq_canon _ _ _ (scover1_A c i arg3 harg3 arg4 harg4 arg5 harg5 arg6 harg6 arg7 harg7 arg8 harg8 arg9 harg9 arg10 harg10 arg11 harg11 arg12 harg12 hc0 hc1 x0 x1 x2 x3 x4 x5 x6 x7)]
  unfold kernelRun1_A
  dsimp only
  sl_unfold_run_names
  rw [View.canon_cons_unit_zero (S := S128x1024) zeroOff2]
  simp only [View.readAt_eq_ld, harg3.read_unread, harg4.read_unread, harg5.read_unread,
    View.ld_unit_zero (S := S1x128x1024) zeroOff3, View.readCov_unit_zero (S := S128x1024) _ zeroOff2]

/-- The last tile: the accumulator as at a middle tile, -/
theorem sout1_C_eq (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) :
    sout1_C c i arg3 harg3 arg4 harg4 arg5 harg5 arg6 harg6 arg7 harg7 arg8 harg8 arg9 harg9 arg10 harg10 arg11 harg11 arg12 harg12 hc0 hc1 x0 x1 x2 x3 x4 x5 x6 x7 xs0 = k1_pay6 (View.ld x1 (tileRect i)) (View.ld x2 (tileRect i)) x0 xs0 := by
  unfold sout1_C
  rw [View.read_writes_eq_canon _ _ _ (scover1_C c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_C
  dsimp only
  sl_unfold_run_names
  rw [View.canon_unit_zero zeroOff2]
  simp only [View.readAt_eq_ld, harg3.read_unread, harg4.read_unread, harg5.read_unread, harg12.read_unread,
    View.ld_unit_zero (S := S1x128x1024) zeroOff3, View.ld_unit_zero (S := S128x1024) zeroOff2]

/-- and the result's block: the closing payload of that accumulator. -/
theorem out1_C_eq (c : Dev nD) (i : grid1.Coords) (arg3 : Memref sig .tc .vmem S1x128x1024 .bf16) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1x128x1024 .f32) (harg6 : arg6.IsWhole) (arg7 : Memref sig .tc .vmem S1024x1024 .bf16) (harg7 : arg7.IsWhole) (arg8 : Memref sig .tc .vmem S1024 .f32) (harg8 : arg8.IsWhole) (arg9 : Memref sig .tc .vmem S1024x2048 .bf16) (harg9 : arg9.IsWhole) (arg10 : Memref sig .tc .vmem S2048x1024 .bf16) (harg10 : arg10.IsWhole) (arg11 : Memref sig .tc .vmem S1x128x1024 .f32) (harg11 : arg11.IsWhole) (arg12 : Memref sig .tc .vmem S128x1024 .f32) (harg12 : arg12.IsWhole) (hc0 : ¬cond1_0 i) (hc1 : cond1_1 i) (x0 : Vec F S1x128x1024 .bf16) (x1 : Vec F S1x2048x1024 .bf16) (x2 : Vec F S1x2048x1024 .bf16) (x3 : Vec F S1x128x1024 .f32) (x4 : Vec F S1024x1024 .bf16) (x5 : Vec F S1024 .f32) (x6 : Vec F S1024x2048 .bf16) (x7 : Vec F S2048x1024 .bf16) (xs0 : Vec F S128x1024 .f32) :
    out1_C c i arg3 harg3 arg4 harg4 arg5 harg5 arg6 harg6 arg7 harg7 arg8 harg8 arg9 harg9 arg10 harg10 arg11 harg11 arg12 harg12 hc0 hc1 x0 x1 x2 x3 x4 x5 x6 x7 xs0
      = k1_pay1 (k1_pay2 (k1_pay6 (View.ld x1 (tileRect i)) (View.ld x2 (tileRect i)) x0 xs0) x4 x3)
          (k1_pay3 (k1_pay6 (View.ld x1 (tileRect i)) (View.ld x2 (tileRect i)) x0 xs0) x4 x3 x5 x6) (k1_pay4 x7)
          (constant S128x1024 .f32 0x00000000#32) := by
  unfold out1_C
  rw [View.read_writes_eq_canon _ _ _ (cover1_C c i arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun1_C
  dsimp only
  sl_unfold_run_names
  rw [View.canon_unit_zero zeroOff3]
  simp only [View.readAt_eq_ld, harg3.read_unread, harg4.read_unread, harg5.read_unread, harg6.read_unread, harg7.read_unread,
    harg8.read_unread, harg9.read_unread, harg10.read_unread, harg12.read_unread,
    View.ld_unit_zero (S := S1x128x1024) zeroOff3, View.ld_unit_zero (S := S128x1024) zeroOff2, View.ld_unit_zero (S := S1024x1024) zeroOff2,
    View.ld_unit_zero (S := S1024x2048) zeroOff2, View.ld_unit_zero (S := S2048x1024) zeroOff2,
    View.ld_unit_zero (S := S1024) (show (![0] : Fin 1 → Nat) = fun _ => 0 from funext fun a => by fin_cases a; rfl),
    View.readCov_unit_zero (S := S128x1024) _ zeroOff2]

end Cert.KernelIdeal.Hand

end
-- ==== Proof.KI.R1Spec.lean ====
/-
  The arrays the second region reads, coordinate by coordinate, and the function its result array ends holding:
  everything after the three projections, of those arrays.
-/
import proofs.«163628_j7679401525971_2_alg».proof.Proof.KI.Base
import proofs.«163628_j7679401525971_2_alg».proof.Proof.Spec
import Idealize.ShloMosaic.Lib.ValueIdx

noncomputable section

namespace Cert.KernelIdeal.Hand

open Idealize.ShloMosaic Idealize.ShloMosaic.TcCoe Idealize.SL.Sem
open Idealize.ShloMosaic.ValueIdx
open Cert.KernelIdeal Cert.Spec

variable (V : VT Ideal) (c : Dev nD)

/-- The arrays the region reads, coordinate by coordinate. -/
abbrev Qf : F3 := fun b t d => V c main_v12_0 (ix3 b t d)
abbrev Kf : F3 := fun b t d => V c main_v12_1 (ix3 b t d)
abbrev Vf : F3 := fun b t d => V c main_v12_2 (ix3 b t d)
abbrev Xf : F3 := fun b t d => V c main_arg0 (ix3 b t d)
abbrev woA : Fin 1024 → Fin 1024 → EReal := fun d e => V c main_v7 (ix2 e d)
abbrev l2A : Fin 1024 → EReal := fun e => V c main_arg8 (ix1 e)
abbrev w1A : Fin 2048 → Fin 1024 → EReal := fun f e => V c main_v9 (ix2 e f)
abbrev w2A : Fin 1024 → Fin 2048 → EReal := fun d f => V c main_v11 (ix2 f d)

/-- The function the result array ends holding. -/
def G8 : Buf (Elt Ideal) ((c : Thread nD τ).loc main_v13) :=
  fun i => tail (Qf V c) (Kf V c) (Vf V c) (Xf V c) (woA V c) (l2A V c) (w1A V c) (w2A V c) (i 0) (i 1) (i 2)

end Cert.KernelIdeal.Hand

end
-- ==== Proof.KI.R1Points.lean ====
/-
  The second region's grid, in numbers: point number n is batch entry n / 64, query tile n / 4 mod 16, key tile
  n mod 4; and where each window's block sits at a point (block index per axis).
-/
import proofs.«163628_j7679401525971_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A point's three coordinates from its number. -/
theorem coords1 : ∀ t : Fin cfg1.N, ((grid1.coords t) 0).val = t.val / 64 ∧ ((grid1.coords t) 1).val = t.val / 4 % 16 ∧ ((grid1.coords t) 2).val = t.val % 4 :=
  (by decide +kernel : ∀ t : Fin grid1.N, ((grid1.coords t) 0).val = t.val / 64 ∧ ((grid1.coords t) 1).val = t.val / 4 % 16 ∧ ((grid1.coords t) 2).val = t.val % 4)

/-- The query rows' window (and, by the same index map, the input rows' and the result's): block (b, qi, 0). -/
theorem idx1_0 : ∀ t : Fin cfg1.N, win1_0.index t (0 : Fin 3) = t.val / 64 ∧ win1_0.index t (1 : Fin 3) = t.val / 4 % 16 ∧ win1_0.index t (2 : Fin 3) = 0 :=
  (by decide +kernel : ∀ t : Fin grid1.N, win1_0.index t (0 : Fin 3) = t.val / 64 ∧ win1_0.index t (1 : Fin 3) = t.val / 4 % 16 ∧ win1_0.index t (2 : Fin 3) = 0)
theorem idx1_3 : ∀ t : Fin cfg1.N, win1_3.index t (0 : Fin 3) = t.val / 64 ∧ win1_3.index t (1 : Fin 3) = t.val / 4 % 16 ∧ win1_3.index t (2 : Fin 3) = 0 :=
  (by decide +kernel : ∀ t : Fin grid1.N, win1_3.index t (0 : Fin 3) = t.val / 64 ∧ win1_3.index t (1 : Fin 3) = t.val / 4 % 16 ∧ win1_3.index t (2 : Fin 3) = 0)
theorem idx1_8 : ∀ t : Fin cfg1.N, win1_8.index t (0 : Fin 3) = t.val / 64 ∧ win1_8.index t (1 : Fin 3) = t.val / 4 % 16 ∧ win1_8.index t (2 : Fin 3) = 0 :=
  (by decide +kernel : ∀ t : Fin grid1.N, win1_8.index t (0 : Fin 3) = t.val / 64 ∧ win1_8.index t (1 : Fin 3) = t.val / 4 % 16 ∧ win1_8.index t (2 : Fin 3) = 0)
/-- The keys' and the values' windows: the whole batch entry, block (b, 0, 0). -/
theorem idx1_1 : ∀ t : Fin cfg1.N, win1_1.index t (0 : Fin 3) = t.val / 64 ∧ win1_1.index t (1 : Fin 3) = 0 ∧ win1_1.index t (2 : Fin 3) = 0 :=
  (by decide +kernel : ∀ t : Fin grid1.N, win1_1.index t (0 : Fin 3) = t.val / 64 ∧ win1_1.index t (1 : Fin 3) = 0 ∧ win1_1.index t (2 : Fin 3) = 0)
theorem idx1_2 : ∀ t : Fin cfg1.N, win1_2.index t (0 : Fin 3) = t.val / 64 ∧ win1_2.index t (1 : Fin 3) = 0 ∧ win1_2.index t (2 : Fin 3) = 0 :=
  (by decide +kernel : ∀ t : Fin grid1.N, win1_2.index t (0 : Fin 3) = t.val / 64 ∧ win1_2.index t (1 : Fin 3) = 0 ∧ win1_2.index t (2 : Fin 3) = 0)
/-- The weights' windows: the whole array, block 0 on every axis. -/
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 1) = 0 :=
  (by decide +kernel : ∀ t : Fin grid1.N, win1_5.index t (0 : Fin 1) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)

/-- The offset of the key tile the body slices out of the resident keys and values: row 512·ki. -/
theorem off1 (t : Fin cfg1.N) : k1_off1 (grid1.coords t) = ![0, 512 * (t.val % 4), 0] := by
  rw [k1_off1_eq, (coords1 t).2.2]

end Cert.KernelIdeal.Hand

end
-- ==== Proof.KI.R1Blocks.lean ====
/-
  The second region's blocks read at an element: the query rows, the input rows and the result's rows of point
  number n are rows 128·(n / 4 mod 16) … of batch entry n / 64; the keys and values are the whole batch entry; the
  weights are whole.
-/
import proofs.«163628_j7679401525971_2_alg».proof.Proof.KI.R1Points
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : VT F)

/-- A batch entry and a row from a point's number and a row of the query tile. -/
abbrev bOf (t : Fin cfg1.N) : Fin 4 := ⟨t.val / 64, by have := lt_of_lt_of_eq t.isLt (show cfg1.N = 256 from N_1); omega⟩
abbrev rowOf (t : Fin cfg1.N) (r : Fin 128) : Fin 2048 := ⟨128 * (t.val / 4 % 16) + r.val, by have := r.isLt; omega⟩

/-- The query rows' block at a point. -/
theorem iblk1_0_apply (c : Dev nD) (t : Fin cfg1.N) (r : Fin 128) (e : Fin 1024) :
    (iblk1 V c 0 t : Vec F S1x128x1024 .bf16) (ix3 (0 : Fin 1) r e) = V c main_v12_0 (ix3 (bOf t) (rowOf t r) e) := by
  unfold iblk1
  rw [View.read_apply]
  show V c main_v12_0 _ = V c main_v12_0 _
  refine congrArg _ (funext fun a => Fin.ext ?_)
  match a with
  | ⟨0, _⟩ => show win1_0.index t (0 : Fin 3) * 1 + 1 * 0 = t.val / 64; rw [(idx1_0 t).1]; omega
  | ⟨1, _⟩ => show win1_0.index t (1 : Fin 3) * 128 + 1 * r.val = 128 * (t.val / 4 % 16) + r.val; rw [(idx1_0 t).2.1]; omega
  | ⟨2, _⟩ => show win1_0.index t (2 : Fin 3) * 1024 + 1 * e.val = e.val; rw [(idx1_0 t).2.2]; omega

/-- The input rows' block at a point. -/
theorem iblk1_3_apply (c : Dev nD) (t : Fin cfg1.N) (r : Fin 128) (e : Fin 1024) :
    (iblk1 V c 3 t : Vec F S1x128x1024 .f32) (ix3 (0 : Fin 1) r e) = V c main_arg0 (ix3 (bOf t) (rowOf t r) e) := by
  unfold iblk1
  rw [View.read_apply]
  show V c main_arg0 _ = V c main_arg0 _
  refine congrArg _ (funext fun a => Fin.ext ?_)
  match a with
  | ⟨0, _⟩ => show win1_3.index t (0 : Fin 3) * 1 + 1 * 0 = t.val / 64; rw [(idx1_3 t).1]; omega
  | ⟨1, _⟩ => show win1_3.index t (1 : Fin 3) * 128 + 1 * r.val = 128 * (t.val / 4 % 16) + r.val; rw [(idx1_3 t).2.1]; omega
  | ⟨2, _⟩ => show win1_3.index t (2 : Fin 3) * 1024 + 1 * e.val = e.val; rw [(idx1_3 t).2.2]; omega

/-- The keys of the point's batch entry, all 2048 rows. -/
theorem iblk1_1_apply (c : Dev nD) (t : Fin cfg1.N) (s : Fin 2048) (e : Fin 1024) :
    (iblk1 V c 1 t : Vec F S1x2048x1024 .bf16) (ix3 (0 : Fin 1) s e) = V c main_v12_1 (ix3 (bOf t) s e) := by
  unfold iblk1
  rw [View.read_apply]
  show V c main_v12_1 _ = V c main_v12_1 _
  refine congrArg _ (funext fun a => Fin.ext ?_)
  match a with
  | ⟨0, _⟩ => show win1_1.index t (0 : Fin 3) * 1 + 1 * 0 = t.val / 64; rw [(idx1_1 t).1]; omega
  | ⟨1, _⟩ => show win1_1.index t (1 : Fin 3) * 2048 + 1 * s.val = s.val; rw [(idx1_1 t).2.1]; omega
  | ⟨2, _⟩ => show win1_1.index t (2 : Fin 3) * 1024 + 1 * e.val = e.val; rw [(idx1_1 t).2.2]; omega

/-- The values of the point's batch entry. -/
theorem iblk1_2_apply (c : Dev nD) (t : Fin cfg1.N) (s : Fin 2048) (e : Fin 1024) :
    (iblk1 V c 2 t : Vec F S1x2048x1024 .bf16) (ix3 (0 : Fin 1) s e) = V c main_v12_2 (ix3 (bOf t) s e) := by
  unfold iblk1
  rw [View.read_apply]
  show V c main_v12_2 _ = V c main_v12_2 _
  refine congrArg _ (funext fun a => Fin.ext ?_)
  match a with
  | ⟨0, _⟩ => show win1_2.index t (0 : Fin 3) * 1 + 1 * 0 = t.val / 64; rw [(idx1_2 t).1]; omega
  | ⟨1, _⟩ => show win1_2.index t (1 : Fin 3) * 2048 + 1 * s.val = s.val; rw [(idx1_2 t).2.1]; omega
  | ⟨2, _⟩ => show win1_2.index t (2 : Fin 3) * 1024 + 1 * e.val = e.val; rw [(idx1_2 t).2.2]; omega

/-- The four weight arrays, whole. -/
theorem iblk1_4_apply (c : Dev nD) (t : Fin cfg1.N) (e : Fin 1024) (d : Fin 1024) :
    (iblk1 V c 4 t : Vec F S1024x1024 .bf16) (ix2 e d) = V c main_v7 (ix2 e d) := by
  unfold iblk1
  rw [View.read_apply]
  show V c main_v7 _ = V c main_v7 _
  refine congrArg _ (funext fun a => Fin.ext ?_)
  match a with
  | ⟨0, _⟩ => show win1_4.index t (0 : Fin 2) * 1024 + 1 * e.val = e.val; rw [(idx1_4 t).1]; omega
  | ⟨1, _⟩ => show win1_4.index t (1 : Fin 2) * 1024 + 1 * d.val = d.val; rw [(idx1_4 t).2]; omega

theorem iblk1_5_apply (c : Dev nD) (t : Fin cfg1.N) (e : Fin 1024) :
    (iblk1 V c 5 t : Vec F S1024 .f32) (ix1 e) = V c main_arg8 (ix1 e) := by
  unfold iblk1
  rw [View.read_apply]
  show V c main_arg8 _ = V c main_arg8 _
  refine congrArg _ (funext fun a => Fin.ext ?_)
  match a with
  | ⟨0, _⟩ => show win1_5.index t (0 : Fin 1) * 1024 + 1 * e.val = e.val; rw [idx1_5 t]; omega

theorem iblk1_6_apply (c : Dev nD) (t : Fin cfg1.N) (e : Fin 1024) (f : Fin 2048) :
    (iblk1 V c 6 t : Vec F S1024x2048 .bf16) (ix2 e f) = V c main_v9 (ix2 e f) := by
  unfold iblk1
  rw [View.read_apply]
  show V c main_v9 _ = V c main_v9 _
  refine congrArg _ (funext fun a => Fin.ext ?_)
  match a with
  | ⟨0, _⟩ => show win1_6.index t (0 : Fin 2) * 1024 + 1 * e.val = e.val; rw [(idx1_6 t).1]; omega
  | ⟨1, _⟩ => show win1_6.index t (1 : Fin 2) * 2048 + 1 * f.val = f.val; rw [(idx1_6 t).2]; omega

theorem iblk1_7_apply (c : Dev nD) (t : Fin cfg1.N) (f : Fin 2048) (d : Fin 1024) :
    (iblk1 V c 7 t : Vec F S2048x1024 .bf16) (ix2 f d) = V c main_v11 (ix2 f d) := by
  unfold iblk1
  rw [View.read_apply]
  show V c main_v11 _ = V c main_v11 _
  refine congrArg _ (funext fun a => Fin.ext ?_)
  match a with
  | ⟨0, _⟩ => show win1_7.index t (0 : Fin 2) * 2048 + 1 * f.val = f.val; rw [(idx1_7 t).1]; omega
  | ⟨1, _⟩ => show win1_7.index t (1 : Fin 2) * 1024 + 1 * d.val = d.val; rw [(idx1_7 t).2]; omega

end Cert.KernelIdeal.Hand

end
-- ==== Proof.LibMatmulNT.lean ====
/-
  A matrix product against a transposed right operand, read at an entry.

  At the exact instance a `tpu.matmul` into the zero accumulator is, at each output index, the sum over the dot's
  contraction index of the products of the operands at the indices the dimension numbers name. When an M × K matrix
  meets an N × K matrix and both contract their SECOND axis (the product `a · wᵀ`), the operand indices at output
  (y, j) and contraction coordinate k are (y, k) and (j, k), and the contraction index is its one coordinate; so the
  entry is `Σₖ a[y, k] · w[j, k]` over `Fin K`. The four coordinate facts are hypotheses: for a concrete record each is
  one line (two by the record's own single-axis lemmas, two by unfolding the index function at a decided membership).
-/
import Idealize.ShloMosaic.PureOps.Ideal.Laws
import Idealize.ShloMosaic.Lib.ValueIdx

noncomputable section

namespace Cert.MaskedDense.Lib

open Idealize.ShloMosaic Idealize.ShloMosaic.ValueIdx

/-- Entry (y, j) of an M × K by N × K product contracted along both second axes and accumulated into zero is
    `Σₖ a (y, k) · w (j, k)`, `k` over `Fin K`: the contraction index re-read as its one coordinate (`hr`, `hs`: one
    contracted axis of extent K), the operand indices by their coordinates (`hl0`, `hl1`, `hr0`, `hr1`). Only the
    re-indexing of a finite sum is used, so it holds with infinite entries too. -/
theorem matmul_nt_zero_ix2_apply {M K N : Nat} {φ₁ φ₂ : FTy}
    (d : DotDims ⟨2, ![M, K]⟩ ⟨2, ![N, K]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (i 1).val)
    (hr1 : ∀ (i : (⟨2, ![M, N]⟩ : Shape).Idx) (q : d.contr.Idx), (d.rhsIdx i q 1).val = (q ⟨0, by omega⟩).val)
    (prec : Option ContractPrecision) (a : FVec Ideal ⟨2, ![M, K]⟩ φ₁) (w : FVec Ideal ⟨2, ![N, K]⟩ φ₂)
    (y : Fin M) (j : Fin N) :
    FloatOps.matmul d prec a w (constant ⟨2, ![M, N]⟩ .f32 0x00000000#32) (ix2 y j)
      = ∑ k : Fin K, a (ix2 y k) * w (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 j k := funext fun c => Fin.ext (by
    match c with
    | ⟨0, _⟩ => exact hr0 _ _
    | ⟨1, _⟩ => exact (hr1 _ _).trans hk)
  rw [el, er]

end Cert.MaskedDense.Lib

end
-- ==== Proof.KI.R1Pay.lean ====
/-
  The second kernel's arithmetic read entry by entry, at the exact values.

  A key tile's step: the 128 query rows are contracted with the tile's 512 key rows over the 1024 channels, the scores
  are scaled by 0.01 and passed through the quadratic u·u·0.1 + u·0.1, contracted with the tile's value rows over the
  512 positions, scaled by 0.01 and added to the running block. At the last tile the running block is projected over
  the 1024 channels (times 0.1) and blended with the input, x2 = (x·0.5 + o·0.5)·0.1; x2 is scaled channel by channel
  and by 0.1, projected to 2048 features (times 0.05), passed through the same quadratic, projected back (times 0.05)
  and blended with x2. Rounding to a narrower format is the identity at the exact values, a recast that adds or drops
  a leading unit axis keeps the other coordinates, and a product into the zero block is the sum over the contracted
  coordinate; so each entry is a closed expression in the entries of the operands.
-/
import proofs.«163628_j7679401525971_2_alg».proof.Proof.KI.Base
import proofs.«163628_j7679401525971_2_alg».proof.Proof.Spec
import proofs.«163628_j7679401525971_2_alg».proof.Proof.LibPlainMatmul
import proofs.«163628_j7679401525971_2_alg».proof.Proof.LibMatmulNT
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.Spec

/-! ## Each product of the body read at an entry -/

/-- Query rows against key rows, both contracted along the channels. -/
theorem mm_score_apply {φ₁ φ₂ : FTy} (a : FVec Ideal ⟨2, ![128, 1024]⟩ φ₁) (w : FVec Ideal ⟨2, ![512, 1024]⟩ φ₂) (y : Fin 128) (j : Fin 512) :
    FloatOps.matmul dot_S128x1024_S512x1024_S128x512_1_1_0_0_n_n none a w (constant ⟨2, ![128, 512]⟩ .f32 0x00000000#32) (ix2 y j)
      = ∑ k : Fin 1024, a (ix2 y k) * w (ix2 j k) :=
  Cert.MaskedDense.Lib.matmul_nt_zero_ix2_apply dot_S128x1024_S512x1024_S128x512_1_1_0_0_n_n rfl rfl
    (fun i q => by
      unfold DotDims.lhsIdx
      rw [dif_neg (show ¬(0 : Fin (⟨2, ![128, 1024]⟩ : Shape).rank) ∈ dot_S128x1024_S512x1024_S128x512_1_1_0_0_n_n.lhsBatch by decide), dif_pos (show (0 : Fin (⟨2, ![128, 1024]⟩ : Shape).rank) ∈ dot_S128x1024_S512x1024_S128x512_1_1_0_0_n_n.lhsNonContracting by decide)]
      rfl)
    (fun i q => dot_S128x1024_S512x1024_S128x512_1_1_0_0_n_n.lhsIdx_val_of_single rfl i q)
    (fun i q => by
      unfold DotDims.rhsIdx
      rw [dif_neg (show ¬(0 : Fin (⟨2, ![512, 1024]⟩ : Shape).rank) ∈ dot_S128x1024_S512x1024_S128x512_1_1_0_0_n_n.rhsBatch by decide), dif_pos (show (0 : Fin (⟨2, ![512, 1024]⟩ : Shape).rank) ∈ dot_S128x1024_S512x1024_S128x512_1_1_0_0_n_n.rhsNonContracting by decide)]
      rfl)
    (fun i q => dot_S128x1024_S512x1024_S128x512_1_1_0_0_n_n.rhsIdx_val_of_single rfl i q)
    none a w y j

/-- Activated scores against the tile's value rows. -/
theorem mm_mix_apply {φ₁ φ₂ : FTy} (a : FVec Ideal ⟨2, ![128, 512]⟩ φ₁) (w : FVec Ideal ⟨2, ![512, 1024]⟩ φ₂) (y : Fin 128) (j : Fin 1024) :
    FloatOps.matmul dot_S128x512_S512x1024_S128x1024_1_0_0_1_n_n none a w (constant ⟨2, ![128, 1024]⟩ .f32 0x00000000#32) (ix2 y j)
      = ∑ k : Fin 512, a (ix2 y k) * w (ix2 k j) :=
  Cert.EdgeScore.Lib.matmul_zero_ix2_apply dot_S128x512_S512x1024_S128x1024_1_0_0_1_n_n rfl rfl
    (fun i q => by
      unfold DotDims.lhsIdx
      rw [dif_neg (show ¬(0 : Fin (⟨2, ![128, 512]⟩ : Shape).rank) ∈ dot_S128x512_S512x1024_S128x1024_1_0_0_1_n_n.lhsBatch by decide), dif_pos (show (0 : Fin (⟨2, ![128, 512]⟩ : Shape).rank) ∈ dot_S128x512_S512x1024_S128x1024_1_0_0_1_n_n.lhsNonContracting by decide)]
      rfl)
    (fun i q => dot_S128x512_S512x1024_S128x1024_1_0_0_1_n_n.lhsIdx_val_of_single rfl i q)
    (fun i q => dot_S128x512_S512x1024_S128x1024_1_0_0_1_n_n.rhsIdx_val_of_single rfl i q)
    (fun i q => by
      unfold DotDims.rhsIdx
      rw [dif_neg (show ¬(1 : Fin (⟨2, ![512, 1024]⟩ : Shape).rank) ∈ dot_S128x512_S512x1024_S128x1024_1_0_0_1_n_n.rhsBatch by decide), dif_pos (show (1 : Fin (⟨2, ![512, 1024]⟩ : Shape).rank) ∈ dot_S128x512_S512x1024_S128x1024_1_0_0_1_n_n.rhsNonContracting by decide)]
      rfl)
    none a w y j

/-! ## The zero block and one key tile -/

/-- The block a row of tiles starts from is zero at every entry. -/
theorem pay5_apply (r : Fin 128) (d : Fin 1024) : Gen.k1_pay5 (F := Ideal) (ix2 r d) = 0 := by
  unfold Gen.k1_pay5
  simp only [shapeCast_self]
  exact Ideal.ofBits_zero_f32

/-- One key tile's step at entry (r, d): the running value plus the tile's activated scores against its value rows,
    times 0.01. -/
theorem pay6_apply (v6 v9 : Vec Ideal S1x512x1024 .bf16) (v11 : Vec Ideal S1x128x1024 .bf16) (v26 : Vec Ideal S128x1024 .f32)
    (r : Fin 128) (d : Fin 1024) :
    Gen.k1_pay6 (F := Ideal) v6 v9 v11 v26 (ix2 r d)
      = v26 (ix2 r d) + (∑ s : Fin 512, poly ((∑ e : Fin 1024, v11 (ix3 0 r e) * v6 (ix3 0 s e)) * k001) * v9 (ix3 0 s d)) * k001 := by
  unfold Gen.k1_pay6
  simp only [shapeCast_self, addf_apply, mulf_apply, broadcast_apply, matmul]
  refine congrArg (v26 (ix2 r d) + ·) ?_
  refine congrArg (· * k001) ?_
  refine (mm_mix_apply _ _ r d).trans ?_
  refine Finset.sum_congr rfl fun s _ => ?_
  simp only [truncf_apply, addf_apply, mulf_apply, broadcast_apply]
  rw [mm_score_apply, shapeCast_1ab_ab_apply]
  simp only [shapeCast_1ab_ab_apply]
  rfl

/-! ## The last key tile: the projection, the second half, the blends -/

/-- The running block against the output weights. -/
theorem mm_proj_apply {φ₁ φ₂ : FTy} (a : FVec Ideal ⟨2, ![128, 1024]⟩ φ₁) (w : FVec Ideal ⟨2, ![1024, 1024]⟩ φ₂) (y : Fin 128) (j : Fin 1024) :
    FloatOps.matmul dot_S128x1024_S1024x1024_S128x1024_1_0_0_1_n_n none a w (constant ⟨2, ![128, 1024]⟩ .f32 0x00000000#32) (ix2 y j)
      = ∑ k : Fin 1024, a (ix2 y k) * w (ix2 k j) :=
  Cert.EdgeScore.Lib.matmul_zero_ix2_apply dot_S128x1024_S1024x1024_S128x1024_1_0_0_1_n_n rfl rfl
    (fun i q => by
      unfold DotDims.lhsIdx
      rw [dif_neg (show ¬(0 : Fin (⟨2, ![128, 1024]⟩ : Shape).rank) ∈ dot_S128x1024_S1024x1024_S128x1024_1_0_0_1_n_n.lhsBatch by decide), dif_pos (show (0 : Fin (⟨2, ![128, 1024]⟩ : Shape).rank) ∈ dot_S128x1024_S1024x1024_S128x1024_1_0_0_1_n_n.lhsNonContracting by decide)]
      rfl)
    (fun i q => dot_S128x1024_S1024x1024_S128x1024_1_0_0_1_n_n.lhsIdx_val_of_single rfl i q)
    (fun i q => dot_S128x1024_S1024x1024_S128x1024_1_0_0_1_n_n.rhsIdx_val_of_single rfl i q)
    (fun i q => by
      unfold DotDims.rhsIdx
      rw [dif_neg (show ¬(1 : Fin (⟨2, ![1024, 1024]⟩ : Shape).rank) ∈ dot_S128x1024_S1024x1024_S128x1024_1_0_0_1_n_n.rhsBatch by decide), dif_pos (show (1 : Fin (⟨2, ![1024, 1024]⟩ : Shape).rank) ∈ dot_S128x1024_S1024x1024_S128x1024_1_0_0_1_n_n.rhsNonContracting by decide)]
      rfl)
    none a w y j

/-- The scaled rows against the first weights of the second half: 2048 features. -/
theorem mm_up_apply {φ₁ φ₂ : FTy} (a : FVec Ideal ⟨2, ![128, 1024]⟩ φ₁) (w : FVec Ideal ⟨2, ![1024, 2048]⟩ φ₂) (y : Fin 128) (j : Fin 2048) :
    FloatOps.matmul dot_S128x1024_S1024x2048_S128x2048_1_0_0_1_n_n none a w (constant ⟨2, ![128, 2048]⟩ .f32 0x00000000#32) (ix2 y j)
      = ∑ k : Fin 1024, a (ix2 y k) * w (ix2 k j) :=
  Cert.EdgeScore.Lib.matmul_zero_ix2_apply dot_S128x1024_S1024x2048_S128x2048_1_0_0_1_n_n rfl rfl
    (fun i q => by
      unfold DotDims.lhsIdx
      rw [dif_neg (show ¬(0 : Fin (⟨2, ![128, 1024]⟩ : Shape).rank) ∈ dot_S128x1024_S1024x2048_S128x2048_1_0_0_1_n_n.lhsBatch by decide), dif_pos (show (0 : Fin (⟨2, ![128, 1024]⟩ : Shape).rank) ∈ dot_S128x1024_S1024x2048_S128x2048_1_0_0_1_n_n.lhsNonContracting by decide)]
      rfl)
    (fun i q => dot_S128x1024_S1024x2048_S128x2048_1_0_0_1_n_n.lhsIdx_val_of_single rfl i q)
    (fun i q => dot_S128x1024_S1024x2048_S128x2048_1_0_0_1_n_n.rhsIdx_val_of_single rfl i q)
    (fun i q => by
      unfold DotDims.rhsIdx
      rw [dif_neg (show ¬(1 : Fin (⟨2, ![1024, 2048]⟩ : Shape).rank) ∈ dot_S128x1024_S1024x2048_S128x2048_1_0_0_1_n_n.rhsBatch by decide), dif_pos (show (1 : Fin (⟨2, ![1024, 2048]⟩ : Shape).rank) ∈ dot_S128x1024_S1024x2048_S128x2048_1_0_0_1_n_n.rhsNonContracting by decide)]
      rfl)
    none a w y j

/-- The activated features against the second weights: back to 1024 channels. -/
theorem mm_down_apply {φ₁ φ₂ : FTy} (a : FVec Ideal ⟨2, ![128, 2048]⟩ φ₁) (w : FVec Ideal ⟨2, ![2048, 1024]⟩ φ₂) (y : Fin 128) (j : Fin 1024) :
    FloatOps.matmul dot_S128x2048_S2048x1024_S128x1024_1_0_0_1_n_n none a w (constant ⟨2, ![128, 1024]⟩ .f32 0x00000000#32) (ix2 y j)
      = ∑ k : Fin 2048, a (ix2 y k) * w (ix2 k j) :=
  Cert.EdgeScore.Lib.matmul_zero_ix2_apply dot_S128x2048_S2048x1024_S128x1024_1_0_0_1_n_n rfl rfl
    (fun i q => by
      unfold DotDims.lhsIdx
      rw [dif_neg (show ¬(0 : Fin (⟨2, ![128, 2048]⟩ : Shape).rank) ∈ dot_S128x2048_S2048x1024_S128x1024_1_0_0_1_n_n.lhsBatch by decide), dif_pos (show (0 : Fin (⟨2, ![128, 2048]⟩ : Shape).rank) ∈ dot_S128x2048_S2048x1024_S128x1024_1_0_0_1_n_n.lhsNonContracting by decide)]
      rfl)
    (fun i q => dot_S128x2048_S2048x1024_S128x1024_1_0_0_1_n_n.lhsIdx_val_of_single rfl i q)
    (fun i q => dot_S128x2048_S2048x1024_S128x1024_1_0_0_1_n_n.rhsIdx_val_of_single rfl i q)
    (fun i q => by
      unfold DotDims.rhsIdx
      rw [dif_neg (show ¬(1 : Fin (⟨2, ![2048, 1024]⟩ : Shape).rank) ∈ dot_S128x2048_S2048x1024_S128x1024_1_0_0_1_n_n.rhsBatch by decide), dif_pos (show (1 : Fin (⟨2, ![2048, 1024]⟩ : Shape).rank) ∈ dot_S128x2048_S2048x1024_S128x1024_1_0_0_1_n_n.rhsNonContracting by decide)]
      rfl)
    none a w y j

/-- The first blend at entry (r, c): x2 = (x·0.5 + o·0.5)·0.1 with o the projected running block times 0.1. -/
theorem k1_pay2_apply (v34 : Vec Ideal S128x1024 .f32) (v36 : Vec Ideal S1024x1024 .bf16) (v41 : Vec Ideal S1x128x1024 .f32)
    (r : Fin 128) (c : Fin 1024) :
    Gen.k1_pay2 (F := Ideal) v34 v36 v41 (ix2 r c)
      = (v41 (ix3 0 r c) * k05 + ((∑ e : Fin 1024, v34 (ix2 r e) * v36 (ix2 e c)) * k01) * k05) * k01 := by
  unfold Gen.k1_pay2
  simp only [shapeCast_self, addf_apply, mulf_apply, broadcast_apply, matmul]
  rw [mm_proj_apply, shapeCast_1ab_ab_apply]
  simp only [truncf_apply]
  rfl

/-- The activated features at entry (r, f), over the first blend's row: the row scaled channel by channel and by 0.1,
    projected, times 0.05, through the quadratic. -/
theorem k1_pay3_apply (v34 : Vec Ideal S128x1024 .f32) (v36 : Vec Ideal S1024x1024 .bf16) (v41 : Vec Ideal S1x128x1024 .f32)
    (v50 : Vec Ideal S1024 .f32) (v57 : Vec Ideal S1024x2048 .bf16) (r : Fin 128) (f : Fin 2048) :
    Gen.k1_pay3 (F := Ideal) v34 v36 v41 v50 v57 (ix2 r f)
      = poly ((∑ e : Fin 1024, (Gen.k1_pay2 (F := Ideal) v34 v36 v41 (ix2 r e) * v50 (ix1 e) * k01) * v57 (ix2 e f)) * k005) := by
  unfold Gen.k1_pay3
  simp only [shapeCast_self, truncf_apply, addf_apply, mulf_apply, broadcast_apply, matmul]
  rw [mm_up_apply]
  simp only [truncf_apply, mulf_apply, broadcast_apply, broadcastTo_1b_ab_apply, shapeCast_a_1a_apply]
  rfl

/-- The final blend at entry (0, r, c), over any first-blend block, feature block and weights. -/
theorem k1_pay1_gen_apply (v49 : FVec Ideal S128x1024 .f32) (v68 : FVec Ideal S128x2048 .bf16) (v70 : FVec Ideal S2048x1024 .bf16)
    (r : Fin 128) (c : Fin 1024) :
    Gen.k1_pay1 (F := Ideal) v49 v68 v70 (constant S128x1024 .f32 0x00000000#32) (ix3 0 r c)
      = (v49 (ix2 r c) * k05 + ((∑ f : Fin 2048, v68 (ix2 r f) * v70 (ix2 f c)) * k005) * k05) * k01 := by
  unfold Gen.k1_pay1
  rw [shapeCast_ab_1ab_apply]
  simp only [addf_apply, mulf_apply, broadcast_apply, matmul]
  rw [mm_down_apply]
  rfl

/-- The stored block at entry (0, r, c) as a closed expression in the entries of the running block, the input and the
    weights. -/
theorem pay1_apply (v34 : Vec Ideal S128x1024 .f32) (v36 : Vec Ideal S1024x1024 .bf16) (v41 : Vec Ideal S1x128x1024 .f32)
    (v50 : Vec Ideal S1024 .f32) (v57 : Vec Ideal S1024x2048 .bf16) (v69 : Vec Ideal S2048x1024 .bf16) (r : Fin 128) (c : Fin 1024) :
    Gen.k1_pay1 (F := Ideal) (Gen.k1_pay2 v34 v36 v41) (Gen.k1_pay3 v34 v36 v41 v50 v57) (Gen.k1_pay4 v69)
        (constant S128x1024 .f32 0x00000000#32) (ix3 0 r c)
      = (let x2 : Fin 1024 → EReal := fun c' => (v41 (ix3 0 r c') * k05 + ((∑ e : Fin 1024, v34 (ix2 r e) * v36 (ix2 e c')) * k01) * k05) * k01
         (x2 c * k05 + ((∑ f : Fin 2048, poly ((∑ e : Fin 1024, (x2 e * v50 (ix1 e) * k01) * v57 (ix2 e f)) * k005) * v69 (ix2 f c)) * k005) * k05) * k01) := by
  rw [k1_pay1_gen_apply]
  simp only [k1_pay2_apply, k1_pay3_apply]
  unfold Gen.k1_pay4
  simp only [shapeCast_self]

end Cert.KernelIdeal.Hand

end
-- ==== Proof.SpecRow.lean ====
/-
  Everything after the attention row is computed row by row: the projection of the attention row, the blend with the
  input row, the scaling, the two projections of the second half with the quadratic between them, and the final blend
  each read, at position (b, t), nothing but the attention row and the input row at (b, t). So the result at (b, t)
  is one function of those two rows and of the weights, and two positions whose rows agree have the same result.
-/
import proofs.«163628_j7679401525971_2_alg».proof.Proof.Spec

noncomputable section

namespace Cert.Spec

/-- Everything after the attention row, as a function of the attention rows `a` and the input. -/
def tail' (a x : F3) (wo : Fin 1024 → Fin 1024 → EReal) (l2 : Fin 1024 → EReal)
    (w1 : Fin 2048 → Fin 1024 → EReal) (w2 : Fin 1024 → Fin 2048 → EReal) : F3 :=
  let x2 := blend x (lin a wo k01)
  blend x2 (back (hidden (scaled x2 l2) w1) w2)

/-- The tail is that function of the attention rows. -/
theorem tail_eq_tail' (q kk v x : F3) (wo : Fin 1024 → Fin 1024 → EReal) (l2 : Fin 1024 → EReal)
    (w1 : Fin 2048 → Fin 1024 → EReal) (w2 : Fin 1024 → Fin 2048 → EReal) :
    tail q kk v x wo l2 w1 w2 = tail' (att q kk v) x wo l2 w1 w2 := rfl

/-- The result at a position depends on the attention row and the input row at that position only. -/
theorem tail'_congr (a a' x x' : F3) (wo : Fin 1024 → Fin 1024 → EReal) (l2 : Fin 1024 → EReal)
    (w1 : Fin 2048 → Fin 1024 → EReal) (w2 : Fin 1024 → Fin 2048 → EReal) (b b' : Fin 4) (t t' : Fin 2048)
    (ha : ∀ e, a b t e = a' b' t' e) (hx : ∀ c, x b t c = x' b' t' c) (c : Fin 1024) :
    tail' a x wo l2 w1 w2 b t c = tail' a' x' wo l2 w1 w2 b' t' c := by
  simp only [tail', blend, lin, back, hidden, scaled, ha, hx]

end Cert.Spec

end
-- ==== Proof.Acc.lean ====
/-
  The attention row of a query against all 2048 keys, accumulated four key tiles of 512 at a time: each tile's
  contribution is its own sum times the constant, added to a running total that starts from zero. Over the extended
  reals this is the one sum over the 2048 keys times the constant, because multiplying by a constant that is
  nonnegative and not +∞ distributes over any sum.
-/
import Mathlib
import proofs.«163628_j7679401525971_2_alg».proof.Proof.Spec

noncomputable section

namespace Cert.Spec

/-- One key tile's contribution: the terms of the 512 keys from 512·j on, summed, times `k`. -/
def tile (k : EReal) (g : ℕ → EReal) (j : ℕ) : EReal := (∑ s : Fin 512, g (512 * j + s.val)) * k

/-- The running total after tile `j`: zero plus the first tile, then one tile more at a time. -/
def accTiles (k : EReal) (g : ℕ → EReal) : ℕ → EReal
  | 0 => 0 + tile k g 0
  | j + 1 => accTiles k g j + tile k g (j + 1)

/-- After the fourth tile the running total is the sum over all 2048 keys, times the constant. -/
theorem accTiles_three (k : EReal) (hk : 0 ≤ k) (hk' : k ≠ ⊤) (g : ℕ → EReal) :
    accTiles k g 3 = (∑ s : Fin 2048, g s.val) * k := by
  have e : ∀ j, (∑ s : Fin 512, g (512 * j + s.val)) = ∑ s ∈ Finset.range 512, g (512 * j + s) :=
    fun j => Fin.sum_univ_eq_sum_range (fun s => g (512 * j + s)) 512
  have E : (∑ s : Fin 2048, g s.val) = ∑ s ∈ Finset.range 2048, g s := Fin.sum_univ_eq_sum_range g 2048
  simp only [accTiles, tile, e, E, zero_add]
  rw [show (2048 : ℕ) = 512 + 512 + 512 + 512 from rfl, Finset.sum_range_add, Finset.sum_range_add, Finset.sum_range_add]
  rw [EReal.right_distrib_of_nonneg_of_ne_top hk hk', EReal.right_distrib_of_nonneg_of_ne_top hk hk',
    EReal.right_distrib_of_nonneg_of_ne_top hk hk']
  simp only [Nat.mul_zero, Nat.zero_add, Nat.mul_one, Nat.reduceMul, Nat.reduceAdd]

end Cert.Spec

end
-- ==== Proof.KI.R1Math.lean ====
/-
  The second kernel's two payloads in the words of the specification.

  A key tile's step reads rows 512·ki … 512·ki + 511 of the resident keys and values: the row s of the slice is the
  row 512·ki + s of the whole. So the step adds to the running value the tile's contribution to the attention row:
  the activated scores of the query row against those 512 keys, against the value rows, summed, times 0.01. The
  closing payload at entry (r, c) is the tail of the block, everything after the attention row, applied to the running
  row r as the attention row and to the input's row r, with each weight read output coordinate first.
-/
import proofs.«163628_j7679401525971_2_alg».proof.Proof.KI.R1Pay
import proofs.«163628_j7679401525971_2_alg».proof.Proof.SpecRow
import proofs.«163628_j7679401525971_2_alg».proof.Proof.Acc
import Idealize.ShloMosaic.Lib.Pipeline.FrameBody

noncomputable section

namespace Cert.KernelIdeal.Hand

open Idealize.ShloMosaic Idealize.ShloMosaic.ValueIdx
open Cert.KernelIdeal Cert.KernelIdeal.Gen Cert.Spec

/-- Row `s` of the 512 rows sliced out from row 512·ki is row 512·ki + s of the whole. -/
theorem ld_tile (X : Vec Ideal S1x2048x1024 .bf16) (i : grid1.Coords) (ki : ℕ) (hoff : k1_off1 i = ![0, 512 * ki, 0])
    (hki : ki < 4) (s : Fin 512) (e : Fin 1024) :
    (View.ld X (Rect.unit (s := S1x2048x1024) (k1_off1 i) S1x512x1024.size (k1_off1_inb i)) : Vec Ideal S1x512x1024 .bf16)
        (ix3 (0 : Fin 1) s e)
      = X (ix3 (0 : Fin 1) (⟨512 * ki + s.val, by omega⟩ : Fin 2048) e) := by
  show X _ = X _
  refine congrArg X (funext fun a => Fin.ext ?_)
  match a with
  | ⟨0, _⟩ =>
    show k1_off1 i 0 + 1 * 0 = 0
    rw [hoff]; rfl
  | ⟨1, _⟩ =>
    show k1_off1 i 1 + 1 * s.val = 512 * ki + s.val
    rw [hoff]
    show 512 * ki + 1 * s.val = _
    omega
  | ⟨2, _⟩ =>
    show k1_off1 i 2 + 1 * e.val = e.val
    rw [hoff]
    show 0 + 1 * e.val = _
    omega

/-- One key tile's step at entry (r, d): the running value plus tile `ki`'s contribution to the attention row. -/
theorem tile_step (Qb : Vec Ideal S1x128x1024 .bf16) (Kb Vb : Vec Ideal S1x2048x1024 .bf16) (xs : Vec Ideal S128x1024 .f32)
    (i : grid1.Coords) (ki : ℕ) (hoff : k1_off1 i = ![0, 512 * ki, 0]) (hki : ki < 4) (r : Fin 128) (d : Fin 1024) :
    Gen.k1_pay6 (F := Ideal)
        (View.ld Kb (Rect.unit (s := S1x2048x1024) (k1_off1 i) S1x512x1024.size (k1_off1_inb i)))
        (View.ld Vb (Rect.unit (s := S1x2048x1024) (k1_off1 i) S1x512x1024.size (k1_off1_inb i))) Qb xs (ix2 r d)
      = xs (ix2 r d) + tile k001 (fun s => if h : s < 2048 then
            poly ((∑ e : Fin 1024, Qb (ix3 (0 : Fin 1) r e) * Kb (ix3 (0 : Fin 1) ⟨s, h⟩ e)) * k001) * Vb (ix3 (0 : Fin 1) ⟨s, h⟩ d)
          else 0) ki := by
  refine (pay6_apply _ _ Qb xs r d).trans ?_
  refine congrArg (xs (ix2 r d) + ·) ?_
  unfold tile
  refine congrArg (· * k001) ?_
  refine Finset.sum_congr rfl fun s _ => ?_
  have hs : 512 * ki + s.val < 2048 := by omega
  beta_reduce
  rw [dif_pos hs, ld_tile Vb i ki hoff hki s d]
  refine congrArg (fun u => poly (u * k001) * Vb (ix3 (0 : Fin 1) (⟨512 * ki + s.val, hs⟩ : Fin 2048) d)) ?_
  exact Finset.sum_congr rfl fun e _ => by rw [ld_tile Kb i ki hoff hki s e]

/-- The stored entry (0, r, c) is the tail of the block at channel `c`, on the running row `r` and the input's row `r`;
    the position (b, t) the rows are placed at is immaterial. -/
theorem pay1_row (v34 : Vec Ideal S128x1024 .f32) (v36 : Vec Ideal S1024x1024 .bf16) (v41 : Vec Ideal S1x128x1024 .f32)
    (v50 : Vec Ideal S1024 .f32) (v57 : Vec Ideal S1024x2048 .bf16) (v69 : Vec Ideal S2048x1024 .bf16) (r : Fin 128) (c : Fin 1024)
    (b : Fin 4) (t : Fin 2048) :
    Gen.k1_pay1 (F := Ideal) (Gen.k1_pay2 v34 v36 v41) (Gen.k1_pay3 v34 v36 v41 v50 v57) (Gen.k1_pay4 v69)
        (constant S128x1024 .f32 0x00000000#32) (ix3 (0 : Fin 1) r c)
      = tail' (fun _ _ e => v34 (ix2 r e)) (fun _ _ c' => v41 (ix3 (0 : Fin 1) r c')) (fun d e => v36 (ix2 e d))
          (fun e => v50 (ix1 e)) (fun f e => v57 (ix2 e f)) (fun d f => v69 (ix2 f d)) b t c := by
  rw [pay1_apply]
  rfl

end Cert.KernelIdeal.Hand

end
-- ==== Proof.Consts.lean ====
/-
  The four constants of the block are positive reals.

  Each constant is kept as the 32-bit word the programs spell. Such a word with a clear sign bit and an exponent
  field that is neither zero nor all ones denotes the real (2²³ + fraction) · 2^(exponent − 127 − 23), which is
  positive; in particular it is not negative and not infinite, which is what multiplication needs in order to
  distribute over a sum on the extended reals.
-/
import proofs.«163628_j7679401525971_2_alg».proof.Proof.Spec
import Idealize.ShloMosaic.PureOps.Ideal.Laws

namespace Cert.Spec

open Idealize.ShloMosaic

/-- The word of `k001` denotes a positive real. -/
theorem k001_coe : k001 = (((2 ^ 23 + 2348810 : ℕ) * (2 : ℝ) ^ ((120 : ℤ) - 127 - 23) : ℝ) : EReal) := by
  simp [k001, Ideal.ofBits, Ideal.ieee, -EReal.coe_mul]
theorem k001_nonneg : 0 ≤ k001 := by
  rw [k001_coe]; exact EReal.coe_nonneg.mpr (by positivity)
theorem k001_ne_top : k001 ≠ ⊤ := by
  rw [k001_coe]; exact EReal.coe_ne_top _
theorem k001_ne_bot : k001 ≠ ⊥ := by
  rw [k001_coe]; exact EReal.coe_ne_bot _

/-- The word of `k01` denotes a positive real. -/
theorem k01_coe : k01 = (((2 ^ 23 + 5033165 : ℕ) * (2 : ℝ) ^ ((123 : ℤ) - 127 - 23) : ℝ) : EReal) := by
  simp [k01, Ideal.ofBits, Ideal.ieee, -EReal.coe_mul]
theorem k01_nonneg : 0 ≤ k01 := by
  rw [k01_coe]; exact EReal.coe_nonneg.mpr (by positivity)
theorem k01_ne_top : k01 ≠ ⊤ := by
  rw [k01_coe]; exact EReal.coe_ne_top _
theorem k01_ne_bot : k01 ≠ ⊥ := by
  rw [k01_coe]; exact EReal.coe_ne_bot _

/-- The word of `k005` denotes a positive real. -/
theorem k005_coe : k005 = (((2 ^ 23 + 5033165 : ℕ) * (2 : ℝ) ^ ((122 : ℤ) - 127 - 23) : ℝ) : EReal) := by
  simp [k005, Ideal.ofBits, Ideal.ieee, -EReal.coe_mul]
theorem k005_nonneg : 0 ≤ k005 := by
  rw [k005_coe]; exact EReal.coe_nonneg.mpr (by positivity)
theorem k005_ne_top : k005 ≠ ⊤ := by
  rw [k005_coe]; exact EReal.coe_ne_top _
theorem k005_ne_bot : k005 ≠ ⊥ := by
  rw [k005_coe]; exact EReal.coe_ne_bot _

/-- The word of `k05` denotes a positive real. -/
theorem k05_coe : k05 = (((2 ^ 23 + 0 : ℕ) * (2 : ℝ) ^ ((126 : ℤ) - 127 - 23) : ℝ) : EReal) := by
  simp [k05, Ideal.ofBits, Ideal.ieee, -EReal.coe_mul]
theorem k05_nonneg : 0 ≤ k05 := by
  rw [k05_coe]; exact EReal.coe_nonneg.mpr (by positivity)
theorem k05_ne_top : k05 ≠ ⊤ := by
  rw [k05_coe]; exact EReal.coe_ne_top _
theorem k05_ne_bot : k05 ≠ ⊥ := by
  rw [k05_coe]; exact EReal.coe_ne_bot _

end Cert.Spec
-- ==== Proof.KI.R1Value.lean ====
/-
  What the second region leaves in the result array, element by element: the block of batch entry b, rows
  128·qi …, is written at the last key tile from the accumulator, which by then holds the whole attention rows — the
  four tiles' contributions, each a sum over its 512 keys times the constant, added up from zero, which is the sum
  over all 2048 keys times the constant. So the array ends holding everything after the three projections, as one
  function of the arrays the region reads.
-/
import proofs.«163628_j7679401525971_2_alg».proof.Proof.KI.R1Pieces
import proofs.«163628_j7679401525971_2_alg».proof.Proof.KI.R1Spec
import proofs.«163628_j7679401525971_2_alg».proof.Proof.KI.R1Blocks
import proofs.«163628_j7679401525971_2_alg».proof.Proof.KI.R1Math
import proofs.«163628_j7679401525971_2_alg».proof.Proof.Consts
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Spec

variable (V : VT Ideal) (c : Dev nD)

/-- Key `s`'s term of the attention row of query row `row` of batch entry `b`, at channel `d`. -/
def gAt (b : Fin 4) (row : Fin 2048) (d : Fin 1024) (s : ℕ) : EReal :=
  if h : s < 2048 then poly (score (Qf V c) (Kf V c) b row ⟨s, h⟩) * Vf V c b ⟨s, h⟩ d else 0

/-- One point's update of the accumulator, whatever it held: what it held plus the point's key tile's contribution. -/
theorem step (t : Fin cfg1.N) (xs : Vec Ideal S128x1024 .f32) (r : Fin 128) (d : Fin 1024) :
    k1_pay6 (F := Ideal) (View.ld (iblk1 V c 1 t) (tileRect (grid1.coords t))) (View.ld (iblk1 V c 2 t) (tileRect (grid1.coords t))) (iblk1 V c 0 t) xs (ix2 r d)
      = xs (ix2 r d) + tile k001 (gAt V c (bOf t) (rowOf t r) d) (t.val % 4) := by
  have hN : t.val < 256 := lt_of_lt_of_eq t.isLt (show cfg1.N = 256 from N_1)
  refine (tile_step (iblk1 V c 0 t) (iblk1 V c 1 t) (iblk1 V c 2 t) xs (grid1.coords t) (t.val % 4) (off1 t) (by omega) r d).trans ?_
  refine congrArg (fun g => xs (ix2 r d) + tile k001 g (t.val % 4)) (funext fun s => ?_)
  unfold gAt score
  by_cases h : s < 2048
  · rw [dif_pos h, dif_pos h]
    simp only [iblk1_0_apply, iblk1_1_apply, iblk1_2_apply]
  · rw [dif_neg h, dif_neg h]

theorem accTiles_zero (k : EReal) (g : ℕ → EReal) : accTiles k g 0 = 0 + tile k g 0 := rfl
theorem accTiles_succ (k : EReal) (g : ℕ → EReal) (j : ℕ) : accTiles k g (j + 1) = accTiles k g j + tile k g (j + 1) := rfl

set_option maxHeartbeats 1000000 in
/-- At a first key tile the accumulator is cleared and receives the tile's contribution. -/
theorem acc_A (t : Fin cfg1.N) (h0 : t.val % 4 = 0) (h1 : ¬t.val % 4 = 3) (r : Fin 128) (d : Fin 1024) :
    (outsAt1 V c t.val t.isLt).2 (ix2 r d) = k1_pay5 (F := Ideal) (ix2 r d) + tile k001 (gAt V c (bOf t) (rowOf t r) d) (t.val % 4) := by
  rw [outsAt1_A V c t h0 h1]
  dsimp only
  rw [sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t)]
  exact step V c t (k1_pay5 (F := Ideal)) r d

set_option maxHeartbeats 1000000 in
/-- At a middle key tile it receives the tile's contribution on top of what the point before left. -/
theorem acc_B (t : Fin cfg1.N) (h0 : ¬t.val % 4 = 0) (h1 : ¬t.val % 4 = 3) (r : Fin 128) (d : Fin 1024) :
    (outsAt1 V c t.val t.isLt).2 (ix2 r d) = (outsAt1 V c (t.val - 1) (Nat.lt_of_le_of_lt (Nat.sub_le _ _) t.isLt)).2 (ix2 r d) + tile k001 (gAt V c (bOf t) (rowOf t r) d) (t.val % 4) := by
  rw [outsAt1_B V c t h0 h1]
  dsimp only
  rw [sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2]
  exact step V c t (outsAt1 V c (t.val - 1) (Nat.lt_of_le_of_lt (Nat.sub_le _ _) t.isLt)).2 r d

set_option maxHeartbeats 1000000 in
/-- And at the last key tile likewise. -/
theorem acc_C (t : Fin cfg1.N) (h0 : ¬t.val % 4 = 0) (h1 : t.val % 4 = 3) (r : Fin 128) (d : Fin 1024) :
    (outsAt1 V c t.val t.isLt).2 (ix2 r d) = (outsAt1 V c (t.val - 1) (Nat.lt_of_le_of_lt (Nat.sub_le _ _) t.isLt)).2 (ix2 r d) + tile k001 (gAt V c (bOf t) (rowOf t r) d) (t.val % 4) := by
  rw [outsAt1_C V c t h0 h1]
  dsimp only
  rw [sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2]
  exact step V c t (outsAt1 V c (t.val - 1) (Nat.lt_of_le_of_lt (Nat.sub_le _ _) t.isLt)).2 r d

/-- THE ACCUMULATOR, point by point: after position `n` it holds the running total of the first n mod 4 + 1 key tiles
    of its query rows. -/
theorem acc_eq : ∀ (n : ℕ) (hn : n < cfg1.N) (r : Fin 128) (d : Fin 1024),
    (outsAt1 V c n hn).2 (ix2 r d) = accTiles k001 (gAt V c (bOf ⟨n, hn⟩) (rowOf ⟨n, hn⟩ r) d) (n % 4)
  | 0, hn, r, d => by
    have h := acc_A V c ⟨0, hn⟩ rfl (fun h => by have h' : (0 : ℕ) % 4 = 3 := h; omega) r d
    rw [pay5_apply] at h
    refine h.trans ?_
    generalize gAt V c (bOf ⟨0, hn⟩) (rowOf ⟨0, hn⟩ r) d = g
    exact (accTiles_zero k001 g).symm
  | n + 1, hn, r, d => by
    have hN : n + 1 < 256 := lt_of_lt_of_eq hn (show cfg1.N = 256 from N_1)
    by_cases h0 : (n + 1) % 4 = 0
    · have h := acc_A V c ⟨n + 1, hn⟩ h0 (fun h => by have h' : (n + 1) % 4 = 3 := h; omega) r d
      rw [pay5_apply] at h
      refine h.trans ?_
      generalize gAt V c (bOf ⟨n + 1, hn⟩) (rowOf ⟨n + 1, hn⟩ r) d = g
      show (0 : EReal) + tile k001 g ((n + 1) % 4) = accTiles k001 g ((n + 1) % 4)
      rw [h0]
      exact (accTiles_zero k001 g).symm
    · have hb : bOf (⟨n + 1, hn⟩ : Fin cfg1.N) = bOf (⟨n, Nat.lt_of_succ_lt hn⟩ : Fin cfg1.N) := Fin.ext (by show (n + 1) / 64 = n / 64; omega)
      have hr : rowOf (⟨n + 1, hn⟩ : Fin cfg1.N) r = rowOf (⟨n, Nat.lt_of_succ_lt hn⟩ : Fin cfg1.N) r := Fin.ext (by show 128 * ((n + 1) / 4 % 16) + r.val = 128 * (n / 4 % 16) + r.val; omega)
      have hk : (n + 1) % 4 = n % 4 + 1 := by omega
      have ih := acc_eq n (Nat.lt_of_succ_lt hn) r d
      have h : (outsAt1 V c (n + 1) hn).2 (ix2 r d)
          = (outsAt1 V c n (Nat.lt_of_succ_lt hn)).2 (ix2 r d) + tile k001 (gAt V c (bOf ⟨n + 1, hn⟩) (rowOf ⟨n + 1, hn⟩ r) d) ((n + 1) % 4) := by
        by_cases h1 : (n + 1) % 4 = 3
        · exact acc_C V c ⟨n + 1, hn⟩ h0 h1 r d
        · exact acc_B V c ⟨n + 1, hn⟩ h0 h1 r d
      rw [h, ih, hb, hr]
      generalize gAt V c (bOf ⟨n, Nat.lt_of_succ_lt hn⟩) (rowOf ⟨n, Nat.lt_of_succ_lt hn⟩ r) d = g
      rw [hk]
      exact (accTiles_succ k001 g (n % 4)).symm

/-- After the last key tile the accumulator holds the attention rows. -/
theorem acc_last (t : Fin cfg1.N) (h3 : t.val % 4 = 3) (r : Fin 128) (d : Fin 1024) :
    (outsAt1 V c t.val t.isLt).2 (ix2 r d) = att (Qf V c) (Kf V c) (Vf V c) (bOf t) (rowOf t r) d := by
  rw [acc_eq V c t.val t.isLt r d, h3, accTiles_three k001 k001_nonneg k001_ne_top]
  unfold att gAt
  refine congrArg (· * k001) (Finset.sum_congr rfl fun s _ => ?_)
  rw [dif_pos s.isLt]

set_option maxHeartbeats 1000000 in
/-- At the last key tile the accumulator just updated, as the payload the result's block is computed from. -/
theorem acc_last_pay (t : Fin cfg1.N) (h3 : t.val % 4 = 3) (r : Fin 128) (d : Fin 1024) :
    k1_pay6 (F := Ideal) (View.ld (iblk1 V c 1 t) (tileRect (grid1.coords t))) (View.ld (iblk1 V c 2 t) (tileRect (grid1.coords t))) (iblk1 V c 0 t) (outsAt1 V c (t.val - 1) (Nat.lt_of_le_of_lt (Nat.sub_le _ _) t.isLt)).2 (ix2 r d)
      = att (Qf V c) (Kf V c) (Vf V c) (bOf t) (rowOf t r) d := by
  have h0 : ¬t.val % 4 = 0 := by omega
  have h1 : t.val % 4 = 3 := h3
  have h := acc_last V c t h3 r d
  rw [outsAt1_C V c t h0 h1] at h
  dsimp only at h
  rw [sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2] at h
  exact h

set_option maxHeartbeats 1000000 in
/-- THE RESULT'S BLOCK at the last key tile: everything after the projections, at the block's rows. -/
theorem out_eq (t : Fin cfg1.N) (h3 : t.val % 4 = 3) (r : Fin 128) (e : Fin 1024) :
    (outsAt1 V c t.val t.isLt).1 (ix3 (0 : Fin 1) r e)
      = tail (Qf V c) (Kf V c) (Vf V c) (Xf V c) (woA V c) (l2A V c) (w1A V c) (w2A V c) (bOf t) (rowOf t r) e := by
  have h0 : ¬t.val % 4 = 0 := by omega
  have h1 : t.val % 4 = 3 := h3
  rw [outsAt1_C V c t h0 h1]
  dsimp only
  rw [out1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2]
  refine (pay1_row _ (iblk1 V c 4 t) (iblk1 V c 3 t) (iblk1 V c 5 t) (iblk1 V c 6 t) (iblk1 V c 7 t) r e (bOf t) (rowOf t r)).trans ?_
  rw [tail_eq_tail']
  refine (tail'_congr _ (att (Qf V c) (Kf V c) (Vf V c)) _ (Xf V c) _ _ _ _ (bOf t) (bOf t) (rowOf t r) (rowOf t r) (fun d => ?_) (fun d => ?_) e).trans ?_
  · exact acc_last_pay V c t h3 r d
  · exact iblk1_3_apply V c t r d
  · simp only [iblk1_4_apply, iblk1_5_apply, iblk1_6_apply, iblk1_7_apply]

end Cert.KernelIdeal.Hand

end
-- ==== Proof.KI.R1Cover.lean ====
/-
  The second region's result array, from its blocks.

  The result's window is flushed only at the last key tile of a query tile: at point number n with n mod 4 = 3, and
  the block written there is rows 128·(n / 4 mod 16) … of batch entry n / 64, all 1024 channels. Row t of batch entry
  b therefore lies in the block of point 64·b + 4·(t / 128) + 3, so the flushed blocks cover the array; when every
  flushed block holds, element by element, one function of the array's coordinates, the array ends holding that
  function.
-/
import proofs.«163628_j7679401525971_2_alg».proof.Proof.KI.R1Blocks
import proofs.«163628_j7679401525971_2_alg».proof.Proof.KI.R1Spec
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable (V : VT Ideal) (c : Dev nD)

/-- An index of the result array is in point `t`'s block iff each coordinate is in the block's range on its axis. -/
theorem mem_blk8 (t : Fin cfg1.N) (i : S4x2048x1024.Idx) :
    i ∈ ((cfg1.win 8).blk t).view.set ↔ ∀ a : Fin 3, win1_8.index t a * S1x128x1024.size a ≤ (i a).val
      ∧ (i a).val < win1_8.index t a * S1x128x1024.size a + S1x128x1024.size a := by
  show i ∈ ((View.whole main_v13).slice (win1_8.rect t)).set ↔ _
  rw [View.set_slice_whole, Rect.mem_set_unit]
  exact Iff.rfl

/-- Where an element of point `t`'s block of the result sits in the array. -/
theorem emb8 (t : Fin cfg1.N) (r : Fin 128) (e : Fin 1024) :
    ((cfg1.win 8).blk t).view.emb (ix3 (0 : Fin 1) r e) = ix3 (bOf t) (rowOf t r) e := by
  obtain ⟨e0, e1, e2⟩ := idx1_8 t
  refine funext fun a => Fin.ext ?_
  match a with
  | ⟨0, _⟩ => show win1_8.index t (0 : Fin 3) * 1 + 1 * 0 = t.val / 64; rw [e0]; omega
  | ⟨1, _⟩ => show win1_8.index t (1 : Fin 3) * 128 + 1 * r.val = 128 * (t.val / 4 % 16) + r.val; rw [e1]; omega
  | ⟨2, _⟩ => show win1_8.index t (2 : Fin 3) * 1024 + 1 * e.val = e.val; rw [e2]; omega

/-- Every index of the result array is in the block of a point that flushes it. -/
theorem cover8 (i : S4x2048x1024.Idx) :
    ∃ t : Fin cfg1.N, (cfg1.win 8).flush t = true ∧ i ∈ ((cfg1.win 8).blk t).view.set := by
  have hb : (i 0).val < 4 := (i 0).isLt
  have hp : (i 1).val < 2048 := (i 1).isLt
  have he : (i 2).val < 1024 := (i 2).isLt
  have hN : cfg1.N = 256 := N_1
  refine ⟨⟨64 * (i 0).val + 4 * ((i 1).val / 128) + 3, by rw [hN]; omega⟩, ?_, ?_⟩
  · exact (flush1_8 _).mpr (by show (64 * (i 0).val + 4 * ((i 1).val / 128) + 3) % 4 = 3; omega)
  · rw [mem_blk8]
    obtain ⟨e0, e1, e2⟩ := idx1_8 ⟨64 * (i 0).val + 4 * ((i 1).val / 128) + 3, by rw [hN]; omega⟩
    intro a
    match a with
    | ⟨0, _⟩ =>
      show win1_8.index _ (0 : Fin 3) * 1 ≤ (i 0).val ∧ (i 0).val < win1_8.index _ (0 : Fin 3) * 1 + 1
      rw [e0]; show (64 * (i 0).val + 4 * ((i 1).val / 128) + 3) / 64 * 1 ≤ (i 0).val ∧ (i 0).val < (64 * (i 0).val + 4 * ((i 1).val / 128) + 3) / 64 * 1 + 1
      omega
    | ⟨1, _⟩ =>
      show win1_8.index _ (1 : Fin 3) * 128 ≤ (i 1).val ∧ (i 1).val < win1_8.index _ (1 : Fin 3) * 128 + 128
      rw [e1]; show (64 * (i 0).val + 4 * ((i 1).val / 128) + 3) / 4 % 16 * 128 ≤ (i 1).val ∧ (i 1).val < (64 * (i 0).val + 4 * ((i 1).val / 128) + 3) / 4 % 16 * 128 + 128
      omega
    | ⟨2, _⟩ =>
      show win1_8.index _ (2 : Fin 3) * 1024 ≤ (i 2).val ∧ (i 2).val < win1_8.index _ (2 : Fin 3) * 1024 + 1024
      rw [e2]; omega

variable (dat : Dat τ (Elt Ideal) Unit ℕ (UR sig nD τ) ℕ cfg1 c)
  (hout : ∀ (t : Fin cfg1.N) (h3 : t.val % 4 = 3) (r : Fin 128) (e : Fin 1024),
    (dat.after 8 t : Vec Ideal S1x128x1024 .f32) (ix3 (0 : Fin 1) r e)
      = Cert.Spec.tail (Qf V c) (Kf V c) (Vf V c) (Xf V c) (woA V c) (l2A V c) (w1A V c) (w2A V c) (bOf t) (rowOf t r) e)

include hout

/-- What a flushing point writes back is its block of the one function of the coordinates. -/
theorem flushed8_of (t : Fin cfg1.N) (hf : (cfg1.win 8).flush t = true) :
    dat.flushed 8 t = ((cfg1.win 8).blk t).view.read (Elt Ideal) (G8 V c) := by
  show (cfg1.win 8).cut (grid1.coords t) (dat.after 8 t) = _
  have h3 := (flush1_8 t).mp hf
  refine funext fun (y : S1x128x1024.Idx) => ?_
  obtain ⟨r0, r, e, rfl⟩ : ∃ (r0 : Fin 1) (r : Fin 128) (e : Fin 1024), y = ix3 r0 r e := ⟨y 0, y 1, y 2, eq_ix3 y⟩
  obtain rfl : r0 = 0 := Subsingleton.elim _ _
  have hx : (cfg1.win 8).xinj (grid1.coords t) (ix3 (0 : Fin 1) r e) = ix3 (0 : Fin 1) r e :=
    funext fun a => by match a with | ⟨0, _⟩ => rfl | ⟨1, _⟩ => rfl | ⟨2, _⟩ => rfl
  show (dat.after 8 t : Vec Ideal S1x128x1024 .f32) ((cfg1.win 8).xinj (grid1.coords t) (ix3 (0 : Fin 1) r e)) = _
  rw [hx, hout t h3 r e, View.read_apply, emb8 t r e]
  rfl

/-- The result array after the region is that function. -/
theorem arr8_of : dat.arrAt 8 cfg1.N = G8 V c :=
  dat.arrAt_eq_of_cover 8 (G8 V c) (fun t hf => flushed8_of V c dat hout t hf) (fun i => cover8 i)

end Cert.KernelIdeal.Hand

end
-- ==== Proof.KI.R1Final.lean ====
/-
  The second region's result array is everything after the three projections, of the arrays the region reads.

  The body at the last key tile of a query tile leaves, in the result's buffer, the rows of that tile: row r of the
  tile of point number n is row 128·(n / 4 mod 16) + r of batch entry n / 64 of the one function of the coordinates.
  That is what is flushed there; the flushed blocks cover the array; so the array ends holding that function.
-/
import proofs.«163628_j7679401525971_2_alg».proof.Proof.KI.R1Body
import proofs.«163628_j7679401525971_2_alg».proof.Proof.KI.R1Cover

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable (V : VT Ideal) (c : Dev nD)
  (hout : ∀ (t : Fin cfg1.N) (h3 : t.val % 4 = 3) (r : Fin 128) (e : Fin 1024),
    (outsAt1 V c t.val t.isLt).1 (ValueIdx.ix3 (0 : Fin 1) r e)
      = Cert.Spec.tail (Qf V c) (Kf V c) (Vf V c) (Xf V c) (woA V c) (l2A V c) (w1A V c) (w2A V c) (bOf t) (rowOf t r) e)

include hout

/-- What the result's buffer holds after the body at a flushing point, element by element. -/
theorem after8_at (t : Fin cfg1.N) (h3 : t.val % 4 = 3) (r : Fin 128) (e : Fin 1024) :
    ((dat1 V c).after 8 t : Vec Ideal S1x128x1024 .f32) (ix3 (0 : Fin 1) r e)
      = Cert.Spec.tail (Qf V c) (Kf V c) (Vf V c) (Xf V c) (woA V c) (l2A V c) (w1A V c) (w2A V c) (bOf t) (rowOf t r) e :=
  (congrFun (after1_8 V c t) _).trans (hout t h3 r e)

/-- What a flushing point writes back is its block of the one function of the coordinates. -/
theorem flushed8_eq (t : Fin cfg1.N) (hf : (cfg1.win 8).flush t = true) :
    (dat1 V c).flushed 8 t = ((cfg1.win 8).blk t).view.read (Elt Ideal) (G8 V c) :=
  flushed8_of V c (dat1 V c) (after8_at V c hout) t hf

/-- The result array after the region. -/
theorem arr1_8_fun : (dat1 V c).arrAt 8 cfg1.N = G8 V c :=
  arr8_of V c (dat1 V c) (after8_at V c hout)

/-- The same, at a coordinate. -/
theorem arr1_8 (b : Fin 4) (t : Fin 2048) (c' : Fin 1024) :
    (dat1 V c).arrAt 8 cfg1.N (ValueIdx.ix3 b t c')
      = Cert.Spec.tail (Qf V c) (Kf V c) (Vf V c) (Xf V c) (woA V c) (l2A V c) (w1A V c) (w2A V c) b t c' := by
  rw [arr1_8_fun V c hout]
  rfl

end Cert.KernelIdeal.Hand

end
-- ==== Proof.KI.Value.lean ====
/-
  The kernel's result array at a coordinate is the block of the nine launch arrays.

  The first region leaves the three projections of the scaled input in its three output arrays; the second region,
  entered from those, leaves everything after the projections in the result array; the weights' windows hold the
  launch weights transposed. Composed, the result is the block.
-/
import proofs.«163628_j7679401525971_2_alg».proof.Proof.KI.RunValue
import proofs.«163628_j7679401525971_2_alg».proof.Proof.KI.R0Value
import proofs.«163628_j7679401525971_2_alg».proof.Proof.KI.R1Value
import proofs.«163628_j7679401525971_2_alg».proof.Proof.KI.R1Final

set_option maxRecDepth 16384

noncomputable section

namespace Cert.KernelIdeal.Hand

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-- The result array at the end of the run, at (b, t, c'), is the block of the launch arrays there. -/
theorem kernel_value (c : Dev nD) (b : Fin 4) (t : Fin 2048) (c' : Fin 1024) :
    W3 m ρ c (Proc.devRef .tc main_v13) (ValueIdx.ix3 b t c')
      = Cert.Spec.block (fun b t c'' => m ((c : Thread nD τ).loc main_arg0) (ValueIdx.ix3 b t c''))
          (fun d c'' => m ((c : Thread nD τ).loc main_arg1) (ValueIdx.ix2 d c'')) (fun d c'' => m ((c : Thread nD τ).loc main_arg2) (ValueIdx.ix2 d c''))
          (fun d c'' => m ((c : Thread nD τ).loc main_arg3) (ValueIdx.ix2 d c'')) (fun d c'' => m ((c : Thread nD τ).loc main_arg4) (ValueIdx.ix2 d c''))
          (fun f c'' => m ((c : Thread nD τ).loc main_arg5) (ValueIdx.ix2 f c'')) (fun c'' f => m ((c : Thread nD τ).loc main_arg6) (ValueIdx.ix2 c'' f))
          (fun c'' => m ((c : Thread nD τ).loc main_arg7) (ValueIdx.ix1 c'')) (fun c'' => m ((c : Thread nD τ).loc main_arg8) (ValueIdx.ix1 c'')) b t c' :=
  kernel_result m ρ c (fun b t d => arr0_5 (V1 m ρ) c b t d) (fun b t d => arr0_6 (V1 m ρ) c b t d)
    (fun b t d => arr0_7 (V1 m ρ) c b t d) (fun b t c' => arr1_8 (V2 m ρ) c (out_eq (V2 m ρ) c) b t c') b t c'

end Cert.KernelIdeal.Hand

end
-- ==== Proof.RefGen.lean ====
/-
  The reference's side: its generated run and read-at-an-index lemmas, gathered under one import.
-/
import proofs.«163628_j7679401525971_2_alg».proof.Proof.Gen.ReferenceIdeal.Run
import proofs.«163628_j7679401525971_2_alg».proof.Proof.Gen.ReferenceIdeal.Read
-- ==== Proof.RefBlock.lean ====
/-
  The reference program's result, read at one coordinate, is the block of `Cert.Spec`.

  The reference computes the block one whole array at a time: it scales the input by the first weight row and by
  0.1, contracts the scaled rows with each of the three projection matrices along their SECOND axis (so a matrix
  enters as `w d c`, output coordinate first), contracts queries with keys channel by channel inside each batch entry,
  applies the quadratic u·u·0.1 + u·0.1 to every score, contracts the activated scores with the values over the 2048
  positions, projects, blends with the input, and runs the second half the same way. Read at a coordinate (b, t, c),
  every pointwise operation is the operation on the operands' entries there, a broadcast is the entry of the smaller
  array, and a contraction is the finite sum over the contracted coordinate; the constants stay the words the
  program spells. Stage by stage these are the definitions of `Cert.Spec`, so no algebraic law is used here: the
  only content is which entry of which operand each stage reads.
-/
import proofs.«163628_j7679401525971_2_alg».proof.Proof.RefGen
import proofs.«163628_j7679401525971_2_alg».proof.Proof.Spec
import proofs.«163628_j7679401525971_2_alg».proof.Proof.Gen.Pre_finite_inputs
import proofs.«163628_j7679401525971_2_alg».proof.Defs

noncomputable section

namespace Cert.ReferenceIdeal.RefValue

open Cert.ReferenceIdeal Cert.ReferenceIdeal.Read Idealize.ShloMosaic Idealize.ShloMosaic.ValueIdx Idealize.SL.Sem

variable (x : FVec Ideal S4x2048x1024 .f32) (Wq Wk Wv Wo : FVec Ideal S1024x1024 .f32)
  (W1 : FVec Ideal S2048x1024 .f32) (W2 : FVec Ideal S1024x2048 .f32) (l1 l2 : FVec Ideal S1024 .f32)

/-! ## The stages of the block, as functions of the argument arrays -/

/-- The input, coordinate by coordinate. -/
abbrev xs : Cert.Spec.F3 := fun b t c => x (ix3 b t c)
/-- The scaled input of the first half. -/
abbrev hs : Cert.Spec.F3 := Cert.Spec.scaled (xs x) (fun c => l1 (ix1 c))
/-- Queries, keys and values. -/
abbrev qs : Cert.Spec.F3 := Cert.Spec.lin (hs x l1) (fun d c => Wq (ix2 d c)) Cert.Spec.k001
abbrev ks : Cert.Spec.F3 := Cert.Spec.lin (hs x l1) (fun d c => Wk (ix2 d c)) Cert.Spec.k001
abbrev vs : Cert.Spec.F3 := Cert.Spec.lin (hs x l1) (fun d c => Wv (ix2 d c)) Cert.Spec.k01
/-- The attention rows. -/
abbrev ats : Cert.Spec.F3 := Cert.Spec.att (qs x Wq l1) (ks x Wk l1) (vs x Wv l1)
/-- The result of the first half. -/
abbrev x2s : Cert.Spec.F3 :=
  Cert.Spec.blend (xs x) (Cert.Spec.lin (ats x Wq Wk Wv l1) (fun d c => Wo (ix2 d c)) Cert.Spec.k01)
/-- The hidden features of the second half. -/
abbrev us : Fin 4 → Fin 2048 → Fin 2048 → EReal :=
  Cert.Spec.hidden (Cert.Spec.scaled (x2s x Wq Wk Wv Wo l1) (fun c => l2 (ix1 c))) (fun f c => W1 (ix2 f c))

/-! ## Which entries each stage reads -/

/-- A weight row broadcast over batch entries and positions is read at its channel. -/
theorem row_idx (b : Fin 4) (t : Fin 2048) (c : Fin 1024) : idx_main_v0 (idx_main_v1 (ix3 b t c)) = ix1 c :=
  funext fun a => Fin.ext (by match a with | ⟨0, _⟩ => rfl)
theorem row_idx' (b : Fin 4) (t : Fin 2048) (c : Fin 1024) : idx_main_v36 (idx_main_v37 (ix3 b t c)) = ix1 c :=
  funext fun a => Fin.ext (by match a with | ⟨0, _⟩ => rfl)

/-- The three projections contract the channel of a row with the second axis of the matrix. -/
theorem lq (b : Fin 4) (t : Fin 2048) (d k : Fin 1024) : lidx_main_v5 (ix3 b t d) k = ix3 b t k := funext fun a => Fin.ext (by match a with | ⟨0, _⟩ => rfl | ⟨1, _⟩ => rfl | ⟨2, _⟩ => rfl)
theorem rq (b : Fin 4) (t : Fin 2048) (d k : Fin 1024) : ridx_main_v5 (ix3 b t d) k = ix2 d k := funext fun a => Fin.ext (by match a with | ⟨0, _⟩ => rfl | ⟨1, _⟩ => rfl)
theorem lk (b : Fin 4) (t : Fin 2048) (d k : Fin 1024) : lidx_main_v8 (ix3 b t d) k = ix3 b t k := funext fun a => Fin.ext (by match a with | ⟨0, _⟩ => rfl | ⟨1, _⟩ => rfl | ⟨2, _⟩ => rfl)
theorem rk (b : Fin 4) (t : Fin 2048) (d k : Fin 1024) : ridx_main_v8 (ix3 b t d) k = ix2 d k := funext fun a => Fin.ext (by match a with | ⟨0, _⟩ => rfl | ⟨1, _⟩ => rfl)
theorem lv (b : Fin 4) (t : Fin 2048) (d k : Fin 1024) : lidx_main_v11 (ix3 b t d) k = ix3 b t k := funext fun a => Fin.ext (by match a with | ⟨0, _⟩ => rfl | ⟨1, _⟩ => rfl | ⟨2, _⟩ => rfl)
theorem rv (b : Fin 4) (t : Fin 2048) (d k : Fin 1024) : ridx_main_v11 (ix3 b t d) k = ix2 d k := funext fun a => Fin.ext (by match a with | ⟨0, _⟩ => rfl | ⟨1, _⟩ => rfl)
/-- A score contracts the channels of the query at position `t` and of the key at position `s`, in one batch entry. -/
theorem ls (b : Fin 4) (t s : Fin 2048) (k : Fin 1024) : lidx_main_v14 (ix3 b t s) k = ix3 b t k := funext fun a => Fin.ext (by match a with | ⟨0, _⟩ => rfl | ⟨1, _⟩ => rfl | ⟨2, _⟩ => rfl)
theorem rs (b : Fin 4) (t s : Fin 2048) (k : Fin 1024) : ridx_main_v14 (ix3 b t s) k = ix3 b s k := funext fun a => Fin.ext (by match a with | ⟨0, _⟩ => rfl | ⟨1, _⟩ => rfl | ⟨2, _⟩ => rfl)
/-- An attention entry contracts the scores of position `t` with the values' channel `d` over the positions. -/
theorem la (b : Fin 4) (t : Fin 2048) (d : Fin 1024) (k : Fin 2048) : lidx_main_v23 (ix3 b t d) k = ix3 b t k := funext fun a => Fin.ext (by match a with | ⟨0, _⟩ => rfl | ⟨1, _⟩ => rfl | ⟨2, _⟩ => rfl)
theorem ra (b : Fin 4) (t : Fin 2048) (d : Fin 1024) (k : Fin 2048) : ridx_main_v23 (ix3 b t d) k = ix3 b k d := funext fun a => Fin.ext (by match a with | ⟨0, _⟩ => rfl | ⟨1, _⟩ => rfl | ⟨2, _⟩ => rfl)
/-- The output projection, the projection to the hidden features and the projection back. -/
theorem lo (b : Fin 4) (t : Fin 2048) (d k : Fin 1024) : lidx_main_v26 (ix3 b t d) k = ix3 b t k := funext fun a => Fin.ext (by match a with | ⟨0, _⟩ => rfl | ⟨1, _⟩ => rfl | ⟨2, _⟩ => rfl)
theorem ro (b : Fin 4) (t : Fin 2048) (d k : Fin 1024) : ridx_main_v26 (ix3 b t d) k = ix2 d k := funext fun a => Fin.ext (by match a with | ⟨0, _⟩ => rfl | ⟨1, _⟩ => rfl)
theorem lu (b : Fin 4) (t f : Fin 2048) (k : Fin 1024) : lidx_main_v41 (ix3 b t f) k = ix3 b t k := funext fun a => Fin.ext (by match a with | ⟨0, _⟩ => rfl | ⟨1, _⟩ => rfl | ⟨2, _⟩ => rfl)
theorem ru (b : Fin 4) (t f : Fin 2048) (k : Fin 1024) : ridx_main_v41 (ix3 b t f) k = ix2 f k := funext fun a => Fin.ext (by match a with | ⟨0, _⟩ => rfl | ⟨1, _⟩ => rfl)
theorem lb (b : Fin 4) (t : Fin 2048) (c : Fin 1024) (k : Fin 2048) : lidx_main_v50 (ix3 b t c) k = ix3 b t k := funext fun a => Fin.ext (by match a with | ⟨0, _⟩ => rfl | ⟨1, _⟩ => rfl | ⟨2, _⟩ => rfl)
theorem rb (b : Fin 4) (t : Fin 2048) (c : Fin 1024) (k : Fin 2048) : ridx_main_v50 (ix3 b t c) k = ix2 c k := funext fun a => Fin.ext (by match a with | ⟨0, _⟩ => rfl | ⟨1, _⟩ => rfl)

/-! ## The stages of the reference at a coordinate -/

/-- The scaled input: x · l₁ · 0.1. -/
theorem h_at (b : Fin 4) (t : Fin 2048) (c : Fin 1024) :
    val_main_v4 (F := Ideal) x l1 (ix3 b t c) = hs x l1 b t c := by
  rw [val_main_v4_apply, val_main_v2_apply, val_main_v1_apply, val_main_v0_apply, val_main_v3_apply,
    val_main_cst_apply, row_idx]
  rfl

/-- The queries: the scaled row against a row of the first matrix, times 0.01. -/
theorem q_at (b : Fin 4) (t : Fin 2048) (d : Fin 1024) :
    val_main_v7 (F := Ideal) x Wq l1 (ix3 b t d) = qs x Wq l1 b t d := by
  rw [val_main_v7_apply, val_main_v5_apply, val_main_v6_apply, val_main_cst_0_apply]
  simp only [lq, rq, h_at]
  rfl

/-- The keys. -/
theorem k_at (b : Fin 4) (t : Fin 2048) (d : Fin 1024) :
    val_main_v10 (F := Ideal) x Wk l1 (ix3 b t d) = ks x Wk l1 b t d := by
  rw [val_main_v10_apply, val_main_v8_apply, val_main_v9_apply, val_main_cst_1_apply]
  simp only [lk, rk, h_at]
  rfl

/-- The values: the same contraction, times 0.1. -/
theorem v_at (b : Fin 4) (t : Fin 2048) (d : Fin 1024) :
    val_main_v13 (F := Ideal) x Wv l1 (ix3 b t d) = vs x Wv l1 b t d := by
  rw [val_main_v13_apply, val_main_v11_apply, val_main_v12_apply, val_main_cst_2_apply]
  simp only [lv, rv, h_at]
  rfl

/-- A score: query row against key row over the channels, times 0.01. -/
theorem score_at (b : Fin 4) (t s : Fin 2048) :
    val_main_v16 (F := Ideal) x Wq Wk l1 (ix3 b t s) = Cert.Spec.score (qs x Wq l1) (ks x Wk l1) b t s := by
  rw [val_main_v16_apply, val_main_v14_apply, val_main_v15_apply, val_main_cst_3_apply]
  simp only [ls, rs, q_at, k_at]
  rfl

/-- The activated score: u · u · 0.1 + u · 0.1 at the score u. -/
theorem act_at (b : Fin 4) (t s : Fin 2048) :
    val_main_v22 (F := Ideal) x Wq Wk l1 (ix3 b t s)
      = Cert.Spec.poly (Cert.Spec.score (qs x Wq l1) (ks x Wk l1) b t s) := by
  rw [val_main_v22_apply, val_main_v19_apply, val_main_v17_apply, val_main_v18_apply, val_main_cst_4_apply,
    val_main_v21_apply, val_main_v20_apply, val_main_cst_5_apply, score_at]
  rfl

/-- The attention row: activated scores against the values over all positions, times 0.01. -/
theorem att_at (b : Fin 4) (t : Fin 2048) (d : Fin 1024) :
    val_main_v25 (F := Ideal) x Wq Wk Wv l1 (ix3 b t d) = ats x Wq Wk Wv l1 b t d := by
  rw [val_main_v25_apply, val_main_v23_apply, val_main_v24_apply, val_main_cst_6_apply]
  simp only [la, ra, act_at, v_at]
  rfl

/-- The first half's result: the attention row projected (times 0.1) and blended with the input. -/
theorem x2_at (b : Fin 4) (t : Fin 2048) (c : Fin 1024) :
    val_main_v35 (F := Ideal) x Wq Wk Wv Wo l1 (ix3 b t c) = x2s x Wq Wk Wv Wo l1 b t c := by
  rw [val_main_v35_apply, val_main_v33_apply, val_main_v30_apply, val_main_v29_apply, val_main_cst_8_apply,
    val_main_v32_apply, val_main_v28_apply, val_main_v26_apply, val_main_v27_apply, val_main_cst_7_apply,
    val_main_v31_apply, val_main_cst_9_apply, val_main_v34_apply, val_main_cst_10_apply]
  simp only [lo, ro, att_at]
  rfl

/-- The scaled input of the second half: x₂ · l₂ · 0.1. -/
theorem h2_at (b : Fin 4) (t : Fin 2048) (c : Fin 1024) :
    val_main_v40 (F := Ideal) x Wq Wk Wv Wo l1 l2 (ix3 b t c)
      = Cert.Spec.scaled (x2s x Wq Wk Wv Wo l1) (fun c => l2 (ix1 c)) b t c := by
  rw [val_main_v40_apply, val_main_v38_apply, val_main_v37_apply, val_main_v36_apply, val_main_v39_apply,
    val_main_cst_11_apply, row_idx', x2_at]
  rfl

/-- A hidden feature: the scaled row against a row of the fourth matrix, times 0.05, activated. -/
theorem hidden_at (b : Fin 4) (t f : Fin 2048) :
    val_main_v49 (F := Ideal) x Wq Wk Wv Wo W1 l1 l2 (ix3 b t f) = us x Wq Wk Wv Wo W1 l1 l2 b t f := by
  rw [val_main_v49_apply, val_main_v46_apply, val_main_v44_apply, val_main_v45_apply, val_main_cst_13_apply,
    val_main_v48_apply, val_main_v47_apply, val_main_cst_14_apply, val_main_v43_apply, val_main_v41_apply,
    val_main_v42_apply, val_main_cst_12_apply]
  simp only [lu, ru, h2_at]
  rfl

/-- The projection back: hidden features against a row of the last matrix, times 0.05. -/
theorem back_at (b : Fin 4) (t : Fin 2048) (c : Fin 1024) :
    val_main_v52 (F := Ideal) x Wq Wk Wv Wo W1 W2 l1 l2 (ix3 b t c)
      = Cert.Spec.back (us x Wq Wk Wv Wo W1 l1 l2) (fun c f => W2 (ix2 c f)) b t c := by
  rw [val_main_v52_apply, val_main_v50_apply, val_main_v51_apply, val_main_cst_15_apply]
  simp only [lb, rb, hidden_at]
  rfl

/-- The result: the first half's result blended with the projection back. -/
theorem out_at (b : Fin 4) (t : Fin 2048) (c : Fin 1024) :
    val_main_v59 (F := Ideal) x Wq Wk Wv Wo W1 W2 l1 l2 (ix3 b t c)
      = Cert.Spec.blend (x2s x Wq Wk Wv Wo l1)
          (Cert.Spec.back (us x Wq Wk Wv Wo W1 l1 l2) (fun c f => W2 (ix2 c f))) b t c := by
  rw [val_main_v59_apply, val_main_v57_apply, val_main_v54_apply, val_main_v53_apply, val_main_cst_16_apply,
    val_main_v56_apply, val_main_v55_apply, val_main_cst_17_apply, val_main_v58_apply, val_main_cst_18_apply,
    x2_at, back_at]
  rfl

/-! ## The reference is the block -/

/-- The reference's result at (b, t, c) is the block of the nine argument arrays there. -/
theorem result_eq (x : FVec Ideal S4x2048x1024 .f32) (Wq Wk Wv Wo : FVec Ideal S1024x1024 .f32)
    (W1 : FVec Ideal S2048x1024 .f32) (W2 : FVec Ideal S1024x2048 .f32) (l1 l2 : FVec Ideal S1024 .f32)
    (b : Fin 4) (t : Fin 2048) (c : Fin 1024) :
    val_main_v59 (F := Ideal) x Wq Wk Wv Wo W1 W2 l1 l2 (ValueIdx.ix3 b t c)
      = Cert.Spec.block (fun b t c => x (ValueIdx.ix3 b t c)) (fun d c => Wq (ValueIdx.ix2 d c))
          (fun d c => Wk (ValueIdx.ix2 d c)) (fun d c => Wv (ValueIdx.ix2 d c)) (fun d c => Wo (ValueIdx.ix2 d c))
          (fun f c => W1 (ValueIdx.ix2 f c)) (fun c f => W2 (ValueIdx.ix2 c f)) (fun c => l1 (ValueIdx.ix1 c))
          (fun c => l2 (ValueIdx.ix1 c)) b t c :=
  out_at x Wq Wk Wv Wo W1 W2 l1 l2 b t c

/-- The same, of the run's own result term over a launch memory. -/
theorem res_eq (m : (ℓ : Loc nD τ sig) → Buf (Elt Ideal) ℓ) (c : Dev nD) (b : Fin 4) (t : Fin 2048) (d : Fin 1024) :
    Cert.ReferenceIdeal.Value.res_main_v59 (F := Ideal) m c (ValueIdx.ix3 b t d)
      = Cert.Spec.block (fun b t c' => m ((c.tc : Thread nD τ).loc main_arg0) (ValueIdx.ix3 b t c'))
          (fun d c' => m ((c.tc : Thread nD τ).loc main_arg1) (ValueIdx.ix2 d c'))
          (fun d c' => m ((c.tc : Thread nD τ).loc main_arg2) (ValueIdx.ix2 d c'))
          (fun d c' => m ((c.tc : Thread nD τ).loc main_arg3) (ValueIdx.ix2 d c'))
          (fun d c' => m ((c.tc : Thread nD τ).loc main_arg4) (ValueIdx.ix2 d c'))
          (fun f c' => m ((c.tc : Thread nD τ).loc main_arg5) (ValueIdx.ix2 f c'))
          (fun c' f => m ((c.tc : Thread nD τ).loc main_arg6) (ValueIdx.ix2 c' f))
          (fun c' => m ((c.tc : Thread nD τ).loc main_arg7) (ValueIdx.ix1 c'))
          (fun c' => m ((c.tc : Thread nD τ).loc main_arg8) (ValueIdx.ix1 c')) b t d := by
  rw [val_main_v59_eq]
  exact result_eq _ _ _ _ _ _ _ _ _ b t d

/-! ## The reference's frame -/

/-- The reference runs and leaves its nine argument arrays as they were: its run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.lean ====
/-
  The claim: the two programs' frames, and that at the extended reals the kernel and the reference end with the same
  result array.

  Both results are one function of the nine argument arrays, the block of `Cert.Spec`: the reference computes it one
  whole array at a time, the kernel in two regions — the three projections of the scaled input, then, query tile by
  query tile and key tile by key tile, everything after them — over the weights transposed. From memories that agree
  on the arguments the two results are therefore equal entry by entry.
-/
import proofs.«163628_j7679401525971_2_alg».proof.Defs
import proofs.«163628_j7679401525971_2_alg».proof.Proof.Gen.Kernel
import proofs.«163628_j7679401525971_2_alg».proof.Proof.Gen.Kernel.Skeleton
import proofs.«163628_j7679401525971_2_alg».proof.Proof.Gen.Kernel.Launch
import proofs.«163628_j7679401525971_2_alg».proof.Proof.Gen.Kernel.Regions
import proofs.«163628_j7679401525971_2_alg».proof.Proof.Gen.Kernel.Points
import proofs.«163628_j7679401525971_2_alg».proof.Proof.Gen.KernelIdeal
import proofs.«163628_j7679401525971_2_alg».proof.Proof.Gen.KernelIdeal.Skeleton
import proofs.«163628_j7679401525971_2_alg».proof.Proof.Gen.KernelIdeal.Launch
import proofs.«163628_j7679401525971_2_alg».proof.Proof.Gen.KernelIdeal.Regions
import proofs.«163628_j7679401525971_2_alg».proof.Proof.Gen.KernelIdeal.Points
import proofs.«163628_j7679401525971_2_alg».proof.Proof.Gen.ReferenceIdeal
import proofs.«163628_j7679401525971_2_alg».proof.Proof.Gen.ReferenceIdeal.Run
import proofs.«163628_j7679401525971_2_alg».proof.Proof.Gen.ReferenceIdeal.Read
import proofs.«163628_j7679401525971_2_alg».proof.Proof.Gen.Pre_finite_inputs
import proofs.«163628_j7679401525971_2_alg».proof.Proof.K.Run
import proofs.«163628_j7679401525971_2_alg».proof.Proof.KI.Value
import proofs.«163628_j7679401525971_2_alg».proof.Proof.RefBlock
import Idealize.ShloMosaic.Adequacy
import Idealize.ShloMosaic.Init

set_option maxRecDepth 16384

noncomputable section

namespace Cert.Proof

open Idealize.ShloMosaic Idealize.SL.Sem Cert.Kernel

/-- The kernel as printed runs and leaves its arguments as they were. -/
theorem frame_p : Cert.frame_Kernel := fun m ρ _ => Cert.Kernel.Hand.frame (F := Bits) m ρ

/-- The kernel at the extended reals runs and leaves its arguments as they were. -/
theorem frame_pi : Cert.frame_KernelIdeal := fun m ρ _ => Cert.KernelIdeal.Hand.frame (F := Ideal) m ρ

/-- The reference runs and leaves its arguments as they were. -/
theorem frame_ri : Cert.frame_ReferenceIdeal := Cert.ReferenceIdeal.RefValue.frame_ri

/-- The idealized kernel is the kernel's own text read at the extended reals: no operation was rewritten. -/
theorem preserves : Cert.preserves_Kernel_KernelIdeal := trivial

/-- The block of nine arrays depends only on the arrays. -/
theorem block_congr {x x' : Cert.Spec.F3} {wq wq' wk wk' wv wv' wo wo' : Fin 1024 → Fin 1024 → EReal}
    {w1 w1' : Fin 2048 → Fin 1024 → EReal} {w2 w2' : Fin 1024 → Fin 2048 → EReal} {l1 l1' l2 l2' : Fin 1024 → EReal}
    (hx : x' = x) (hq : wq' = wq) (hk : wk' = wk) (hv : wv' = wv) (ho : wo' = wo) (h1 : w1' = w1) (h2 : w2' = w2)
    (hl1 : l1' = l1) (hl2 : l2' = l2) :
    Cert.Spec.block x' wq' wk' wv' wo' w1' w2' l1' l2' = Cert.Spec.block x wq wk wv wo w1 w2 l1 l2 := by
  subst hx hq hk hv ho h1 h2 hl1 hl2; rfl

/-- From memories that agree on the nine arguments, the reference's result array is the kernel's. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v59 (F := Ideal) m' c
      = Cert.KernelIdeal.Hand.W3 m ρ c (Proc.devRef .tc Cert.KernelIdeal.main_v13) := by
  refine funext fun (i : Cert.ReferenceIdeal.S4x2048x1024.Idx) => ?_
  obtain ⟨b, t, d, rfl⟩ : ∃ (b : Fin 4) (t : Fin 2048) (d : Fin 1024), i = ValueIdx.ix3 b t d :=
    ⟨i 0, i 1, i 2, ValueIdx.eq_ix3 i⟩
  have e : Cert.Spec.block (fun b t c' => m' ((c.tc : Thread Cert.ReferenceIdeal.nD Cert.ReferenceIdeal.τ).loc Cert.ReferenceIdeal.main_arg0) (ValueIdx.ix3 b t c'))
          (fun d c' => m' ((c.tc : Thread Cert.ReferenceIdeal.nD Cert.ReferenceIdeal.τ).loc Cert.ReferenceIdeal.main_arg1) (ValueIdx.ix2 d c')) (fun d c' => m' ((c.tc : Thread Cert.ReferenceIdeal.nD Cert.ReferenceIdeal.τ).loc Cert.ReferenceIdeal.main_arg2) (ValueIdx.ix2 d c'))
          (fun d c' => m' ((c.tc : Thread Cert.ReferenceIdeal.nD Cert.ReferenceIdeal.τ).loc Cert.ReferenceIdeal.main_arg3) (ValueIdx.ix2 d c')) (fun d c' => m' ((c.tc : Thread Cert.ReferenceIdeal.nD Cert.ReferenceIdeal.τ).loc Cert.ReferenceIdeal.main_arg4) (ValueIdx.ix2 d c'))
          (fun f c' => m' ((c.tc : Thread Cert.ReferenceIdeal.nD Cert.ReferenceIdeal.τ).loc Cert.ReferenceIdeal.main_arg5) (ValueIdx.ix2 f c')) (fun c' f => m' ((c.tc : Thread Cert.ReferenceIdeal.nD Cert.ReferenceIdeal.τ).loc Cert.ReferenceIdeal.main_arg6) (ValueIdx.ix2 c' f))
          (fun c' => m' ((c.tc : Thread Cert.ReferenceIdeal.nD Cert.ReferenceIdeal.τ).loc Cert.ReferenceIdeal.main_arg7) (ValueIdx.ix1 c')) (fun c' => m' ((c.tc : Thread Cert.ReferenceIdeal.nD Cert.ReferenceIdeal.τ).loc Cert.ReferenceIdeal.main_arg8) (ValueIdx.ix1 c'))
      = Cert.Spec.block (fun b t c' => m ((c.tc : Thread Cert.KernelIdeal.nD Cert.KernelIdeal.τ).loc Cert.KernelIdeal.main_arg0) (ValueIdx.ix3 b t c'))
          (fun d c' => m ((c.tc : Thread Cert.KernelIdeal.nD Cert.KernelIdeal.τ).loc Cert.KernelIdeal.main_arg1) (ValueIdx.ix2 d c')) (fun d c' => m ((c.tc : Thread Cert.KernelIdeal.nD Cert.KernelIdeal.τ).loc Cert.KernelIdeal.main_arg2) (ValueIdx.ix2 d c'))
          (fun d c' => m ((c.tc : Thread Cert.KernelIdeal.nD Cert.KernelIdeal.τ).loc Cert.KernelIdeal.main_arg3) (ValueIdx.ix2 d c')) (fun d c' => m ((c.tc : Thread Cert.KernelIdeal.nD Cert.KernelIdeal.τ).loc Cert.KernelIdeal.main_arg4) (ValueIdx.ix2 d c'))
          (fun f c' => m ((c.tc : Thread Cert.KernelIdeal.nD Cert.KernelIdeal.τ).loc Cert.KernelIdeal.main_arg5) (ValueIdx.ix2 f c')) (fun c' f => m ((c.tc : Thread Cert.KernelIdeal.nD Cert.KernelIdeal.τ).loc Cert.KernelIdeal.main_arg6) (ValueIdx.ix2 c' f))
          (fun c' => m ((c.tc : Thread Cert.KernelIdeal.nD Cert.KernelIdeal.τ).loc Cert.KernelIdeal.main_arg7) (ValueIdx.ix1 c')) (fun c' => m ((c.tc : Thread Cert.KernelIdeal.nD Cert.KernelIdeal.τ).loc Cert.KernelIdeal.main_arg8) (ValueIdx.ix1 c')) :=
    block_congr (funext fun b => funext fun t => funext fun c' => congrFun h0 (ValueIdx.ix3 b t c'))
      (funext fun d => funext fun c' => congrFun h1 (ValueIdx.ix2 d c'))
      (funext fun d => funext fun c' => congrFun h2 (ValueIdx.ix2 d c'))
      (funext fun d => funext fun c' => congrFun h3 (ValueIdx.ix2 d c'))
      (funext fun d => funext fun c' => congrFun h4 (ValueIdx.ix2 d c'))
      (funext fun f => funext fun c' => congrFun h5 (ValueIdx.ix2 f c'))
      (funext fun c' => funext fun f => congrFun h6 (ValueIdx.ix2 c' f))
      (funext fun c' => congrFun h7 (ValueIdx.ix1 c'))
      (funext fun c' => congrFun h8 (ValueIdx.ix1 c'))
  exact (Cert.ReferenceIdeal.RefValue.res_eq m' c b t d).trans
    ((congrFun (congrFun (congrFun e b) t) d).trans (Cert.KernelIdeal.Hand.kernel_value m ρ c b t d).symm)

/-- At the extended reals, from memories that agree on the arguments, both programs run, end with the same result
    array and leave the arguments as they were. -/
theorem algebraic : Cert.algebraic_KernelIdeal_ReferenceIdeal := by
  intro m ρ m' ρ' _ hagree
  refine ⟨fun c => Cert.KernelIdeal.Hand.W3 m ρ c (Proc.devRef .tc Cert.KernelIdeal.main_v13), ?_, ?_⟩
  · exact (θ_run Cert.KernelIdeal.defs _ _).mono (fun r h c =>
      ⟨h c _ (Cert.KernelIdeal.Hand.mem_uc Cert.KernelIdeal.main_v13 (by decide)),
        (h c _ (Cert.KernelIdeal.Hand.mem_uc Cert.KernelIdeal.main_arg0 (by decide))).trans (Cert.KernelIdeal.Hand.W3_main_arg0 m ρ c),
        (h c _ (Cert.KernelIdeal.Hand.mem_uc Cert.KernelIdeal.main_arg1 (by decide))).trans (Cert.KernelIdeal.Hand.W3_main_arg1 m ρ c),
        (h c _ (Cert.KernelIdeal.Hand.mem_uc Cert.KernelIdeal.main_arg2 (by decide))).trans (Cert.KernelIdeal.Hand.W3_main_arg2 m ρ c),
        (h c _ (Cert.KernelIdeal.Hand.mem_uc Cert.KernelIdeal.main_arg3 (by decide))).trans (Cert.KernelIdeal.Hand.W3_main_arg3 m ρ c),
        (h c _ (Cert.KernelIdeal.Hand.mem_uc Cert.KernelIdeal.main_arg4 (by decide))).trans (Cert.KernelIdeal.Hand.W3_main_arg4 m ρ c),
        (h c _ (Cert.KernelIdeal.Hand.mem_uc Cert.KernelIdeal.main_arg5 (by decide))).trans (Cert.KernelIdeal.Hand.W3_main_arg5 m ρ c),
        (h c _ (Cert.KernelIdeal.Hand.mem_uc Cert.KernelIdeal.main_arg6 (by decide))).trans (Cert.KernelIdeal.Hand.W3_main_arg6 m ρ c),
        (h c _ (Cert.KernelIdeal.Hand.mem_uc Cert.KernelIdeal.main_arg7 (by decide))).trans (Cert.KernelIdeal.Hand.W3_main_arg7 m ρ c),
        (h c _ (Cert.KernelIdeal.Hand.mem_uc Cert.KernelIdeal.main_arg8 (by decide))).trans (Cert.KernelIdeal.Hand.W3_main_arg8 m ρ c)⟩)
      (Cert.KernelIdeal.Hand.run_all (F := Ideal) m ρ)
  · exact (θ_run Cert.ReferenceIdeal.defs _ _).mono (fun _ h c =>
      ⟨(h c).1.trans (results_agree m ρ m' c (hagree c).1 (hagree c).2.1 (hagree c).2.2.1 (hagree c).2.2.2.1
          (hagree c).2.2.2.2.1 (hagree c).2.2.2.2.2.1 (hagree c).2.2.2.2.2.2.1 (hagree c).2.2.2.2.2.2.2.1
          (hagree c).2.2.2.2.2.2.2.2),
        (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
